-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x6 : Shape := ⟨2, ![2000000, 6]⟩
abbrev S2000000x4x4 : Shape := ⟨3, ![2000000, 4, 4]⟩
abbrev S_ : Shape := ⟨0, ![]⟩

class Facts : Prop where
  bcast_S_S2000000x6 : S_.BroadcastsInDim S2000000x6 (![] : Fin 0 → Fin S2000000x6.rank)
  reducesTo_S2000000x6_S_d0_1 : S2000000x6.ReducesTo [0, 1] S_
  h_S_ : 0 < S_.numel
  bcast_S_S2000000x4x4 : S_.BroadcastsInDim S2000000x4x4 (![] : Fin 0 → Fin S2000000x4x4.rank)
  reducesTo_S2000000x4x4_S_d0_1_2 : S2000000x4x4.ReducesTo [0, 1, 2] S_

variable [Facts]

def fn {F : FTy → Type} [FloatOps F] (main_arg0 : FVec F S2000000x6 .f32) (main_arg1 : FVec F S2000000x4x4 .f32) : IVec S_ 1 :=
  let main_v0 : FVec F S2000000x6 .f32 := Host.absf main_arg0
  let main_cst : FVec F S_ .f32 := constant S_ .f32 0x7F800000#32
  let main_v1 : FVec F S2000000x6 .f32 := broadcastInDim S2000000x6 ![] bcast_S_S2000000x6 main_cst
  let main_v2 : IVec S2000000x6 1 := cmpf .olt main_v0 main_v1
  let main_c : IVec S_ 1 := constantI S_ 1 1#1
  let main_v3 : IVec S_ 1 := (fun x v => Host.reduce IntOp.andi x v reducesTo_S2000000x6_S_d0_1 h_S_) main_v2 main_c
  let main_v4 : FVec F S2000000x4x4 .f32 := Host.absf main_arg1
  let main_cst_0 : FVec F S_ .f32 := constant S_ .f32 0x7F800000#32
  let main_v5 : FVec F S2000000x4x4 .f32 := broadcastInDim S2000000x4x4 ![] bcast_S_S2000000x4x4 main_cst_0
  let main_v6 : IVec S2000000x4x4 1 := cmpf .olt main_v4 main_v5
  let main_c_1 : IVec S_ 1 := constantI S_ 1 1#1
  let main_v7 : IVec S_ 1 := (fun x v => Host.reduce IntOp.andi x v reducesTo_S2000000x4x4_S_d0_1_2 h_S_) main_v6 main_c_1
  let main_v8 : IVec S_ 1 := andi main_v3 main_v7
  main_v8
-- ==== Kernel.lean ====
abbrev S2000000x6 : Shape := ⟨2, ![2000000, 6]⟩
abbrev S2000000x4x4 : Shape := ⟨3, ![2000000, 4, 4]⟩
abbrev S_ : Shape := ⟨0, ![]⟩
abbrev S2097152x6 : Shape := ⟨2, ![2097152, 6]⟩
abbrev S2000000x16 : Shape := ⟨2, ![2000000, 16]⟩
abbrev S2097152x16 : Shape := ⟨2, ![2097152, 16]⟩
abbrev S6x2097152 : Shape := ⟨2, ![6, 2097152]⟩
abbrev S6x16384x128 : Shape := ⟨3, ![6, 16384, 128]⟩
abbrev S16x2097152 : Shape := ⟨2, ![16, 2097152]⟩
abbrev S16x16384x128 : Shape := ⟨3, ![16, 16384, 128]⟩
abbrev S6x512x128 : Shape := ⟨3, ![6, 512, 128]⟩
abbrev S16x512x128 : Shape := ⟨3, ![16, 512, 128]⟩
abbrev S1x512x128 : Shape := ⟨3, ![1, 512, 128]⟩
abbrev S512x128 : Shape := ⟨2, ![512, 128]⟩
abbrev S16x2000000 : Shape := ⟨2, ![16, 2000000]⟩

abbrev nBuf : Space → Nat
  | .hbm => 18
  | .vmem => 6
  | .smem => 0
  | _ => 0

abbrev bufTy : (tb : Table) → Fin (tcTables nBuf tb) → BufTy
  | .hbm, ⟨0, _⟩ => ⟨S2000000x6, .f32⟩
  | .hbm, ⟨1, _⟩ => ⟨S2000000x4x4, .f32⟩
  | .hbm, ⟨2, _⟩ => ⟨S_, .i32⟩
  | .hbm, ⟨3, _⟩ => ⟨S_, .f32⟩
  | .hbm, ⟨4, _⟩ => ⟨S2097152x6, .f32⟩
  | .hbm, ⟨5, _⟩ => ⟨S2000000x16, .f32⟩
  | .hbm, ⟨6, _⟩ => ⟨S_, .i32⟩
  | .hbm, ⟨7, _⟩ => ⟨S_, .f32⟩
  | .hbm, ⟨8, _⟩ => ⟨S2097152x16, .f32⟩
  | .hbm, ⟨9, _⟩ => ⟨S6x2097152, .f32⟩
  | .hbm, ⟨10, _⟩ => ⟨S6x16384x128, .f32⟩
  | .hbm, ⟨11, _⟩ => ⟨S16x2097152, .f32⟩
  | .hbm, ⟨12, _⟩ => ⟨S16x16384x128, .f32⟩
  | .hbm, ⟨13, _⟩ => ⟨S16x16384x128, .f32⟩
  | .hbm, ⟨14, _⟩ => ⟨S16x2097152, .f32⟩
  | .hbm, ⟨15, _⟩ => ⟨S16x2000000, .f32⟩
  | .hbm, ⟨16, _⟩ => ⟨S2000000x16, .f32⟩
  | .hbm, ⟨17, _⟩ => ⟨S2000000x4x4, .f32⟩
  | .local _ .vmem, ⟨0, _⟩ => ⟨S6x512x128, .f32⟩
  | .local _ .vmem, ⟨1, _⟩ => ⟨S6x512x128, .f32⟩
  | .local _ .vmem, ⟨2, _⟩ => ⟨S16x512x128, .f32⟩
  | .local _ .vmem, ⟨3, _⟩ => ⟨S16x512x128, .f32⟩
  | .local _ .vmem, ⟨4, _⟩ => ⟨S16x512x128, .f32⟩
  | .local _ .vmem, ⟨5, _⟩ => ⟨S16x512x128, .f32⟩
  | _, _ => ⟨S2000000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S6x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S2000000x6_S2097152x6_0971520_000 : S2000000x6.Pads (![0, 0] : Fin 2 → Nat) ![97152, 0] ![0, 0] S2097152x6
  h_S_ : 0 < S_.numel
  shapeCasts_S2000000x4x4_S2000000x16 : S2000000x4x4.ShapeCasts S2000000x16
  pads_S2000000x16_S2097152x16_0971520_000 : S2000000x16.Pads (![0, 0] : Fin 2 → Nat) ![97152, 0] ![0, 0] S2097152x16
  transposes_S2097152x6_S6x2097152_1_0 : S2097152x6.Transposes [1, 0] S6x2097152
  shapeCasts_S6x2097152_S6x16384x128 : S6x2097152.ShapeCasts S6x16384x128
  transposes_S2097152x16_S16x2097152_1_0 : S2097152x16.Transposes [1, 0] S16x2097152
  shapeCasts_S16x2097152_S16x16384x128 : S16x2097152.ShapeCasts S16x16384x128
  inb_S6x512x128_S1x512x128_0_0_0 : ∀ a, (![0, 0, 0] : Fin 3 → Nat) a + S1x512x128.size a ≤ S6x512x128.size a
  h_S1x512x128 : 0 < S1x512x128.numel
  shapeCasts_S1x512x128_S512x128 : S1x512x128.ShapeCasts S512x128
  inb_S6x512x128_S1x512x128_1_0_0 : ∀ a, (![1, 0, 0] : Fin 3 → Nat) a + S1x512x128.size a ≤ S6x512x128.size a
  inb_S6x512x128_S1x512x128_2_0_0 : ∀ a, (![2, 0, 0] : Fin 3 → Nat) a + S1x512x128.size a ≤ S6x512x128.size a
  inb_S6x512x128_S1x512x128_3_0_0 : ∀ a, (![3, 0, 0] : Fin 3 → Nat) a + S1x512x128.size a ≤ S6x512x128.size a
  inb_S6x512x128_S1x512x128_4_0_0 : ∀ a, (![4, 0, 0] : Fin 3 → Nat) a + S1x512x128.size a ≤ S6x512x128.size a
  inb_S6x512x128_S1x512x128_5_0_0 : ∀ a, (![5, 0, 0] : Fin 3 → Nat) a + S1x512x128.size a ≤ S6x512x128.size a
  inb_S16x512x128_S1x512x128_0_0_0 : ∀ a, (![0, 0, 0] : Fin 3 → Nat) a + S1x512x128.size a ≤ S16x512x128.size a
  inb_S16x512x128_S1x512x128_4_0_0 : ∀ a, (![4, 0, 0] : Fin 3 → Nat) a + S1x512x128.size a ≤ S16x512x128.size a
  inb_S16x512x128_S1x512x128_8_0_0 : ∀ a, (![8, 0, 0] : Fin 3 → Nat) a + S1x512x128.size a ≤ S16x512x128.size a
  inb_S16x512x128_S1x512x128_12_0_0 : ∀ a, (![12, 0, 0] : Fin 3 → Nat) a + S1x512x128.size a ≤ S16x512x128.size a
  shapeCasts_S512x128_S1x512x128 : S512x128.ShapeCasts S1x512x128
  inb_S16x512x128_S1x512x128_1_0_0 : ∀ a, (![1, 0, 0] : Fin 3 → Nat) a + S1x512x128.size a ≤ S16x512x128.size a
  inb_S16x512x128_S1x512x128_5_0_0 : ∀ a, (![5, 0, 0] : Fin 3 → Nat) a + S1x512x128.size a ≤ S16x512x128.size a
  inb_S16x512x128_S1x512x128_9_0_0 : ∀ a, (![9, 0, 0] : Fin 3 → Nat) a + S1x512x128.size a ≤ S16x512x128.size a
  inb_S16x512x128_S1x512x128_13_0_0 : ∀ a, (![13, 0, 0] : Fin 3 → Nat) a + S1x512x128.size a ≤ S16x512x128.size a
  inb_S16x512x128_S1x512x128_2_0_0 : ∀ a, (![2, 0, 0] : Fin 3 → Nat) a + S1x512x128.size a ≤ S16x512x128.size a
  inb_S16x512x128_S1x512x128_6_0_0 : ∀ a, (![6, 0, 0] : Fin 3 → Nat) a + S1x512x128.size a ≤ S16x512x128.size a
  inb_S16x512x128_S1x512x128_10_0_0 : ∀ a, (![10, 0, 0] : Fin 3 → Nat) a + S1x512x128.size a ≤ S16x512x128.size a
  inb_S16x512x128_S1x512x128_14_0_0 : ∀ a, (![14, 0, 0] : Fin 3 → Nat) a + S1x512x128.size a ≤ S16x512x128.size a
  inb_S16x512x128_S1x512x128_3_0_0 : ∀ a, (![3, 0, 0] : Fin 3 → Nat) a + S1x512x128.size a ≤ S16x512x128.size a
  inb_S16x512x128_S1x512x128_7_0_0 : ∀ a, (![7, 0, 0] : Fin 3 → Nat) a + S1x512x128.size a ≤ S16x512x128.size a
  inb_S16x512x128_S1x512x128_11_0_0 : ∀ a, (![11, 0, 0] : Fin 3 → Nat) a + S1x512x128.size a ≤ S16x512x128.size a
  inb_S16x512x128_S1x512x128_15_0_0 : ∀ a, (![15, 0, 0] : Fin 3 → Nat) a + S1x512x128.size a ≤ S16x512x128.size a
  shapeCasts_S16x16384x128_S16x2097152 : S16x16384x128.ShapeCasts S16x2097152
  slices_S16x2097152_S16x2000000_0_0 : S16x2097152.Slices ![0, 0] S16x2000000
  transposes_S16x2000000_S2000000x16_1_0 : S16x2000000.Transposes [1, 0] S2000000x16
  shapeCasts_S2000000x16_S2000000x4x4 : S2000000x16.ShapeCasts S2000000x4x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x512x128.size a ≤ S6x16384x128.size a
  hwx0_0 : ∀ i : grid0.Coords, EltTy.bits .f32 = 32 ∨ (Rect.block (s := S6x16384x128) S6x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x512x128.size a ≤ S16x16384x128.size a
  hwx0_1 : ∀ i : grid0.Coords, EltTy.bits .f32 = 32 ∨ (Rect.block (s := S16x16384x128) S16x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512x128.size a ≤ S16x16384x128.size a
  hwx0_2 : ∀ i : grid0.Coords, EltTy.bits .f32 = 32 ∨ (Rect.block (s := S16x16384x128) S16x512x128.size (cc0_transform_2 i) (hinb0_2 i)).WholeWords (EltTy.packing .f32)

variable [Facts₀]

abbrev win0_0 : Pipeline.Window sig grid0 :=
  Pipeline.Window.ofSpec (Memref.whole main_v4) S6x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S16x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S16x512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2000000x6 : Shape := ⟨2, ![2000000, 6]⟩
abbrev S2000000x4x4 : Shape := ⟨3, ![2000000, 4, 4]⟩
abbrev S4 : Shape := ⟨1, ![4]⟩
abbrev S2000000x3 : Shape := ⟨2, ![2000000, 3]⟩
abbrev S_ : Shape := ⟨0, ![]⟩
abbrev S2000000 : Shape := ⟨1, ![2000000]⟩
abbrev S2000000x1 : Shape := ⟨2, ![2000000, 1]⟩
abbrev S2000000x1x3 : Shape := ⟨3, ![2000000, 1, 3]⟩
abbrev S2000000x3x3 : Shape := ⟨3, ![2000000, 3, 3]⟩
abbrev S3x3 : Shape := ⟨2, ![3, 3]⟩
abbrev S2000000x1x1 : Shape := ⟨3, ![2000000, 1, 1]⟩
abbrev S1x3x3 : Shape := ⟨3, ![1, 3, 3]⟩
abbrev S2000000x3x1 : Shape := ⟨3, ![2000000, 3, 1]⟩
abbrev S2000000x3x4 : Shape := ⟨3, ![2000000, 3, 4]⟩
abbrev S2000000x1x4 : Shape := ⟨3, ![2000000, 1, 4]⟩

abbrev nBuf : Space → Nat
  | .hbm => 122
  | .vmem => 0
  | .smem => 0
  | _ => 0

abbrev bufTy : (tb : Table) → Fin (tcTables nBuf tb) → BufTy
  | .hbm, ⟨0, _⟩ => ⟨S2000000x6, .f32⟩
  | .hbm, ⟨1, _⟩ => ⟨S2000000x4x4, .f32⟩
  | .hbm, ⟨2, _⟩ => ⟨S4, .f32⟩
  | .hbm, ⟨3, _⟩ => ⟨S2000000x3, .f32⟩
  | .hbm, ⟨4, _⟩ => ⟨S2000000x3, .f32⟩
  | .hbm, ⟨5, _⟩ => ⟨S2000000x3, .f32⟩
  | .hbm, ⟨6, _⟩ => ⟨S_, .f32⟩
  | .hbm, ⟨7, _⟩ => ⟨S2000000, .f32⟩
  | .hbm, ⟨8, _⟩ => ⟨S2000000, .f32⟩
  | .hbm, ⟨9, _⟩ => ⟨S_, .f32⟩
  | .hbm, ⟨10, _⟩ => ⟨S2000000, .f32⟩
  | .hbm, ⟨11, _⟩ => ⟨S2000000, .i1⟩
  | .hbm, ⟨12, _⟩ => ⟨S_, .f32⟩
  | .hbm, ⟨13, _⟩ => ⟨S2000000, .f32⟩
  | .hbm, ⟨14, _⟩ => ⟨S2000000, .f32⟩
  | .hbm, ⟨15, _⟩ => ⟨S2000000x1, .f32⟩
  | .hbm, ⟨16, _⟩ => ⟨S2000000x3, .f32⟩
  | .hbm, ⟨17, _⟩ => ⟨S2000000x3, .f32⟩
  | .hbm, ⟨18, _⟩ => ⟨S2000000x1, .f32⟩
  | .hbm, ⟨19, _⟩ => ⟨S2000000, .f32⟩
  | .hbm, ⟨20, _⟩ => ⟨S_, .f32⟩
  | .hbm, ⟨21, _⟩ => ⟨S2000000, .f32⟩
  | .hbm, ⟨22, _⟩ => ⟨S2000000x1, .f32⟩
  | .hbm, ⟨23, _⟩ => ⟨S2000000, .f32⟩
  | .hbm, ⟨24, _⟩ => ⟨S2000000, .f32⟩
  | .hbm, ⟨25, _⟩ => ⟨S2000000x1, .f32⟩
  | .hbm, ⟨26, _⟩ => ⟨S2000000, .f32⟩
  | .hbm, ⟨27, _⟩ => ⟨S2000000x1, .f32⟩
  | .hbm, ⟨28, _⟩ => ⟨S2000000x1, .f32⟩
  | .hbm, ⟨29, _⟩ => ⟨S2000000x1, .f32⟩
  | .hbm, ⟨30, _⟩ => ⟨S2000000x3, .f32⟩
  | .hbm, ⟨31, _⟩ => ⟨S2000000x1, .f32⟩
  | .hbm, ⟨32, _⟩ => ⟨S2000000, .f32⟩
  | .hbm, ⟨33, _⟩ => ⟨S2000000x1, .f32⟩
  | .hbm, ⟨34, _⟩ => ⟨S2000000, .f32⟩
  | .hbm, ⟨35, _⟩ => ⟨S2000000, .f32⟩
  | .hbm, ⟨36, _⟩ => ⟨S2000000x1, .f32⟩
  | .hbm, ⟨37, _⟩ => ⟨S2000000x1, .f32⟩
  | .hbm, ⟨38, _⟩ => ⟨S2000000x1, .f32⟩
  | .hbm, ⟨39, _⟩ => ⟨S2000000x3, .f32⟩
  | .hbm, ⟨40, _⟩ => ⟨S2000000x1, .f32⟩
  | .hbm, ⟨41, _⟩ => ⟨S2000000, .f32⟩
  | .hbm, ⟨42, _⟩ => ⟨S2000000, .f32⟩
  | .hbm, ⟨43, _⟩ => ⟨S2000000x1, .f32⟩
  | .hbm, ⟨44, _⟩ => ⟨S2000000, .f32⟩
  | .hbm, ⟨45, _⟩ => ⟨S2000000x1, .f32⟩
  | .hbm, ⟨46, _⟩ => ⟨S2000000x1, .f32⟩
  | .hbm, ⟨47, _⟩ => ⟨S2000000x1, .f32⟩
  | .hbm, ⟨48, _⟩ => ⟨S2000000x3, .f32⟩
  | .hbm, ⟨49, _⟩ => ⟨S2000000x1x3, .f32⟩
  | .hbm, ⟨50, _⟩ => ⟨S2000000x1x3, .f32⟩
  | .hbm, ⟨51, _⟩ => ⟨S2000000x1x3, .f32⟩
  | .hbm, ⟨52, _⟩ => ⟨S2000000x3x3, .f32⟩
  | .hbm, ⟨53, _⟩ => ⟨S3x3, .i32⟩
  | .hbm, ⟨54, _⟩ => ⟨S3x3, .i32⟩
  | .hbm, ⟨55, _⟩ => ⟨S_, .i32⟩
  | .hbm, ⟨56, _⟩ => ⟨S3x3, .i32⟩
  | .hbm, ⟨57, _⟩ => ⟨S3x3, .i32⟩
  | .hbm, ⟨58, _⟩ => ⟨S3x3, .i1⟩
  | .hbm, ⟨59, _⟩ => ⟨S3x3, .f32⟩
  | .hbm, ⟨60, _⟩ => ⟨S2000000, .f32⟩
  | .hbm, ⟨61, _⟩ => ⟨S2000000x1x1, .f32⟩
  | .hbm, ⟨62, _⟩ => ⟨S2000000, .f32⟩
  | .hbm, ⟨63, _⟩ => ⟨S_, .f32⟩
  | .hbm, ⟨64, _⟩ => ⟨S2000000, .f32⟩
  | .hbm, ⟨65, _⟩ => ⟨S2000000, .f32⟩
  | .hbm, ⟨66, _⟩ => ⟨S2000000x1x1, .f32⟩
  | .hbm, ⟨67, _⟩ => ⟨S2000000x3x3, .f32⟩
  | .hbm, ⟨68, _⟩ => ⟨S2000000x3x3, .f32⟩
  | .hbm, ⟨69, _⟩ => ⟨S1x3x3, .f32⟩
  | .hbm, ⟨70, _⟩ => ⟨S2000000x3x3, .f32⟩
  | .hbm, ⟨71, _⟩ => ⟨S2000000x3x3, .f32⟩
  | .hbm, ⟨72, _⟩ => ⟨S2000000x3x3, .f32⟩
  | .hbm, ⟨73, _⟩ => ⟨S2000000x3x3, .f32⟩
  | .hbm, ⟨74, _⟩ => ⟨S2000000x3x3, .f32⟩
  | .hbm, ⟨75, _⟩ => ⟨S2000000x3x3, .f32⟩
  | .hbm, ⟨76, _⟩ => ⟨S2000000x1, .f32⟩
  | .hbm, ⟨77, _⟩ => ⟨S2000000, .f32⟩
  | .hbm, ⟨78, _⟩ => ⟨S_, .f32⟩
  | .hbm, ⟨79, _⟩ => ⟨S2000000, .f32⟩
  | .hbm, ⟨80, _⟩ => ⟨S2000000x1, .f32⟩
  | .hbm, ⟨81, _⟩ => ⟨S2000000, .f32⟩
  | .hbm, ⟨82, _⟩ => ⟨S2000000, .f32⟩
  | .hbm, ⟨83, _⟩ => ⟨S2000000x1, .f32⟩
  | .hbm, ⟨84, _⟩ => ⟨S2000000, .f32⟩
  | .hbm, ⟨85, _⟩ => ⟨S2000000x1, .f32⟩
  | .hbm, ⟨86, _⟩ => ⟨S2000000x1, .f32⟩
  | .hbm, ⟨87, _⟩ => ⟨S2000000x1, .f32⟩
  | .hbm, ⟨88, _⟩ => ⟨S2000000x3, .f32⟩
  | .hbm, ⟨89, _⟩ => ⟨S2000000x1, .f32⟩
  | .hbm, ⟨90, _⟩ => ⟨S2000000, .f32⟩
  | .hbm, ⟨91, _⟩ => ⟨S2000000x1, .f32⟩
  | .hbm, ⟨92, _⟩ => ⟨S2000000, .f32⟩
  | .hbm, ⟨93, _⟩ => ⟨S2000000, .f32⟩
  | .hbm, ⟨94, _⟩ => ⟨S2000000x1, .f32⟩
  | .hbm, ⟨95, _⟩ => ⟨S2000000x1, .f32⟩
  | .hbm, ⟨96, _⟩ => ⟨S2000000x1, .f32⟩
  | .hbm, ⟨97, _⟩ => ⟨S2000000x3, .f32⟩
  | .hbm, ⟨98, _⟩ => ⟨S2000000x1, .f32⟩
  | .hbm, ⟨99, _⟩ => ⟨S2000000, .f32⟩
  | .hbm, ⟨100, _⟩ => ⟨S2000000, .f32⟩
  | .hbm, ⟨101, _⟩ => ⟨S2000000x1, .f32⟩
  | .hbm, ⟨102, _⟩ => ⟨S2000000, .f32⟩
  | .hbm, ⟨103, _⟩ => ⟨S2000000x1, .f32⟩
  | .hbm, ⟨104, _⟩ => ⟨S2000000x1, .f32⟩
  | .hbm, ⟨105, _⟩ => ⟨S2000000x1, .f32⟩
  | .hbm, ⟨106, _⟩ => ⟨S2000000x3, .f32⟩
  | .hbm, ⟨107, _⟩ => ⟨S2000000x1x3, .f32⟩
  | .hbm, ⟨108, _⟩ => ⟨S2000000x1x3, .f32⟩
  | .hbm, ⟨109, _⟩ => ⟨S2000000x1x3, .f32⟩
  | .hbm, ⟨110, _⟩ => ⟨S2000000x3x3, .f32⟩
  | .hbm, ⟨111, _⟩ => ⟨S1x3x3, .f32⟩
  | .hbm, ⟨112, _⟩ => ⟨S2000000x3x3, .f32⟩
  | .hbm, ⟨113, _⟩ => ⟨S2000000x3x3, .f32⟩
  | .hbm, ⟨114, _⟩ => ⟨S2000000x1x1, .i1⟩
  | .hbm, ⟨115, _⟩ => ⟨S2000000x3x3, .i1⟩
  | .hbm, ⟨116, _⟩ => ⟨S2000000x3x3, .f32⟩
  | .hbm, ⟨117, _⟩ => ⟨S2000000x3x1, .f32⟩
  | .hbm, ⟨118, _⟩ => ⟨S2000000x3x4, .f32⟩
  | .hbm, ⟨119, _⟩ => ⟨S2000000x1x4, .f32⟩
  | .hbm, ⟨120, _⟩ => ⟨S2000000x4x4, .f32⟩
  | .hbm, ⟨121, _⟩ => ⟨S2000000x4x4, .f32⟩
  | _, _ => ⟨S2000000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_c : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_3 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_cst_4 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_call2_v0 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩

abbrev nD : Nat := 1
abbrev τ : Topo := Topo.v7x

variable {F : FTy → Type} [FloatOps F]

class Facts₀ : Prop where
  slices_S2000000x6_S2000000x3_0_0 : S2000000x6.Slices ![0, 0] S2000000x3
  slices_S2000000x6_S2000000x3_0_3 : S2000000x6.Slices ![0, 3] S2000000x3
  reducesTo_S2000000x3_S2000000_d1 : S2000000x3.ReducesTo [1] S2000000
  h_S_ : 0 < S_.numel
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x3_0_1 : S2000000x1.BroadcastsInDim S2000000x3 (![0, 1] : Fin 2 → Fin S2000000x3.rank)
  slices_S2000000x3_S2000000x1_0_0 : S2000000x3.Slices ![0, 0] S2000000x1
  shapeCasts_S2000000x1_S2000000 : S2000000x1.ShapeCasts S2000000
  slices_S2000000x3_S2000000x1_0_2 : S2000000x3.Slices ![0, 2] S2000000x1
  slices_S2000000x3_S2000000x1_0_1 : S2000000x3.Slices ![0, 1] S2000000x1
  concatenates_S2000000x1_S2000000x1_S2000000x1_S2000000x3_d1 : Shape.Concatenates [S2000000x1, S2000000x1, S2000000x1] S2000000x3 1
  bcast_S2000000x3_S2000000x1x3_0_2 : S2000000x3.BroadcastsInDim S2000000x1x3 (![0, 2] : Fin 2 → Fin S2000000x1x3.rank)
  concatenates_S2000000x1x3_S2000000x1x3_S2000000x1x3_S2000000x3x3_d1 : Shape.Concatenates [S2000000x1x3, S2000000x1x3, S2000000x1x3] S2000000x3x3 1
  bcast_S_S3x3 : S_.BroadcastsInDim S3x3 (![] : Fin 0 → Fin S3x3.rank)
  bcast_S2000000_S2000000x1x1_0 : S2000000.BroadcastsInDim S2000000x1x1 (![0] : Fin 1 → Fin S2000000x1x1.rank)
  bcast_S2000000x1x1_S2000000x3x3_0_1_2 : S2000000x1x1.BroadcastsInDim S2000000x3x3 (![0, 1, 2] : Fin 3 → Fin S2000000x3x3.rank)
  bcast_S3x3_S1x3x3_1_2 : S3x3.BroadcastsInDim S1x3x3 (![1, 2] : Fin 2 → Fin S1x3x3.rank)
  bcast_S1x3x3_S2000000x3x3_0_1_2 : S1x3x3.BroadcastsInDim S2000000x3x3 (![0, 1, 2] : Fin 3 → Fin S2000000x3x3.rank)
  bcast_S2000000x3_S2000000x3x1_0_1 : S2000000x3.BroadcastsInDim S2000000x3x1 (![0, 1] : Fin 2 → Fin S2000000x3x1.rank)
  concatenates_S2000000x3x3_S2000000x3x1_S2000000x3x4_d2 : Shape.Concatenates [S2000000x3x3, S2000000x3x1] S2000000x3x4 2
  bcast_S4_S2000000x1x4_2 : S4.BroadcastsInDim S2000000x1x4 (![2] : Fin 1 → Fin S2000000x1x4.rank)
  concatenates_S2000000x3x4_S2000000x1x4_S2000000x4x4_d1 : Shape.Concatenates [S2000000x3x4, S2000000x1x4] S2000000x4x4 1
  dot_S2000000x3x3_S2000000x3x3_S2000000x3x3_2_1_1_2_0_0_wf : DotDims.WF S2000000x3x3 S2000000x3x3 S2000000x3x3 [2] [1] [1] [2] [0] [0]
  dot_S2000000x4x4_S2000000x4x4_S2000000x4x4_2_1_1_2_0_0_wf : DotDims.WF S2000000x4x4 S2000000x4x4 S2000000x4x4 [2] [1] [1] [2] [0] [0]

variable [Facts₀]

def dot_S2000000x3x3_S2000000x3x3_S2000000x3x3_2_1_1_2_0_0 : DotDims S2000000x3x3 S2000000x3x3 S2000000x3x3 where
  lhsContracting := [2]
  rhsContracting := [1]
  lhsNonContracting := [1]
  rhsNonContracting := [2]
  lhsBatch := [0]
  rhsBatch := [0]
  wf := dot_S2000000x3x3_S2000000x3x3_S2000000x3x3_2_1_1_2_0_0_wf
def dot_S2000000x4x4_S2000000x4x4_S2000000x4x4_2_1_1_2_0_0 : DotDims S2000000x4x4 S2000000x4x4 S2000000x4x4 where
  lhsContracting := [2]
  rhsContracting := [1]
  lhsNonContracting := [1]
  rhsNonContracting := [2]
  lhsBatch := [0]
  rhsBatch := [0]
  wf := dot_S2000000x4x4_S2000000x4x4_S2000000x4x4_2_1_1_2_0_0_wf

class Facts : Prop extends Facts₀ where

variable [Facts]
-- ==== Proof.Spec.lean ====
/-
  The per-pose mathematics of the SE(3) update, stated once over the extended reals.

  A pose's six parameters are a translation (t0, t1, t2) and a rotation vector ω = (ox, oy, oz); its 4×4 initial pose
  is P.  With θ = |ω|, the unit axis k = ω / θ (or ω itself when θ is below the small-angle threshold, where the divisor is 1),
  s = sin θ and c = 1 − cos θ, the rotation is Rodrigues' R = I + s·K + c·K², K the skew matrix of k, and first-order
  R = I + skew ω below the threshold.  The result is T · P with T = [[R, t], [0 0 0 1]].

  Two spellings of that result are given: `Kf`, entry by entry with the products of K² multiplied out and every sum
  associated to the left (sixteen channels, channel 4·i + j is entry (i, j)), and `Rf`, with the skew matrices, the identity matrix
  and both matrix products written as sums over an index.  On finite inputs they agree (proved elsewhere).
-/
import Idealize.ShloMosaic.PureOps.Ideal
import Idealize.ShloMosaic.PureOps.Ideal.Laws
import Idealize.ShloMosaic.Lib.ValueIdx

noncomputable section

namespace Cert.SE3

open Idealize.ShloMosaic

/-- The small-angle threshold, the float nearest 1e-6. -/
def epsW : EReal := Ideal.ofBits .f32 0x358637BD#32
/-- The float one. -/
def oneW : EReal := Ideal.ofBits .f32 0x3F800000#32
/-- The float zero. -/
def zeroW : EReal := Ideal.ofBits .f32 0x00000000#32

/-! ## Entry by entry, products multiplied out -/

/-- The rotation angle θ = √(ox² + oy² + oz²). -/
def thetaK (ox oy oz : EReal) : EReal := Ideal.sqrt (ox * ox + oy * oy + oz * oz)
/-- Whether θ is below the threshold. -/
def smallK (ox oy oz : EReal) : BitVec 1 := Ideal.cmp .olt (thetaK ox oy oz) epsW
/-- The divisor of the axis: 1 below the threshold, θ otherwise. -/
def safeK (ox oy oz : EReal) : EReal := Scalar.select (smallK ox oy oz) oneW (thetaK ox oy oz)
/-- s = sin θ. -/
def sinK (ox oy oz : EReal) : EReal := Ideal.sin (thetaK ox oy oz)
/-- c = 1 − cos θ. -/
def verK (ox oy oz : EReal) : EReal := oneW - Ideal.cos (thetaK ox oy oz)

/-- The rotation matrix's nine entries: below the threshold I + skew ω, otherwise Rodrigues' formula with K² multiplied out. -/
def rotK (ox oy oz : EReal) : Fin 3 → Fin 3 → EReal :=
  let b := smallK ox oy oz
  let d := safeK ox oy oz
  let kx := Ideal.div ox d
  let ky := Ideal.div oy d
  let kz := Ideal.div oz d
  let s := sinK ox oy oz
  let c := verK ox oy oz
  fun i j => match i, j with
    | 0, 0 => Scalar.select b oneW (oneW - c * (kz * kz + ky * ky))
    | 0, 1 => Scalar.select b (zeroW - oz) ((zeroW - s) * kz + c * (ky * kx))
    | 0, 2 => Scalar.select b oy (s * ky + c * (kz * kx))
    | 1, 0 => Scalar.select b oz (s * kz + c * (kx * ky))
    | 1, 1 => Scalar.select b oneW (oneW - c * (kz * kz + kx * kx))
    | 1, 2 => Scalar.select b (zeroW - ox) ((zeroW - s) * kx + c * (kz * ky))
    | 2, 0 => Scalar.select b (zeroW - oy) ((zeroW - s) * ky + c * (kx * kz))
    | 2, 1 => Scalar.select b ox (s * kx + c * (ky * kz))
    | 2, 2 => Scalar.select b oneW (oneW - c * (ky * ky + kx * kx))

/-- One entry of a row of [R | t] times a column of P, summed left to right. -/
def rowK (a b c t p0 p1 p2 p3 : EReal) : EReal := a * p0 + b * p1 + c * p2 + t * p3

/-- The sixteen channels of T · P from the six parameters `x` = (t0, t1, t2, ox, oy, oz) and the sixteen channels `p` of P
    (channel 4·i + j is entry (i, j)): rows 0–2 by `rowK`, row 3 is P's row 3. -/
def Kf (x : Fin 6 → EReal) (p : Fin 16 → EReal) : Fin 16 → EReal := fun k =>
  let R := rotK (x 3) (x 4) (x 5)
  match k with
  | 0 => rowK (R 0 0) (R 0 1) (R 0 2) (x 0) (p 0) (p 4) (p 8) (p 12)
  | 1 => rowK (R 0 0) (R 0 1) (R 0 2) (x 0) (p 1) (p 5) (p 9) (p 13)
  | 2 => rowK (R 0 0) (R 0 1) (R 0 2) (x 0) (p 2) (p 6) (p 10) (p 14)
  | 3 => rowK (R 0 0) (R 0 1) (R 0 2) (x 0) (p 3) (p 7) (p 11) (p 15)
  | 4 => rowK (R 1 0) (R 1 1) (R 1 2) (x 1) (p 0) (p 4) (p 8) (p 12)
  | 5 => rowK (R 1 0) (R 1 1) (R 1 2) (x 1) (p 1) (p 5) (p 9) (p 13)
  | 6 => rowK (R 1 0) (R 1 1) (R 1 2) (x 1) (p 2) (p 6) (p 10) (p 14)
  | 7 => rowK (R 1 0) (R 1 1) (R 1 2) (x 1) (p 3) (p 7) (p 11) (p 15)
  | 8 => rowK (R 2 0) (R 2 1) (R 2 2) (x 2) (p 0) (p 4) (p 8) (p 12)
  | 9 => rowK (R 2 0) (R 2 1) (R 2 2) (x 2) (p 1) (p 5) (p 9) (p 13)
  | 10 => rowK (R 2 0) (R 2 1) (R 2 2) (x 2) (p 2) (p 6) (p 10) (p 14)
  | 11 => rowK (R 2 0) (R 2 1) (R 2 2) (x 2) (p 3) (p 7) (p 11) (p 15)
  | 12 => p 12
  | 13 => p 13
  | 14 => p 14
  | _ => p 15

/-! ## With matrices and sums over an index -/

/-- The skew-symmetric matrix of a vector v: [[0, −v2, v1], [v2, 0, −v0], [−v1, v0, 0]], its zeros the float zero. -/
def skewR (v : Fin 3 → EReal) : Fin 3 → Fin 3 → EReal := fun i j => match i, j with
  | 0, 0 => zeroW | 0, 1 => -(v 2) | 0, 2 => v 1
  | 1, 0 => v 2 | 1, 1 => zeroW | 1, 2 => -(v 0)
  | 2, 0 => -(v 1) | 2, 1 => v 0 | 2, 2 => zeroW

/-- The 3×3 identity matrix. -/
def eyeR : Fin 3 → Fin 3 → EReal := fun i j => if i = j then 1 else 0

/-- θ as the root of the float zero plus the sum of the squares of ω's three coordinates. -/
def thetaR (om : Fin 3 → EReal) : EReal := Ideal.sqrt (zeroW + ∑ a : Fin 3, om a * om a)
/-- Whether θ is below the threshold. -/
def smallR (om : Fin 3 → EReal) : BitVec 1 := Ideal.cmp .olt (thetaR om) epsW
/-- The divisor of the axis. -/
def safeR (om : Fin 3 → EReal) : EReal := Scalar.select (smallR om) oneW (thetaR om)

/-- The rotation: below the threshold I + skew ω, otherwise (I + s·K) + c·K², K the skew matrix of ω / divisor and K² the
    sum over the middle index into a zero accumulator. -/
def rotR (om : Fin 3 → EReal) : Fin 3 → Fin 3 → EReal := fun i j =>
  let K := skewR (fun a => Ideal.div (om a) (safeR om))
  Scalar.select (smallR om)
    (eyeR i j + skewR om i j)
    ((eyeR i j + Ideal.sin (thetaR om) * K i j) + (oneW - Ideal.cos (thetaR om)) * (0 + ∑ l : Fin 3, K i l * K l j))

/-- T = [[R, t], [0 0 0 1]], the bottom row float literals. -/
def homR (x : Fin 6 → EReal) : Fin 4 → Fin 4 → EReal := fun i j => match i, j with
  | 3, 0 => zeroW | 3, 1 => zeroW | 3, 2 => zeroW | 3, 3 => oneW
  | 0, 3 => x 0 | 1, 3 => x 1 | 2, 3 => x 2
  | 0, 0 => rotR (fun a => x ⟨3 + a.val, by omega⟩) 0 0 | 0, 1 => rotR (fun a => x ⟨3 + a.val, by omega⟩) 0 1 | 0, 2 => rotR (fun a => x ⟨3 + a.val, by omega⟩) 0 2
  | 1, 0 => rotR (fun a => x ⟨3 + a.val, by omega⟩) 1 0 | 1, 1 => rotR (fun a => x ⟨3 + a.val, by omega⟩) 1 1 | 1, 2 => rotR (fun a => x ⟨3 + a.val, by omega⟩) 1 2
  | 2, 0 => rotR (fun a => x ⟨3 + a.val, by omega⟩) 2 0 | 2, 1 => rotR (fun a => x ⟨3 + a.val, by omega⟩) 2 1 | 2, 2 => rotR (fun a => x ⟨3 + a.val, by omega⟩) 2 2

/-- T · P, the sum over the middle index into a zero accumulator. -/
def Rf (x : Fin 6 → EReal) (P : Fin 4 → Fin 4 → EReal) : Fin 4 → Fin 4 → EReal := fun i j =>
  0 + ∑ l : Fin 4, homR x i l * P l j

/-- Channel 4·i + j of a 4×4 matrix. -/
def chan (i j : Fin 4) : Fin 16 := ⟨4 * i.val + j.val, by omega⟩

/-- A 4×4 matrix as its sixteen channels. -/
def flat (P : Fin 4 → Fin 4 → EReal) : Fin 16 → EReal := fun q => P ⟨q.val / 4, by omega⟩ ⟨q.val % 4, by omega⟩

/-! ## Over the whole arrays -/

/-- The parameter array's shape: one row of six per pose. -/
abbrev SX : Shape := ⟨2, ![2000000, 6]⟩
/-- The pose array's shape: one 4×4 matrix per pose. -/
abbrev SP : Shape := ⟨3, ![2000000, 4, 4]⟩

/-- Pose `n`'s six parameters. -/
def xrow (a0 : SX.Idx → EReal) (n : Fin 2000000) : Fin 6 → EReal := fun k => a0 (ValueIdx.ix2 n k)
/-- Pose `n`'s initial 4×4 matrix. -/
def pmat (a1 : SP.Idx → EReal) (n : Fin 2000000) : Fin 4 → Fin 4 → EReal := fun i j => a1 (ValueIdx.ix3 n i j)

/-- The result array in the matrix spelling: entry (n, i, j) is `Rf` of pose n's parameters and matrix at (i, j). -/
def G (a0 : SX.Idx → EReal) (a1 : SP.Idx → EReal) : SP.Idx → EReal := fun idx =>
  Rf (xrow a0 (idx 0)) (pmat a1 (idx 0)) (idx 1) (idx 2)

/-- The result array in the entry-by-entry spelling: entry (n, i, j) is channel 4·i + j of `Kf`. -/
def GK (a0 : SX.Idx → EReal) (a1 : SP.Idx → EReal) : SP.Idx → EReal := fun idx =>
  Kf (xrow a0 (idx 0)) (flat (pmat a1 (idx 0))) (chan (idx 1) (idx 2))

end Cert.SE3

end
-- ==== Proof.KHost.lean ====
/-
  The arrays the kernel region finds: the parameter array padded with zero rows to 2²¹ poses, transposed to channel-major and
  cut into rows of 128 lanes, and the same for the pose array flattened to sixteen channels.  At lane `lane` of row `L` sits pose
  128·L + lane; for a pose below 2 000 000 the entry is the argument's.
-/
import proofs.«156985_j58256936403585_2_alg».proof.Proof.Gen.KernelIdeal.Frame
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run

set_option maxRecDepth 16384

noncomputable section

namespace Cert.KernelIdeal.KHost

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The channel-major parameter array is the argument padded, transposed and cut into rows of lanes. -/
theorem V_v4 (c : Dev nD) : (V m c main_v4 : S6x16384x128.Idx → EReal) =
    shapeCast S6x16384x128 (transpose S6x2097152 [1, 0]
      (pad S2097152x6 ![0, 0] ![97152, 0] ![0, 0] (m ((c : Thread nD τ).loc main_arg0) : S2000000x6.Idx → EReal)
        (sitofp (F := Ideal) .f32 (constantI S_ 32 0#32)) Gen.pads_S2000000x6_S2097152x6_0971520_000 Gen.h_S_)
      Gen.transposes_S2097152x6_S6x2097152_1_0) Gen.shapeCasts_S6x2097152_S6x16384x128 := by
  dsimp only [V, V0]
  simp only [hostOps0, hostOps0_1, hostOps0_2, hostOps0_3, hostOps0_4, List.flatten_cons, List.flatten_nil, List.append_nil, List.cons_append, List.nil_append]
  after_results
  rfl

/-- Channel `k` at lane `lane` of row `L` is parameter `k` of pose 128·L + lane, for a pose of the argument. -/
theorem V_v4_apply (c : Dev nD) (k : Fin 6) (L : Fin 16384) (lane : Fin 128) (hn : L.val * 128 + lane.val < 2000000) :
    (V m c main_v4 : S6x16384x128.Idx → EReal) (ix3 k L lane)
      = (m ((c : Thread nD τ).loc main_arg0) : S2000000x6.Idx → EReal) (ix2 ⟨L.val * 128 + lane.val, hn⟩ k) := by
  rw [V_v4]
  have hL := L.isLt
  have hl := lane.isLt
  refine (shapeCast_apply _ _ (ix3 k L lane) (ix2 k (⟨L.val * 128 + lane.val, by omega⟩ : Fin 2097152)) ?_).trans
    ((transpose_ix2_apply _ _ k (⟨L.val * 128 + lane.val, by omega⟩ : Fin 2097152)).trans
      (pad_apply_of_inside _ _ _ _ _ _ _ _ (ix2 ⟨L.val * 128 + lane.val, hn⟩ k) ?_))
  · rw [Shape.rowMajor_val_two, Shape.rowMajor_val_three]
    show k.val * 2097152 + (L.val * 128 + lane.val) = (k.val * 16384 + L.val) * 128 + lane.val
    omega
  · intro a
    match a with
    | ⟨0, _⟩ => show L.val * 128 + lane.val = 0 + (L.val * 128 + lane.val) * (0 + 1); omega
    | ⟨1, _⟩ => show k.val = 0 + k.val * (0 + 1); omega

/-- The channel-major pose array is the argument flattened to sixteen channels, padded, transposed and cut into rows of lanes. -/
theorem V_v6 (c : Dev nD) : (V m c main_v6 : S16x16384x128.Idx → EReal) =
    shapeCast S16x16384x128 (transpose S16x2097152 [1, 0]
      (pad S2097152x16 ![0, 0] ![97152, 0] ![0, 0]
        (shapeCast S2000000x16 (m ((c : Thread nD τ).loc main_arg1) : S2000000x4x4.Idx → EReal) Gen.shapeCasts_S2000000x4x4_S2000000x16)
        (sitofp (F := Ideal) .f32 (constantI S_ 32 0#32)) Gen.pads_S2000000x16_S2097152x16_0971520_000 Gen.h_S_)
      Gen.transposes_S2097152x16_S16x2097152_1_0) Gen.shapeCasts_S16x2097152_S16x16384x128 := by
  dsimp only [V, V0]
  simp only [hostOps0, hostOps0_1, hostOps0_2, hostOps0_3, hostOps0_4, List.flatten_cons, List.flatten_nil, List.append_nil, List.cons_append, List.nil_append]
  after_results
  rfl

/-- Channel `q` at lane `lane` of row `L` is entry (q / 4, q % 4) of the matrix of pose 128·L + lane, for a pose of the argument. -/
theorem V_v6_apply (c : Dev nD) (q : Fin 16) (L : Fin 16384) (lane : Fin 128) (hn : L.val * 128 + lane.val < 2000000) :
    (V m c main_v6 : S16x16384x128.Idx → EReal) (ix3 q L lane)
      = (m ((c : Thread nD τ).loc main_arg1) : S2000000x4x4.Idx → EReal)
          (ix3 ⟨L.val * 128 + lane.val, hn⟩ (⟨q.val / 4, by omega⟩ : Fin 4) (⟨q.val % 4, by omega⟩ : Fin 4)) := by
  rw [V_v6]
  have hL := L.isLt
  have hl := lane.isLt
  have hq := q.isLt
  refine (shapeCast_apply _ _ (ix3 q L lane) (ix2 q (⟨L.val * 128 + lane.val, by omega⟩ : Fin 2097152)) ?_).trans
    ((transpose_ix2_apply _ _ q (⟨L.val * 128 + lane.val, by omega⟩ : Fin 2097152)).trans
      ((pad_apply_of_inside _ _ _ _ _ _ _ _ (ix2 ⟨L.val * 128 + lane.val, hn⟩ q) ?_).trans
        (shapeCast_apply _ _ _ _ ?_)))
  · rw [Shape.rowMajor_val_two, Shape.rowMajor_val_three]
    show q.val * 2097152 + (L.val * 128 + lane.val) = (q.val * 16384 + L.val) * 128 + lane.val
    omega
  · intro a
    match a with
    | ⟨0, _⟩ => show L.val * 128 + lane.val = 0 + (L.val * 128 + lane.val) * (0 + 1); omega
    | ⟨1, _⟩ => show q.val = 0 + q.val * (0 + 1); omega
  · show (S2000000x4x4.rowMajor (ix3 (⟨L.val * 128 + lane.val, hn⟩ : Fin 2000000) (⟨q.val / 4, by omega⟩ : Fin 4) (⟨q.val % 4, by omega⟩ : Fin 4))).val
      = (S2000000x16.rowMajor (ix2 (⟨L.val * 128 + lane.val, hn⟩ : Fin 2000000) q)).val
    rw [Shape.rowMajor_val_two, Shape.rowMajor_val_three]
    show ((L.val * 128 + lane.val) * 4 + q.val / 4) * 4 + q.val % 4 = (L.val * 128 + lane.val) * 16 + q.val
    omega

end Cert.KernelIdeal.KHost

end
-- ==== Proof.KPay.lean ====
/-
  What the kernel body leaves in its output block, read at one element.

  The body works on a block of 512 × 128 poses laid out channel-major: the parameter block has 6 channels, the pose block and
  the output block 16.  Every operation of the body is pointwise in the (row, lane) position, and the channel loads and stores
  go through one-channel slabs.  So the output block at (channel, row, lane) is the per-pose function `Kf` of the six parameter
  channels and the sixteen pose channels at the same (row, lane).
-/
import proofs.«156985_j58256936403585_2_alg».proof.Proof.Gen.KernelIdeal.Frame
import proofs.«156985_j58256936403585_2_alg».proof.Proof.Spec
import Idealize.ShloMosaic.Lib.Pipeline.Value
import Idealize.ShloMosaic.Lib.ValueIdx

set_option maxRecDepth 16384

noncomputable section

namespace Cert.KernelIdeal.KPay

open Idealize.ShloMosaic Idealize.ShloMosaic.TcCoe Idealize.ShloMosaic.ValueIdx
open Cert.KernelIdeal Cert.KernelIdeal.Gen Cert.SE3

/-- A slab viewed without its unit channel axis, read at (row, lane), is the slab at (0, row, lane). -/
theorem castDown {α : Type} (v : S1x512x128.Idx → α) (h : S1x512x128.ShapeCasts S512x128) (r : Fin 512) (l : Fin 128) :
    shapeCast S512x128 v h (ix2 r l) = v (ix3 (0 : Fin 1) r l) := by
  refine (shapeCast_dropUnit_apply ![512, 128] v h (ix2 r l)).trans (congrArg v ?_)
  funext a; match a with | ⟨0, _⟩ => rfl | ⟨1, _⟩ => rfl | ⟨2, _⟩ => rfl

/-- A 512 × 128 value given a unit channel axis, read at (z, row, lane), is the value at (row, lane). -/
theorem castUp {α : Type} (v : S512x128.Idx → α) (h : S512x128.ShapeCasts S1x512x128) (z : Fin 1) (r : Fin 512) (l : Fin 128) :
    shapeCast S1x512x128 v h (ix3 z r l) = v (ix2 r l) := by
  refine (shapeCast_addUnit_apply ![512, 128] v h (ix3 z r l)).trans (congrArg v ?_)
  funext a; match a with | ⟨0, _⟩ => rfl | ⟨1, _⟩ => rfl

/-- The one-channel slab at channel `k` of a K-channel block, read at (0, row, lane), is the block at (k, row, lane). -/
theorem ldSlab {α : Type} {K : Nat} (X : (⟨3, ![K, 512, 128]⟩ : Shape).Idx → α) (k : Fin K)
    (inb : ∀ a, (![k.val, 0, 0] : Fin 3 → Nat) a + S1x512x128.size a ≤ (⟨3, ![K, 512, 128]⟩ : Shape).size a)
    (r : Fin 512) (l : Fin 128) :
    (fun x => X ((Rect.unit (s := ⟨3, ![K, 512, 128]⟩) ![k.val, 0, 0] S1x512x128.size inb).idx x)) (ix3 (0 : Fin 1) r l) = X (ix3 k r l) := by
  refine congrArg X ?_
  funext a; apply Fin.ext
  match a with
  | ⟨0, _⟩ => show k.val + 1 * 0 = k.val; omega
  | ⟨1, _⟩ => show 0 + 1 * r.val = r.val; omega
  | ⟨2, _⟩ => show 0 + 1 * l.val = l.val; omega

/-- The slab at channel `k` places (0, row, lane) at (k, row, lane). -/
theorem idxSlab {K : Nat} (k : Fin K)
    (inb : ∀ a, (![k.val, 0, 0] : Fin 3 → Nat) a + S1x512x128.size a ≤ (⟨3, ![K, 512, 128]⟩ : Shape).size a)
    (r : Fin 512) (l : Fin 128) :
    (Rect.unit (s := ⟨3, ![K, 512, 128]⟩) ![k.val, 0, 0] S1x512x128.size inb).idx (ix3 (0 : Fin 1) r l) = ix3 k r l := by
  funext a; apply Fin.ext
  match a with
  | ⟨0, _⟩ => show k.val + 1 * 0 = k.val; omega
  | ⟨1, _⟩ => show 0 + 1 * r.val = r.val; omega
  | ⟨2, _⟩ => show 0 + 1 * l.val = l.val; omega

/-- The slab at channel `k` embeds (0, row, lane) at (k, row, lane). -/
theorem embSlab {K : Nat} (k : Fin K)
    (inb : ∀ a, (![k.val, 0, 0] : Fin 3 → Nat) a + S1x512x128.size a ≤ (⟨3, ![K, 512, 128]⟩ : Shape).size a)
    (r : Fin 512) (l : Fin 128) :
    (Rect.unit (s := ⟨3, ![K, 512, 128]⟩) ![k.val, 0, 0] S1x512x128.size inb).emb (ix3 (0 : Fin 1) r l) = ix3 k r l := by
  funext a; apply Fin.ext
  match a with
  | ⟨0, _⟩ => show k.val + 1 * 0 = k.val; omega
  | ⟨1, _⟩ => show 0 + 1 * r.val = r.val; omega
  | ⟨2, _⟩ => show 0 + 1 * l.val = l.val; omega

/-- The output block as one function of its index: channel `y 0` of `Kf` of the input channels at (row, lane). -/
def blkG (x0 : Vec Ideal S6x512x128 .f32) (x1 : Vec Ideal S16x512x128 .f32) : Vec Ideal S16x512x128 .f32 := fun y =>
  Kf (fun k => x0 (ix3 k (y 1 : Fin 512) (y 2 : Fin 128))) (fun q => x1 (ix3 q (y 1 : Fin 512) (y 2 : Fin 128))) (y 0 : Fin 16)

/-- Every store's payload is the slab of `blkG` its rectangle names, so the block the body leaves is `blkG`. -/
theorem out0_2_eq (x0 : Vec Ideal S6x512x128 .f32) (x1 : Vec Ideal S16x512x128 .f32) :
    out0_2 (F := Ideal) x0 x1 = blkG x0 x1 := by
  funext y
  unfold out0_2
  refine View.canon_apply_of_pieces (Val := Elt Ideal) (blkG x0 x1) _ ?_ y (cover0_2 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl
  all_goals
    intro x
    obtain ⟨z, r, l, rfl⟩ : ∃ (z : Fin 1) (r : Fin 512) (l : Fin 128), x = ix3 z r l := ⟨x 0, x 1, x 2, eq_ix3 x⟩
    obtain rfl : z = 0 := Subsingleton.elim z 0
    have i0 : r0_0.idx (ix3 (0 : Fin 1) r l) = ix3 (0 : Fin 6) r l := idxSlab (K := 6) 0 _ r l
    have i1 : r0_1.idx (ix3 (0 : Fin 1) r l) = ix3 (1 : Fin 6) r l := idxSlab (K := 6) 1 _ r l
    have i2 : r0_2.idx (ix3 (0 : Fin 1) r l) = ix3 (2 : Fin 6) r l := idxSlab (K := 6) 2 _ r l
    have i3 : r0_3.idx (ix3 (0 : Fin 1) r l) = ix3 (3 : Fin 6) r l := idxSlab (K := 6) 3 _ r l
    have i4 : r0_4.idx (ix3 (0 : Fin 1) r l) = ix3 (4 : Fin 6) r l := idxSlab (K := 6) 4 _ r l
    have i5 : r0_5.idx (ix3 (0 : Fin 1) r l) = ix3 (5 : Fin 6) r l := idxSlab (K := 6) 5 _ r l
    have i6 : r0_6.idx (ix3 (0 : Fin 1) r l) = ix3 (0 : Fin 16) r l := idxSlab (K := 16) 0 _ r l
    have i7 : r0_7.idx (ix3 (0 : Fin 1) r l) = ix3 (4 : Fin 16) r l := idxSlab (K := 16) 4 _ r l
    have i8 : r0_8.idx (ix3 (0 : Fin 1) r l) = ix3 (8 : Fin 16) r l := idxSlab (K := 16) 8 _ r l
    have i9 : r0_9.idx (ix3 (0 : Fin 1) r l) = ix3 (12 : Fin 16) r l := idxSlab (K := 16) 12 _ r l
    have i10 : r0_10.idx (ix3 (0 : Fin 1) r l) = ix3 (1 : Fin 16) r l := idxSlab (K := 16) 1 _ r l
    have i11 : r0_11.idx (ix3 (0 : Fin 1) r l) = ix3 (5 : Fin 16) r l := idxSlab (K := 16) 5 _ r l
    have i12 : r0_12.idx (ix3 (0 : Fin 1) r l) = ix3 (9 : Fin 16) r l := idxSlab (K := 16) 9 _ r l
    have i13 : r0_13.idx (ix3 (0 : Fin 1) r l) = ix3 (13 : Fin 16) r l := idxSlab (K := 16) 13 _ r l
    have i14 : r0_14.idx (ix3 (0 : Fin 1) r l) = ix3 (2 : Fin 16) r l := idxSlab (K := 16) 2 _ r l
    have i15 : r0_15.idx (ix3 (0 : Fin 1) r l) = ix3 (6 : Fin 16) r l := idxSlab (K := 16) 6 _ r l
    have i16 : r0_16.idx (ix3 (0 : Fin 1) r l) = ix3 (10 : Fin 16) r l := idxSlab (K := 16) 10 _ r l
    have i17 : r0_17.idx (ix3 (0 : Fin 1) r l) = ix3 (14 : Fin 16) r l := idxSlab (K := 16) 14 _ r l
    have i18 : r0_18.idx (ix3 (0 : Fin 1) r l) = ix3 (3 : Fin 16) r l := idxSlab (K := 16) 3 _ r l
    have i19 : r0_19.idx (ix3 (0 : Fin 1) r l) = ix3 (7 : Fin 16) r l := idxSlab (K := 16) 7 _ r l
    have i20 : r0_20.idx (ix3 (0 : Fin 1) r l) = ix3 (11 : Fin 16) r l := idxSlab (K := 16) 11 _ r l
    have i21 : r0_21.idx (ix3 (0 : Fin 1) r l) = ix3 (15 : Fin 16) r l := idxSlab (K := 16) 15 _ r l
    dsimp only
    first
      | (rw [show r0_6.emb (ix3 (0 : Fin 1) r l) = ix3 (0 : Fin 16) r l from embSlab (K := 16) 0 _ r l])
      | (rw [show r0_7.emb (ix3 (0 : Fin 1) r l) = ix3 (4 : Fin 16) r l from embSlab (K := 16) 4 _ r l])
      | (rw [show r0_8.emb (ix3 (0 : Fin 1) r l) = ix3 (8 : Fin 16) r l from embSlab (K := 16) 8 _ r l])
      | (rw [show r0_9.emb (ix3 (0 : Fin 1) r l) = ix3 (12 : Fin 16) r l from embSlab (K := 16) 12 _ r l])
      | (rw [show r0_10.emb (ix3 (0 : Fin 1) r l) = ix3 (1 : Fin 16) r l from embSlab (K := 16) 1 _ r l])
      | (rw [show r0_11.emb (ix3 (0 : Fin 1) r l) = ix3 (5 : Fin 16) r l from embSlab (K := 16) 5 _ r l])
      | (rw [show r0_12.emb (ix3 (0 : Fin 1) r l) = ix3 (9 : Fin 16) r l from embSlab (K := 16) 9 _ r l])
      | (rw [show r0_13.emb (ix3 (0 : Fin 1) r l) = ix3 (13 : Fin 16) r l from embSlab (K := 16) 13 _ r l])
      | (rw [show r0_14.emb (ix3 (0 : Fin 1) r l) = ix3 (2 : Fin 16) r l from embSlab (K := 16) 2 _ r l])
      | (rw [show r0_15.emb (ix3 (0 : Fin 1) r l) = ix3 (6 : Fin 16) r l from embSlab (K := 16) 6 _ r l])
      | (rw [show r0_16.emb (ix3 (0 : Fin 1) r l) = ix3 (10 : Fin 16) r l from embSlab (K := 16) 10 _ r l])
      | (rw [show r0_17.emb (ix3 (0 : Fin 1) r l) = ix3 (14 : Fin 16) r l from embSlab (K := 16) 14 _ r l])
      | (rw [show r0_18.emb (ix3 (0 : Fin 1) r l) = ix3 (3 : Fin 16) r l from embSlab (K := 16) 3 _ r l])
      | (rw [show r0_19.emb (ix3 (0 : Fin 1) r l) = ix3 (7 : Fin 16) r l from embSlab (K := 16) 7 _ r l])
      | (rw [show r0_20.emb (ix3 (0 : Fin 1) r l) = ix3 (11 : Fin 16) r l from embSlab (K := 16) 11 _ r l])
      | (rw [show r0_21.emb (ix3 (0 : Fin 1) r l) = ix3 (15 : Fin 16) r l from embSlab (K := 16) 15 _ r l])
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, castUp, castDown, mulf_apply, addf_apply, subf_apply, divf_apply, cmpf_apply, select_apply,
      broadcast_apply, Idealize.ShloMosaic.sqrt, Idealize.ShloMosaic.sin, Idealize.ShloMosaic.cos, View.ld,
      i0, i1, i2, i3, i4, i5, i6, i7, i8, i9, i10, i11, i12, i13, i14, i15, i16, i17, i18, i19, i20, i21]
    rfl

end Cert.KernelIdeal.KPay

end
-- ==== Proof.KFinal.lean ====
/-
  From the blocks to the whole result.

  Grid point `t` works on rows 512·t … 512·t + 511 of the channel-major arrays, all channels and all lanes, so the block it writes
  back is the restriction to those rows of one function of the whole channel-major arrays: channel `q`, row `L`, lane `lane` of the
  output is `Kf` of the parameter and pose channels at (L, lane).  The 32 blocks tile the rows, so the output array ends holding
  that function everywhere.  The lines after the region read pose n = 128·L + lane back out: entry (n, i, j) of the result is
  channel 4·i + j at row n / 128, lane n % 128, which for a pose of the argument is `Kf` of that pose's own parameters and matrix.
-/
import proofs.«156985_j58256936403585_2_alg».proof.Proof.Gen.KernelIdeal.Frame
import proofs.«156985_j58256936403585_2_alg».proof.Proof.Spec
import proofs.«156985_j58256936403585_2_alg».proof.Proof.KPay
import proofs.«156985_j58256936403585_2_alg».proof.Proof.KHost
import Idealize.ShloMosaic.Lib.Pipeline.Value
import Idealize.ShloMosaic.Lib.ValueIdx
import Idealize.ShloMosaic.Lib.StableHlo.Run

set_option maxRecDepth 16384

noncomputable section

namespace Cert.KernelIdeal.KFinal

open Idealize.ShloMosaic Idealize.ShloMosaic.TcCoe Idealize.ShloMosaic.ValueIdx Idealize.SL.Sem
open Idealize.ShloMosaic.Pipeline (Dat)
open Cert.KernelIdeal Cert.KernelIdeal.Gen Cert.SE3

variable (m : (ℓ : Loc nD τ sig) → Buf (Elt Ideal) ℓ)

/-- The three windows' block indices at point `t`: all channels, row block `t`, all lanes. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0 :=
  (by decide +kernel : ∀ t : Fin grid0.N, _)

/-- Channel `k`, row `y1`, lane `y2` of point `t`'s block of a channel-major parameter array is the array at row 512·t + y1. -/
theorem read0 (X : S6x16384x128.Idx → EReal) (t : Fin cfg0.N) (k : Fin 6) (y1 : Fin 512) (y2 : Fin 128)
    (h : t.val * 512 + y1.val < 16384) :
    ((cfg0.win 0).blk t).view.read (Elt Ideal) X (ix3 k y1 y2) = X (ix3 k (⟨t.val * 512 + y1.val, h⟩ : Fin 16384) y2) := by
  obtain ⟨f00, f01, f02, -⟩ := idx_facts t
  show X (((cfg0.win 0).blk t).view.emb (ix3 k y1 y2)) = _
  refine congrArg X ?_
  have hk := k.isLt
  funext a; apply Fin.ext
  match a with
  | ⟨0, _⟩ => show win0_0.index t (0 : Fin 3) * 6 + 1 * k.val = k.val; omega
  | ⟨1, _⟩ => show win0_0.index t (1 : Fin 3) * 512 + 1 * y1.val = t.val * 512 + y1.val; omega
  | ⟨2, _⟩ => show win0_0.index t (2 : Fin 3) * 128 + 1 * y2.val = y2.val; omega

/-- The same for a channel-major pose array. -/
theorem read1 (X : S16x16384x128.Idx → EReal) (t : Fin cfg0.N) (q : Fin 16) (y1 : Fin 512) (y2 : Fin 128)
    (h : t.val * 512 + y1.val < 16384) :
    ((cfg0.win 1).blk t).view.read (Elt Ideal) X (ix3 q y1 y2) = X (ix3 q (⟨t.val * 512 + y1.val, h⟩ : Fin 16384) y2) := by
  obtain ⟨-, -, -, f10, f11, f12, -⟩ := idx_facts t
  show X (((cfg0.win 1).blk t).view.emb (ix3 q y1 y2)) = _
  refine congrArg X ?_
  have hq := q.isLt
  funext a; apply Fin.ext
  match a with
  | ⟨0, _⟩ => show win0_1.index t (0 : Fin 3) * 16 + 1 * q.val = q.val; omega
  | ⟨1, _⟩ => show win0_1.index t (1 : Fin 3) * 512 + 1 * y1.val = t.val * 512 + y1.val; omega
  | ⟨2, _⟩ => show win0_1.index t (2 : Fin 3) * 128 + 1 * y2.val = y2.val; omega

/-- The same for the output array. -/
theorem read2 (X : S16x16384x128.Idx → EReal) (t : Fin cfg0.N) (q : Fin 16) (y1 : Fin 512) (y2 : Fin 128)
    (h : t.val * 512 + y1.val < 16384) :
    ((cfg0.win 2).blk t).view.read (Elt Ideal) X (ix3 q y1 y2) = X (ix3 q (⟨t.val * 512 + y1.val, h⟩ : Fin 16384) y2) := by
  obtain ⟨-, -, -, -, -, -, f20, f21, f22⟩ := idx_facts t
  show X (((cfg0.win 2).blk t).view.emb (ix3 q y1 y2)) = _
  refine congrArg X ?_
  have hq := q.isLt
  funext a; apply Fin.ext
  match a with
  | ⟨0, _⟩ => show win0_2.index t (0 : Fin 3) * 16 + 1 * q.val = q.val; omega
  | ⟨1, _⟩ => show win0_2.index t (1 : Fin 3) * 512 + 1 * y1.val = t.val * 512 + y1.val; omega
  | ⟨2, _⟩ => show win0_2.index t (2 : Fin 3) * 128 + 1 * y2.val = y2.val; omega

/-- The whole-array function over any two channel-major arrays. -/
def arrF (X4 : S6x16384x128.Idx → EReal) (X6 : S16x16384x128.Idx → EReal) : S16x16384x128.Idx → EReal := fun i =>
  Kf (fun k => X4 (ix3 k (i 1 : Fin 16384) (i 2 : Fin 128))) (fun q => X6 (ix3 q (i 1 : Fin 16384) (i 2 : Fin 128))) (i 0 : Fin 16)

/-- The body's block function of point `t`'s input blocks is point `t`'s block of the whole-array function. -/
theorem blk_eq (X4 : S6x16384x128.Idx → EReal) (X6 : S16x16384x128.Idx → EReal) (t : Fin cfg0.N) :
    KPay.blkG (((cfg0.win 0).blk t).view.read (Elt Ideal) X4) (((cfg0.win 1).blk t).view.read (Elt Ideal) X6)
      = ((cfg0.win 2).blk t).view.read (Elt Ideal) (arrF X4 X6) := by
  funext y
  obtain ⟨y0, y1, y2, rfl⟩ : ∃ (y0 : Fin 16) (y1 : Fin 512) (y2 : Fin 128), y = ix3 y0 y1 y2 := ⟨y 0, y 1, y 2, eq_ix3 y⟩
  have hN : t.val < 32 := lt_of_lt_of_eq t.isLt N_0
  have h1 := y1.isLt
  have hrow : t.val * 512 + y1.val < 16384 := by omega
  rw [read2 (arrF X4 X6) t y0 y1 y2 hrow]
  show Kf (fun k => ((cfg0.win 0).blk t).view.read (Elt Ideal) X4 (ix3 k y1 y2)) (fun q => ((cfg0.win 1).blk t).view.read (Elt Ideal) X6 (ix3 q y1 y2)) y0
    = Kf (fun k => X4 (ix3 k (⟨t.val * 512 + y1.val, hrow⟩ : Fin 16384) y2)) (fun q => X6 (ix3 q (⟨t.val * 512 + y1.val, hrow⟩ : Fin 16384) y2)) y0
  rw [funext fun k => read0 X4 t k y1 y2 hrow, funext fun q => read1 X6 t q y1 y2 hrow]

/-- The output array as one function of the channel-major arrays the region finds. -/
def arrG (c : Dev nD) : S16x16384x128.Idx → EReal :=
  arrF (V m c (Pipeline.arrRef spec0 0)) (V m c (Pipeline.arrRef spec0 1))

/-- What point `t` writes back is block `t` of `arrG`. -/
theorem flushed_eq (c : Dev nD) (t : Fin cfg0.N) :
    (dats m 0 c).flushed 2 t = ((cfg0.win 2).blk t).view.read (Elt Ideal) (arrG m c) := by
  have h1 : (dats m 0 c).flushed 2 t = KPay.blkG (iblk m c 0 t) (iblk m c 1 t) := by
    show (cfg0.win 2).cut (grid0.coords t) ((dats m 0 c).after 2 t) = _
    rw [after0_2]
    exact KPay.out0_2_eq (iblk m c 0 t) (iblk m c 1 t)
  exact h1.trans (blk_eq (V m c (Pipeline.arrRef spec0 0)) (V m c (Pipeline.arrRef spec0 1)) t)

/-- An index of the output array is in point `t`'s block iff each coordinate is in the block's range. -/
theorem mem_blk (t : Fin cfg0.N) (i : S16x16384x128.Idx) :
    i ∈ ((cfg0.win 2).blk t).view.set ↔ ∀ a : Fin 3, win0_2.index t a * S16x512x128.size a ≤ (i a).val ∧ (i a).val < win0_2.index t a * S16x512x128.size a + S16x512x128.size a := by
  show i ∈ ((View.whole main_v7).slice (win0_2.rect t)).set ↔ _
  rw [View.set_slice_whole, Rect.mem_set_unit]
  exact Iff.rfl

/-- Every index of the output array is in the block of the point its row falls in. -/
theorem cover (i : S16x16384x128.Idx) : ∃ t : Fin cfg0.N, (cfg0.win 2).flush t = true ∧ i ∈ ((cfg0.win 2).blk t).view.set := by
  have hi0 : (i 0).val < 16 := (i 0).isLt
  have hi1 : (i 1).val < 16384 := (i 1).isLt
  have hi2 : (i 2).val < 128 := (i 2).isLt
  let t : Fin cfg0.N := ⟨(i 1).val / 512, lt_of_lt_of_eq (by omega : (i 1).val / 512 < 32) N_0.symm⟩
  obtain ⟨-, -, -, -, -, -, f20, f21, f22⟩ := idx_facts t
  have ht : t.val = (i 1).val / 512 := rfl
  refine ⟨t, flush0_2 t, ?_⟩
  rw [mem_blk]
  intro a
  match a with
  | ⟨0, _⟩ => show win0_2.index t (0 : Fin 3) * 16 ≤ (i 0).val ∧ (i 0).val < win0_2.index t (0 : Fin 3) * 16 + 16; omega
  | ⟨1, _⟩ => show win0_2.index t (1 : Fin 3) * 512 ≤ (i 1).val ∧ (i 1).val < win0_2.index t (1 : Fin 3) * 512 + 512; omega
  | ⟨2, _⟩ => show win0_2.index t (2 : Fin 3) * 128 ≤ (i 2).val ∧ (i 2).val < win0_2.index t (2 : Fin 3) * 128 + 128; omega

/-- The output array after the region is `arrG`. -/
theorem final (c : Dev nD) : (dats m 0 c).arrAt 2 cfg0.N = arrG m c :=
  (dats m 0 c).arrAt_eq_of_cover 2 (arrG m c) (fun t _ => flushed_eq m c t) cover

end Cert.KernelIdeal.KFinal

end
-- ==== Proof.KRun.lean ====
/-
  The kernel program's run, read as a value: after the region the lines that follow re-lay the channel-major output as one 4×4
  matrix per pose, dropping the padded poses.  Entry (n, i, j) of the result is channel 4·i + j of the output at row n / 128, lane
  n % 128, and there the channel-major inputs hold pose n's own parameters and matrix, so the result is `GK` of the two arguments.
-/
import proofs.«156985_j58256936403585_2_alg».proof.Proof.Gen.KernelIdeal.Frame
import proofs.«156985_j58256936403585_2_alg».proof.Proof.Spec
import proofs.«156985_j58256936403585_2_alg».proof.Proof.KHost
import proofs.«156985_j58256936403585_2_alg».proof.Proof.KFinal
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KRun

open Idealize.ShloMosaic Idealize.ShloMosaic.TcCoe Idealize.ShloMosaic.ValueIdx Idealize.SL.Sem
open Idealize.ShloMosaic.Pipeline (Dat)
open Cert.KernelIdeal Cert.KernelIdeal.Gen Cert.SE3

variable (m : (ℓ : Loc nD τ sig) → Buf (Elt Ideal) ℓ) (ρ : Dev nD → PrngReg)

/-- The result buffer after the lines that follow the region: the output array cut into one row per channel, the padded poses
    sliced away, transposed to pose-major and cut into 4×4 matrices. -/
theorem tail_term (c : Dev nD) :
    (Pipeline.afterTail₀ cfgs (dats m) 0 (V0 m) [hostOps1] c main_v11 : S2000000x4x4.Idx → EReal)
      = shapeCast S2000000x4x4 (transpose S2000000x16 [1, 0]
          (extractStridedSlice S16x2000000 ![0, 0]
            (shapeCast S16x2097152 (KFinal.arrG m c) Gen.shapeCasts_S16x16384x128_S16x2097152)
            Gen.slices_S16x2097152_S16x2000000_0_0)
          Gen.transposes_S16x2000000_S2000000x16_1_0) Gen.shapeCasts_S2000000x16_S2000000x4x4 := by
  unfold Pipeline.afterTail₀
  show StableHlo.after hostOps1 _ (Proc.devRef .tc main_v11) = _
  have hw : Pipeline.withArrays (cfgs 0).spec c (V0 m c) (fun w => (dats m 0 c).arrAt w (cfgs 0).N) (Proc.devRef .tc main_v7)
      = KFinal.arrG m c := (Pipeline.withArrays_arr spec0 launch0.win.arr_inj c _ _ 2).trans (KFinal.final m c)
  generalize KFinal.arrG m c = X at hw
  generalize Pipeline.withArrays (cfgs 0).spec c (V0 m c) (fun w => (dats m 0 c).arrAt w (cfgs 0).N) = W at hw
  subst hw
  after_results
  rfl

/-- Entry (n, i, j) of the result is channel 4·i + j of the output array at row n / 128, lane n % 128. -/
theorem tail_apply (c : Dev nD) (n : Fin 2000000) (i j : Fin 4) :
    (Pipeline.afterTail₀ cfgs (dats m) 0 (V0 m) [hostOps1] c main_v11 : S2000000x4x4.Idx → EReal) (ix3 n i j)
      = KFinal.arrG m c (ix3 (chan i j) (⟨n.val / 128, by omega⟩ : Fin 16384) (⟨n.val % 128, by omega⟩ : Fin 128)) := by
  rw [tail_term]
  have hn := n.isLt
  have hi := i.isLt
  have hj := j.isLt
  refine (shapeCast_apply _ _ (ix3 n i j) (ix2 n (chan i j)) ?_).trans
    ((transpose_ix2_apply _ _ n (chan i j)).trans
      ((extractStridedSlice_apply _ _ _ (ix2 (chan i j) n) (ix2 (chan i j) (⟨n.val, by omega⟩ : Fin 2097152)) ?_).trans
        (shapeCast_apply _ _ _ (ix3 (chan i j) (⟨n.val / 128, by omega⟩ : Fin 16384) (⟨n.val % 128, by omega⟩ : Fin 128)) ?_)))
  · rw [Shape.rowMajor_val_two, Shape.rowMajor_val_three]
    show n.val * 16 + (4 * i.val + j.val) = (n.val * 4 + i.val) * 4 + j.val
    omega
  · intro a
    match a with
    | ⟨0, _⟩ => show 4 * i.val + j.val = 0 + (4 * i.val + j.val); omega
    | ⟨1, _⟩ => show n.val = 0 + n.val; omega
  · rw [Shape.rowMajor_val_two, Shape.rowMajor_val_three]
    show ((4 * i.val + j.val) * 16384 + n.val / 128) * 128 + n.val % 128 = (4 * i.val + j.val) * 2097152 + n.val
    omega

/-- The result buffer is `GK` of the two argument arrays. -/
theorem tail_eq (c : Dev nD) :
    (Pipeline.afterTail₀ cfgs (dats m) 0 (V0 m) [hostOps1] c main_v11 : S2000000x4x4.Idx → EReal)
      = GK (m ((c : Thread nD τ).loc main_arg0)) (m ((c : Thread nD τ).loc main_arg1)) := by
  funext idx
  obtain ⟨n, i, j, rfl⟩ : ∃ (n : Fin 2000000) (i j : Fin 4), idx = ix3 n i j := ⟨idx 0, idx 1, idx 2, eq_ix3 idx⟩
  rw [tail_apply]
  have hn := n.isLt
  have hrow : n.val / 128 * 128 + n.val % 128 < 2000000 := by omega
  have hnn : (⟨n.val / 128 * 128 + n.val % 128, hrow⟩ : Fin 2000000) = n := Fin.ext (by show n.val / 128 * 128 + n.val % 128 = n.val; omega)
  have h4 : ∀ k : Fin 6, (V m c (Pipeline.arrRef spec0 0) : S6x16384x128.Idx → EReal) (ix3 k (⟨n.val / 128, by omega⟩ : Fin 16384) (⟨n.val % 128, by omega⟩ : Fin 128))
      = (m ((c : Thread nD τ).loc main_arg0) : S2000000x6.Idx → EReal) (ix2 n k) := fun k => by
    have := KHost.V_v4_apply m c k (⟨n.val / 128, by omega⟩ : Fin 16384) (⟨n.val % 128, by omega⟩ : Fin 128) hrow
    rw [hnn] at this
    exact this
  have h6 : ∀ q : Fin 16, (V m c (Pipeline.arrRef spec0 1) : S16x16384x128.Idx → EReal) (ix3 q (⟨n.val / 128, by omega⟩ : Fin 16384) (⟨n.val % 128, by omega⟩ : Fin 128))
      = (m ((c : Thread nD τ).loc main_arg1) : S2000000x4x4.Idx → EReal) (ix3 n (⟨q.val / 4, by omega⟩ : Fin 4) (⟨q.val % 4, by omega⟩ : Fin 4)) := fun q => by
    have := KHost.V_v6_apply m c q (⟨n.val / 128, by omega⟩ : Fin 16384) (⟨n.val % 128, by omega⟩ : Fin 128) hrow
    rw [hnn] at this
    exact this
  show Kf (fun k => (V m c (Pipeline.arrRef spec0 0) : S6x16384x128.Idx → EReal) (ix3 k (⟨n.val / 128, by omega⟩ : Fin 16384) (⟨n.val % 128, by omega⟩ : Fin 128)))
      (fun q => (V m c (Pipeline.arrRef spec0 1) : S16x16384x128.Idx → EReal) (ix3 q (⟨n.val / 128, by omega⟩ : Fin 16384) (⟨n.val % 128, by omega⟩ : Fin 128))) (chan i j)
    = Kf (xrow (m ((c : Thread nD τ).loc main_arg0)) n) (flat (pmat (m ((c : Thread nD τ).loc main_arg1)) n)) (chan i j)
  rw [funext h4, funext h6]
  rfl

/-- The kernel program runs, its result is `GK` of its arguments, and the arguments end unchanged. -/
theorem run : θ_run defs (onTc (τ := τ) (main (F := Ideal))) ⟨m, fun _ => 0, ρ⟩ (fun r => ∀ c : Dev nD,
      r.2.mem ((c.tc : Thread nD τ).loc main_v11) = GK (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v11 (Pipeline.mem_restRefs_of main_v11 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KRun

end
-- ==== Proof.Algebra1.lean ====
/-
  The three float constants as reals, and the rotation angle of the two spellings.
-/
import proofs.«156985_j58256936403585_2_alg».proof.Proof.Spec

noncomputable section

namespace Cert.SE3

open Idealize.ShloMosaic

/-- The float zero is the real 0. -/
theorem zeroW_eq : zeroW = 0 := Ideal.ofBits_zero_f32

/-- The float one is the real 1. -/
theorem oneW_eq : oneW = 1 := by
  unfold oneW
  simp [Ideal.ofBits, Ideal.ieee, -EReal.coe_mul]; norm_num

/-- The threshold is a positive real. -/
theorem epsW_pos : ∃ e : ℝ, 0 < e ∧ epsW = (e : EReal) := by
  unfold epsW
  simp [Ideal.ofBits, Ideal.ieee, -EReal.coe_mul]

/-- The angle of the entry-by-entry spelling at three reals is the real root of the sum of their squares. -/
theorem thetaK_coe (a b c : ℝ) :
    thetaK (a : EReal) (b : EReal) (c : EReal) = ((Real.sqrt (a * a + b * b + c * c) : ℝ) : EReal) := by
  unfold thetaK
  rw [← EReal.coe_mul, ← EReal.coe_mul, ← EReal.coe_mul, ← EReal.coe_add, ← EReal.coe_add, Ideal.sqrt_coe,
    if_neg (not_lt.2 (add_nonneg (add_nonneg (mul_self_nonneg a) (mul_self_nonneg b)) (mul_self_nonneg c)))]

/-- The two spellings of the angle agree: the sum over the three coordinates into a zero is the sum written out. -/
theorem thetaR_eq (om : Fin 3 → EReal) : thetaR om = thetaK (om 0) (om 1) (om 2) := by
  unfold thetaR thetaK
  rw [zeroW_eq, zero_add, Fin.sum_univ_three]

theorem smallR_eq (om : Fin 3 → EReal) : smallR om = smallK (om 0) (om 1) (om 2) := by
  unfold smallR smallK
  rw [thetaR_eq]

theorem safeR_eq (om : Fin 3 → EReal) : safeR om = safeK (om 0) (om 1) (om 2) := by
  unfold safeR safeK
  rw [thetaR_eq, smallR_eq]

end Cert.SE3

end
-- ==== Proof.Algebra.lean ====
/-
  The two spellings of the SE(3) update agree on finite inputs.
-/
import proofs.«156985_j58256936403585_2_alg».proof.Proof.Algebra1

noncomputable section

namespace Cert.SE3

open Idealize.ShloMosaic

/-- The nine rotation entries of the two spellings agree at a real rotation vector. -/
theorem rotK_eq_rotR (v : Fin 3 → ℝ) (i j : Fin 3) :
    rotK (v 0 : EReal) (v 1 : EReal) (v 2 : EReal) i j = rotR (fun k => (v k : EReal)) i j := by
  obtain ⟨e, he, hee⟩ := epsW_pos
  have hT : thetaK (v 0 : EReal) (v 1 : EReal) (v 2 : EReal)
      = ((Real.sqrt (v 0 * v 0 + v 1 * v 1 + v 2 * v 2) : ℝ) : EReal) := thetaK_coe _ _ _
  generalize Real.sqrt (v 0 * v 0 + v 1 * v 1 + v 2 * v 2) = θ at hT
  by_cases h : θ < e
  · have hb : smallK (v 0 : EReal) (v 1 : EReal) (v 2 : EReal) = 1#1 := by
      unfold smallK
      rw [hT, hee]
      simp [Ideal.cmp, h]
    unfold rotR rotK
    simp only [smallR_eq, hb, Scalar.select, if_true]
    fin_cases i <;> fin_cases j <;> simp [eyeR, skewR, oneW_eq, zeroW_eq]
  · have hb : smallK (v 0 : EReal) (v 1 : EReal) (v 2 : EReal) = 0#1 := by
      unfold smallK
      rw [hT, hee]
      simp [Ideal.cmp, h]
    have h01 : ¬ ((0#1 : BitVec 1) = 1) := by decide
    have hθ0 : θ ≠ 0 := ne_of_gt (lt_of_lt_of_le he (not_lt.1 h))
    have hd : safeK (v 0 : EReal) (v 1 : EReal) (v 2 : EReal) = (θ : EReal) := by
      unfold safeK
      rw [hb, hT, Scalar.select, if_neg h01]
    have hdiv : ∀ x : ℝ, Ideal.div (x : EReal) (θ : EReal) = ((x / θ : ℝ) : EReal) := by
      intro x
      rw [Ideal.div_coe hθ0, ← EReal.coe_mul, mul_one_div]
    have hs : sinK (v 0 : EReal) (v 1 : EReal) (v 2 : EReal) = ((Real.sin θ : ℝ) : EReal) := by
      unfold sinK
      rw [hT, Ideal.sin_coe]
    have hc : verK (v 0 : EReal) (v 1 : EReal) (v 2 : EReal) = ((1 - Real.cos θ : ℝ) : EReal) := by
      unfold verK
      rw [hT, Ideal.cos_coe, oneW_eq]
      norm_cast
    unfold rotR rotK
    simp only [smallR_eq, safeR_eq, thetaR_eq, hb, hd, hdiv, hs, hc, hT, Ideal.sin_coe, Ideal.cos_coe, Scalar.select,
      if_neg h01, oneW_eq, zeroW_eq]
    fin_cases i <;> fin_cases j <;> simp [eyeR, skewR, Fin.sum_univ_three, zeroW_eq] <;> norm_cast <;> ring

/-- On finite inputs the entry-by-entry spelling is the matrix spelling, channel 4·i + j against entry (i, j). -/
theorem Kf_eq_Rf (x : Fin 6 → EReal) (P : Fin 4 → Fin 4 → EReal)
    (hx : ∀ a, x a ≠ ⊤ ∧ x a ≠ ⊥) (hP : ∀ i j, P i j ≠ ⊤ ∧ P i j ≠ ⊥) (i j : Fin 4) :
    Kf x (flat P) (chan i j) = Rf x P i j := by
  have hR : ∀ a b : Fin 3, rotK (x 3) (x 4) (x 5) a b = rotR (fun k => x ⟨3 + k.val, by omega⟩) a b := by
    lift x to Fin 6 → ℝ using hx
    intro a b
    exact rotK_eq_rotR (fun k => x ⟨3 + k.val, by omega⟩) a b
  unfold Rf
  rw [zero_add, Fin.sum_univ_four]
  fin_cases i <;> fin_cases j <;> simp [Kf, chan, flat, homR, rowK, hR, zeroW_eq, oneW_eq]

end Cert.SE3

end
-- ==== Proof.Finite.lean ====
/-
  From the precondition to finiteness: when every entry's absolute value is below +∞, every entry of both arrays is a real.
-/
import proofs.«156985_j58256936403585_2_alg».proof.Proof.Spec
import proofs.«156985_j58256936403585_2_alg».proof.Pre_finite_inputs
import proofs.«156985_j58256936403585_2_alg».proof.Proof.Gen.Pre_finite_inputs
import Idealize.ShloMosaic.Lib.ReduceAll

noncomputable section

namespace Cert.SE3

open Idealize.ShloMosaic

/-- An extended real whose absolute value max x (−x) is strictly below the float +∞ is neither infinity. -/
theorem finite_of_abs_lt (x : EReal)
    (h : Ideal.cmp .olt (max x (-x)) (Ideal.ofBits .f32 0x7F800000#32) = 1#1) : x ≠ ⊤ ∧ x ≠ ⊥ := by
  have hinf : Ideal.ofBits .f32 0x7F800000#32 = ⊤ := by simp [Ideal.ofBits, Ideal.ieee]
  rw [hinf] at h
  induction x using EReal.rec with
  | bot => simp [Ideal.cmp] at h
  | coe r => exact ⟨EReal.coe_ne_top r, EReal.coe_ne_bot r⟩
  | top => simp [Ideal.cmp] at h

/-- The precondition holds only when every entry of both arrays is a real. -/
theorem finite_of_pre [hPre : Cert.Pre_finite_inputs.Facts] (a0 : SX.Idx → EReal) (a1 : SP.Idx → EReal)
    (h : Cert.Pre_finite_inputs.fn (F := Ideal) a0 a1 = fun _ => 1#1) :
    (∀ i, a0 i ≠ ⊤ ∧ a0 i ≠ ⊥) ∧ (∀ i, a1 i ≠ ⊤ ∧ a1 i ≠ ⊥) := by
  have h0 := congrFun h ValueIdx.ix0
  dsimp only [Cert.Pre_finite_inputs.fn] at h0
  obtain ⟨h1, h2⟩ := IntOp.andi_eq_one.1 h0
  haveI : Subsingleton Cert.Pre_finite_inputs.S_.Idx := ⟨fun a b => funext fun d => d.elim0⟩
  refine ⟨fun i => ?_, fun i => ?_⟩
  · exact finite_of_abs_lt _ (Host.reduce_andi_all _ _ _ _ _ h1 i)
  · exact finite_of_abs_lt _ (Host.reduce_andi_all _ _ _ _ _ h2 i)

end Cert.SE3

end
-- ==== Proof.Bridge.lean ====
/-
  Under the precondition the two spellings of the result array agree.
-/
import proofs.«156985_j58256936403585_2_alg».proof.Proof.Algebra
import proofs.«156985_j58256936403585_2_alg».proof.Proof.Finite

noncomputable section

namespace Cert.SE3

open Idealize.ShloMosaic

/-- When the precondition holds every entry is a real, so at each pose the entry-by-entry result is the matrix result. -/
theorem GK_eq_G [hPre : Cert.Pre_finite_inputs.Facts] (a0 : SX.Idx → EReal) (a1 : SP.Idx → EReal)
    (h : Cert.Pre_finite_inputs.fn (F := Ideal) a0 a1 = fun _ => 1#1) : GK a0 a1 = G a0 a1 := by
  obtain ⟨hf0, hf1⟩ := finite_of_pre a0 a1 h
  funext idx
  exact Kf_eq_Rf (xrow a0 (idx 0)) (pmat a1 (idx 0)) (fun a => hf0 (ValueIdx.ix2 (idx 0) a))
    (fun i j => hf1 (ValueIdx.ix3 (idx 0) i j)) (idx 1) (idx 2)

end Cert.SE3

end
-- ==== Proof.RefWin.lean ====
/-
  The reference program's 120 host operations cut into five consecutive pieces (the three outlined functions'
  operations listed at their call sites over each call's own buffers), and the fold over a concatenation.
-/
import proofs.«156985_j58256936403585_2_alg».proof.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

set_option maxRecDepth 8192

/-- The operations up to the unit axis k = ω / divisor. -/
def w1 : List (HloOp τ sig (Elt F)) :=
  [ StableHlo.nullary main_cst (fun i => FloatOps.ofBits .f32 (lit0 (S4.rowMajor i))),
    StableHlo.unary main_arg0 main_v0 ((extractStridedSlice S2000000x3 ![0, 0] · slices_S2000000x6_S2000000x3_0_0) : (⟨S2000000x6, .f32⟩ : BufTy).Contents (Elt F) → (⟨S2000000x3, .f32⟩ : BufTy).Contents (Elt F)),
    StableHlo.unary main_arg0 main_v1 ((extractStridedSlice S2000000x3 ![0, 3] · slices_S2000000x6_S2000000x3_0_3) : (⟨S2000000x6, .f32⟩ : BufTy).Contents (Elt F) → (⟨S2000000x3, .f32⟩ : BufTy).Contents (Elt F)),
    StableHlo.TRef.binary (.of main_v1 : StableHlo.TRef sig ⟨S2000000x3, .f32⟩) (.of main_v1 : StableHlo.TRef sig ⟨S2000000x3, .f32⟩) main_call0.v0 mulf,
    StableHlo.TRef.nullary main_call0.cst (constant S_ .f32 0x00000000#32),
    StableHlo.TRef.binary main_call0.v0 main_call0.cst main_call0.v1 (fun x v => Host.reduceAdd x v reducesTo_S2000000x3_S2000000_d1 h_S_),
    StableHlo.TRef.unary main_call0.v1 main_call0.v2 Host.sqrt,
    StableHlo.nullary main_cst_0 (constant S_ .f32 0x358637BD#32),
    StableHlo.unary main_cst_0 main_v3 (broadcastInDim S2000000 ![] bcast_S_S2000000 : (⟨S_, .f32⟩ : BufTy).Contents (Elt F) → (⟨S2000000, .f32⟩ : BufTy).Contents (Elt F)),
    StableHlo.binary main_v2 main_v3 main_v4 (cmpf .olt : (⟨S2000000, .f32⟩ : BufTy).Contents (Elt F) → (⟨S2000000, .f32⟩ : BufTy).Contents (Elt F) → (⟨S2000000, .i1⟩ : BufTy).Contents (Elt F)),
    StableHlo.nullary main_cst_1 (constant S_ .f32 0x3F800000#32),
    StableHlo.unary main_cst_1 main_v5 (broadcastInDim S2000000 ![] bcast_S_S2000000 : (⟨S_, .f32⟩ : BufTy).Contents (Elt F) → (⟨S2000000, .f32⟩ : BufTy).Contents (Elt F)),
    StableHlo.TRef.ternary (.of main_v4 : StableHlo.TRef sig ⟨S2000000, .i1⟩) (.of main_v5 : StableHlo.TRef sig ⟨S2000000, .f32⟩) (.of main_v2 : StableHlo.TRef sig ⟨S2000000, .f32⟩) main_call1.v0 select,
    StableHlo.unary main_v6 main_v7 (broadcastInDim S2000000x1 ![0] bcast_S2000000_S2000000x1_0 : (⟨S2000000, .f32⟩ : BufTy).Contents (Elt F) → (⟨S2000000x1, .f32⟩ : BufTy).Contents (Elt F)),
    StableHlo.unary main_v7 main_v8 (broadcastInDim S2000000x3 ![0, 1] bcast_S2000000x1_S2000000x3_0_1 : (⟨S2000000x1, .f32⟩ : BufTy).Contents (Elt F) → (⟨S2000000x3, .f32⟩ : BufTy).Contents (Elt F)),
    StableHlo.binary main_v1 main_v8 main_v9 (Host.divf : (⟨S2000000x3, .f32⟩ : BufTy).Contents (Elt F) → (⟨S2000000x3, .f32⟩ : BufTy).Contents (Elt F) → (⟨S2000000x3, .f32⟩ : BufTy).Contents (Elt F)) ]

/-- The operations building the skew matrices of k. -/
def w2 : List (HloOp τ sig (Elt F)) :=
  [ StableHlo.unary main_v9 main_v10 ((extractStridedSlice S2000000x1 ![0, 0] · slices_S2000000x3_S2000000x1_0_0) : (⟨S2000000x3, .f32⟩ : BufTy).Contents (Elt F) → (⟨S2000000x1, .f32⟩ : BufTy).Contents (Elt F)),
    StableHlo.reshape main_v10 main_v11 rfl shapeCasts_S2000000x1_S2000000,
    StableHlo.nullary main_cst_2 (constant S_ .f32 0x00000000#32),
    StableHlo.unary main_cst_2 main_v12 (broadcastInDim S2000000 ![] bcast_S_S2000000 : (⟨S_, .f32⟩ : BufTy).Contents (Elt F) → (⟨S2000000, .f32⟩ : BufTy).Contents (Elt F)),
    StableHlo.unary main_v9 main_v13 ((extractStridedSlice S2000000x1 ![0, 2] · slices_S2000000x3_S2000000x1_0_2) : (⟨S2000000x3, .f32⟩ : BufTy).Contents (Elt F) → (⟨S2000000x1, .f32⟩ : BufTy).Contents (Elt F)),
    StableHlo.reshape main_v13 main_v14 rfl shapeCasts_S2000000x1_S2000000,
    StableHlo.unary main_v14 main_v15 (Host.negf : (⟨S2000000, .f32⟩ : BufTy).Contents (Elt F) → (⟨S2000000, .f32⟩ : BufTy).Contents (Elt F)),
    StableHlo.unary main_v9 main_v16 ((extractStridedSlice S2000000x1 ![0, 1] · slices_S2000000x3_S2000000x1_0_1) : (⟨S2000000x3, .f32⟩ : BufTy).Contents (Elt F) → (⟨S2000000x1, .f32⟩ : BufTy).Contents (Elt F)),
    StableHlo.reshape main_v16 main_v17 rfl shapeCasts_S2000000x1_S2000000,
    StableHlo.unary main_v12 main_v18 (broadcastInDim S2000000x1 ![0] bcast_S2000000_S2000000x1_0 : (⟨S2000000, .f32⟩ : BufTy).Contents (Elt F) → (⟨S2000000x1, .f32⟩ : BufTy).Contents (Elt F)),
    StableHlo.unary main_v15 main_v19 (broadcastInDim S2000000x1 ![0] bcast_S2000000_S2000000x1_0 : (⟨S2000000, .f32⟩ : BufTy).Contents (Elt F) → (⟨S2000000x1, .f32⟩ : BufTy).Contents (Elt F)),
    StableHlo.unary main_v17 main_v20 (broadcastInDim S2000000x1 ![0] bcast_S2000000_S2000000x1_0 : (⟨S2000000, .f32⟩ : BufTy).Contents (Elt F) → (⟨S2000000x1, .f32⟩ : BufTy).Contents (Elt F)),
    StableHlo.nary ![main_v18, main_v19, main_v20] main_v21 (fun u => concatenate S2000000x3 1 [⟨S2000000x1, u 0⟩, ⟨S2000000x1, u 1⟩, ⟨S2000000x1, u 2⟩] concatenates_S2000000x1_S2000000x1_S2000000x1_S2000000x3_d1),
    StableHlo.unary main_v9 main_v22 ((extractStridedSlice S2000000x1 ![0, 2] · slices_S2000000x3_S2000000x1_0_2) : (⟨S2000000x3, .f32⟩ : BufTy).Contents (Elt F) → (⟨S2000000x1, .f32⟩ : BufTy).Contents (Elt F)),
    StableHlo.reshape main_v22 main_v23 rfl shapeCasts_S2000000x1_S2000000,
    StableHlo.unary main_v9 main_v24 ((extractStridedSlice S2000000x1 ![0, 0] · slices_S2000000x3_S2000000x1_0_0) : (⟨S2000000x3, .f32⟩ : BufTy).Contents (Elt F) → (⟨S2000000x1, .f32⟩ : BufTy).Contents (Elt F)),
    StableHlo.reshape main_v24 main_v25 rfl shapeCasts_S2000000x1_S2000000,
    StableHlo.unary main_v25 main_v26 (Host.negf : (⟨S2000000, .f32⟩ : BufTy).Contents (Elt F) → (⟨S2000000, .f32⟩ : BufTy).Contents (Elt F)),
    StableHlo.unary main_v23 main_v27 (broadcastInDim S2000000x1 ![0] bcast_S2000000_S2000000x1_0 : (⟨S2000000, .f32⟩ : BufTy).Contents (Elt F) → (⟨S2000000x1, .f32⟩ : BufTy).Contents (Elt F)),
    StableHlo.unary main_v12 main_v28 (broadcastInDim S2000000x1 ![0] bcast_S2000000_S2000000x1_0 : (⟨S2000000, .f32⟩ : BufTy).Contents (Elt F) → (⟨S2000000x1, .f32⟩ : BufTy).Contents (Elt F)),
    StableHlo.unary main_v26 main_v29 (broadcastInDim S2000000x1 ![0] bcast_S2000000_S2000000x1_0 : (⟨S2000000, .f32⟩ : BufTy).Contents (Elt F) → (⟨S2000000x1, .f32⟩ : BufTy).Contents (Elt F)),
    StableHlo.nary ![main_v27, main_v28, main_v29] main_v30 (fun u => concatenate S2000000x3 1 [⟨S2000000x1, u 0⟩, ⟨S2000000x1, u 1⟩, ⟨S2000000x1, u 2⟩] concatenates_S2000000x1_S2000000x1_S2000000x1_S2000000x3_d1),
    StableHlo.unary main_v9 main_v31 ((extractStridedSlice S2000000x1 ![0, 1] · slices_S2000000x3_S2000000x1_0_1) : (⟨S2000000x3, .f32⟩ : BufTy).Contents (Elt F) → (⟨S2000000x1, .f32⟩ : BufTy).Contents (Elt F)),
    StableHlo.reshape main_v31 main_v32 rfl shapeCasts_S2000000x1_S2000000,
    StableHlo.unary main_v32 main_v33 (Host.negf : (⟨S2000000, .f32⟩ : BufTy).Contents (Elt F) → (⟨S2000000, .f32⟩ : BufTy).Contents (Elt F)),
    StableHlo.unary main_v9 main_v34 ((extractStridedSlice S2000000x1 ![0, 0] · slices_S2000000x3_S2000000x1_0_0) : (⟨S2000000x3, .f32⟩ : BufTy).Contents (Elt F) → (⟨S2000000x1, .f32⟩ : BufTy).Contents (Elt F)),
    StableHlo.reshape main_v34 main_v35 rfl shapeCasts_S2000000x1_S2000000,
    StableHlo.unary main_v33 main_v36 (broadcastInDim S2000000x1 ![0] bcast_S2000000_S2000000x1_0 : (⟨S2000000, .f32⟩ : BufTy).Contents (Elt F) → (⟨S2000000x1, .f32⟩ : BufTy).Contents (Elt F)),
    StableHlo.unary main_v35 main_v37 (broadcastInDim S2000000x1 ![0] bcast_S2000000_S2000000x1_0 : (⟨S2000000, .f32⟩ : BufTy).Contents (Elt F) → (⟨S2000000x1, .f32⟩ : BufTy).Contents (Elt F)),
    StableHlo.unary main_v12 main_v38 (broadcastInDim S2000000x1 ![0] bcast_S2000000_S2000000x1_0 : (⟨S2000000, .f32⟩ : BufTy).Contents (Elt F) → (⟨S2000000x1, .f32⟩ : BufTy).Contents (Elt F)),
    StableHlo.nary ![main_v36, main_v37, main_v38] main_v39 (fun u => concatenate S2000000x3 1 [⟨S2000000x1, u 0⟩, ⟨S2000000x1, u 1⟩, ⟨S2000000x1, u 2⟩] concatenates_S2000000x1_S2000000x1_S2000000x1_S2000000x3_d1),
    StableHlo.unary main_v21 main_v40 (broadcastInDim S2000000x1x3 ![0, 2] bcast_S2000000x3_S2000000x1x3_0_2 : (⟨S2000000x3, .f32⟩ : BufTy).Contents (Elt F) → (⟨S2000000x1x3, .f32⟩ : BufTy).Contents (Elt F)),
    StableHlo.unary main_v30 main_v41 (broadcastInDim S2000000x1x3 ![0, 2] bcast_S2000000x3_S2000000x1x3_0_2 : (⟨S2000000x3, .f32⟩ : BufTy).Contents (Elt F) → (⟨S2000000x1x3, .f32⟩ : BufTy).Contents (Elt F)),
    StableHlo.unary main_v39 main_v42 (broadcastInDim S2000000x1x3 ![0, 2] bcast_S2000000x3_S2000000x1x3_0_2 : (⟨S2000000x3, .f32⟩ : BufTy).Contents (Elt F) → (⟨S2000000x1x3, .f32⟩ : BufTy).Contents (Elt F)),
    StableHlo.nary ![main_v40, main_v41, main_v42] main_v43 (fun u => concatenate S2000000x3x3 1 [⟨S2000000x1x3, u 0⟩, ⟨S2000000x1x3, u 1⟩, ⟨S2000000x1x3, u 2⟩] concatenates_S2000000x1x3_S2000000x1x3_S2000000x1x3_S2000000x3x3_d1) ]

/-- The identity matrix, sin θ, 1 − cos θ and the full rotation formula. -/
def w3 : List (HloOp τ sig (Elt F)) :=
  [ StableHlo.nullary main_v44 (iotaInDim S3x3 32 0),
    StableHlo.nullary main_v45 (iotaInDim S3x3 32 1),
    StableHlo.nullary main_c (constantI S_ 32 0#32),
    StableHlo.unary main_c main_v46 (broadcastInDim S3x3 ![] bcast_S_S3x3 : (⟨S_, .i32⟩ : BufTy).Contents (Elt F) → (⟨S3x3, .i32⟩ : BufTy).Contents (Elt F)),
    StableHlo.binary main_v44 main_v46 main_v47 (addi : (⟨S3x3, .i32⟩ : BufTy).Contents (Elt F) → (⟨S3x3, .i32⟩ : BufTy).Contents (Elt F) → (⟨S3x3, .i32⟩ : BufTy).Contents (Elt F)),
    StableHlo.binary main_v47 main_v45 main_v48 (cmpi .eq : (⟨S3x3, .i32⟩ : BufTy).Contents (Elt F) → (⟨S3x3, .i32⟩ : BufTy).Contents (Elt F) → (⟨S3x3, .i1⟩ : BufTy).Contents (Elt F)),
    StableHlo.unary main_v48 main_v49 (uitofp .f32 : (⟨S3x3, .i1⟩ : BufTy).Contents (Elt F) → (⟨S3x3, .f32⟩ : BufTy).Contents (Elt F)),
    StableHlo.unary main_v2 main_v50 (Host.sin : (⟨S2000000, .f32⟩ : BufTy).Contents (Elt F) → (⟨S2000000, .f32⟩ : BufTy).Contents (Elt F)),
    StableHlo.unary main_v50 main_v51 (broadcastInDim S2000000x1x1 ![0] bcast_S2000000_S2000000x1x1_0 : (⟨S2000000, .f32⟩ : BufTy).Contents (Elt F) → (⟨S2000000x1x1, .f32⟩ : BufTy).Contents (Elt F)),
    StableHlo.unary main_v2 main_v52 (Host.cos : (⟨S2000000, .f32⟩ : BufTy).Contents (Elt F) → (⟨S2000000, .f32⟩ : BufTy).Contents (Elt F)),
    StableHlo.nullary main_cst_3 (constant S_ .f32 0x3F800000#32),
    StableHlo.unary main_cst_3 main_v53 (broadcastInDim S2000000 ![] bcast_S_S2000000 : (⟨S_, .f32⟩ : BufTy).Contents (Elt F) → (⟨S2000000, .f32⟩ : BufTy).Contents (Elt F)),
    StableHlo.binary main_v53 main_v52 main_v54 (subf : (⟨S2000000, .f32⟩ : BufTy).Contents (Elt F) → (⟨S2000000, .f32⟩ : BufTy).Contents (Elt F) → (⟨S2000000, .f32⟩ : BufTy).Contents (Elt F)),
    StableHlo.unary main_v54 main_v55 (broadcastInDim S2000000x1x1 ![0] bcast_S2000000_S2000000x1x1_0 : (⟨S2000000, .f32⟩ : BufTy).Contents (Elt F) → (⟨S2000000x1x1, .f32⟩ : BufTy).Contents (Elt F)),
    StableHlo.unary main_v51 main_v56 (broadcastInDim S2000000x3x3 ![0, 1, 2] bcast_S2000000x1x1_S2000000x3x3_0_1_2 : (⟨S2000000x1x1, .f32⟩ : BufTy).Contents (Elt F) → (⟨S2000000x3x3, .f32⟩ : BufTy).Contents (Elt F)),
    StableHlo.binary main_v56 main_v43 main_v57 (mulf : (⟨S2000000x3x3, .f32⟩ : BufTy).Contents (Elt F) → (⟨S2000000x3x3, .f32⟩ : BufTy).Contents (Elt F) → (⟨S2000000x3x3, .f32⟩ : BufTy).Contents (Elt F)),
    StableHlo.unary main_v49 main_v58 (broadcastInDim S1x3x3 ![1, 2] bcast_S3x3_S1x3x3_1_2 : (⟨S3x3, .f32⟩ : BufTy).Contents (Elt F) → (⟨S1x3x3, .f32⟩ : BufTy).Contents (Elt F)),
    StableHlo.unary main_v58 main_v59 (broadcastInDim S2000000x3x3 ![0, 1, 2] bcast_S1x3x3_S2000000x3x3_0_1_2 : (⟨S1x3x3, .f32⟩ : BufTy).Contents (Elt F) → (⟨S2000000x3x3, .f32⟩ : BufTy).Contents (Elt F)),
    StableHlo.binary main_v59 main_v57 main_v60 (addf : (⟨S2000000x3x3, .f32⟩ : BufTy).Contents (Elt F) → (⟨S2000000x3x3, .f32⟩ : BufTy).Contents (Elt F) → (⟨S2000000x3x3, .f32⟩ : BufTy).Contents (Elt F)),
    StableHlo.binary main_v43 main_v43 main_v61 ((fun l r => Host.dotGeneral dot_S2000000x3x3_S2000000x3x3_S2000000x3x3_2_1_1_2_0_0 none l r) : (⟨S2000000x3x3, .f32⟩ : BufTy).Contents (Elt F) → (⟨S2000000x3x3, .f32⟩ : BufTy).Contents (Elt F) → (⟨S2000000x3x3, .f32⟩ : BufTy).Contents (Elt F)),
    StableHlo.unary main_v55 main_v62 (broadcastInDim S2000000x3x3 ![0, 1, 2] bcast_S2000000x1x1_S2000000x3x3_0_1_2 : (⟨S2000000x1x1, .f32⟩ : BufTy).Contents (Elt F) → (⟨S2000000x3x3, .f32⟩ : BufTy).Contents (Elt F)),
    StableHlo.binary main_v62 main_v61 main_v63 (mulf : (⟨S2000000x3x3, .f32⟩ : BufTy).Contents (Elt F) → (⟨S2000000x3x3, .f32⟩ : BufTy).Contents (Elt F) → (⟨S2000000x3x3, .f32⟩ : BufTy).Contents (Elt F)),
    StableHlo.binary main_v60 main_v63 main_v64 (addf : (⟨S2000000x3x3, .f32⟩ : BufTy).Contents (Elt F) → (⟨S2000000x3x3, .f32⟩ : BufTy).Contents (Elt F) → (⟨S2000000x3x3, .f32⟩ : BufTy).Contents (Elt F)) ]

/-- The operations building the skew matrices of ω. -/
def w4 : List (HloOp τ sig (Elt F)) :=
  [ StableHlo.unary main_v1 main_v65 ((extractStridedSlice S2000000x1 ![0, 0] · slices_S2000000x3_S2000000x1_0_0) : (⟨S2000000x3, .f32⟩ : BufTy).Contents (Elt F) → (⟨S2000000x1, .f32⟩ : BufTy).Contents (Elt F)),
    StableHlo.reshape main_v65 main_v66 rfl shapeCasts_S2000000x1_S2000000,
    StableHlo.nullary main_cst_4 (constant S_ .f32 0x00000000#32),
    StableHlo.unary main_cst_4 main_v67 (broadcastInDim S2000000 ![] bcast_S_S2000000 : (⟨S_, .f32⟩ : BufTy).Contents (Elt F) → (⟨S2000000, .f32⟩ : BufTy).Contents (Elt F)),
    StableHlo.unary main_v1 main_v68 ((extractStridedSlice S2000000x1 ![0, 2] · slices_S2000000x3_S2000000x1_0_2) : (⟨S2000000x3, .f32⟩ : BufTy).Contents (Elt F) → (⟨S2000000x1, .f32⟩ : BufTy).Contents (Elt F)),
    StableHlo.reshape main_v68 main_v69 rfl shapeCasts_S2000000x1_S2000000,
    StableHlo.unary main_v69 main_v70 (Host.negf : (⟨S2000000, .f32⟩ : BufTy).Contents (Elt F) → (⟨S2000000, .f32⟩ : BufTy).Contents (Elt F)),
    StableHlo.unary main_v1 main_v71 ((extractStridedSlice S2000000x1 ![0, 1] · slices_S2000000x3_S2000000x1_0_1) : (⟨S2000000x3, .f32⟩ : BufTy).Contents (Elt F) → (⟨S2000000x1, .f32⟩ : BufTy).Contents (Elt F)),
    StableHlo.reshape main_v71 main_v72 rfl shapeCasts_S2000000x1_S2000000,
    StableHlo.unary main_v67 main_v73 (broadcastInDim S2000000x1 ![0] bcast_S2000000_S2000000x1_0 : (⟨S2000000, .f32⟩ : BufTy).Contents (Elt F) → (⟨S2000000x1, .f32⟩ : BufTy).Contents (Elt F)),
    StableHlo.unary main_v70 main_v74 (broadcastInDim S2000000x1 ![0] bcast_S2000000_S2000000x1_0 : (⟨S2000000, .f32⟩ : BufTy).Contents (Elt F) → (⟨S2000000x1, .f32⟩ : BufTy).Contents (Elt F)),
    StableHlo.unary main_v72 main_v75 (broadcastInDim S2000000x1 ![0] bcast_S2000000_S2000000x1_0 : (⟨S2000000, .f32⟩ : BufTy).Contents (Elt F) → (⟨S2000000x1, .f32⟩ : BufTy).Contents (Elt F)),
    StableHlo.nary ![main_v73, main_v74, main_v75] main_v76 (fun u => concatenate S2000000x3 1 [⟨S2000000x1, u 0⟩, ⟨S2000000x1, u 1⟩, ⟨S2000000x1, u 2⟩] concatenates_S2000000x1_S2000000x1_S2000000x1_S2000000x3_d1),
    StableHlo.unary main_v1 main_v77 ((extractStridedSlice S2000000x1 ![0, 2] · slices_S2000000x3_S2000000x1_0_2) : (⟨S2000000x3, .f32⟩ : BufTy).Contents (Elt F) → (⟨S2000000x1, .f32⟩ : BufTy).Contents (Elt F)),
    StableHlo.reshape main_v77 main_v78 rfl shapeCasts_S2000000x1_S2000000,
    StableHlo.unary main_v1 main_v79 ((extractStridedSlice S2000000x1 ![0, 0] · slices_S2000000x3_S2000000x1_0_0) : (⟨S2000000x3, .f32⟩ : BufTy).Contents (Elt F) → (⟨S2000000x1, .f32⟩ : BufTy).Contents (Elt F)),
    StableHlo.reshape main_v79 main_v80 rfl shapeCasts_S2000000x1_S2000000,
    StableHlo.unary main_v80 main_v81 (Host.negf : (⟨S2000000, .f32⟩ : BufTy).Contents (Elt F) → (⟨S2000000, .f32⟩ : BufTy).Contents (Elt F)),
    StableHlo.unary main_v78 main_v82 (broadcastInDim S2000000x1 ![0] bcast_S2000000_S2000000x1_0 : (⟨S2000000, .f32⟩ : BufTy).Contents (Elt F) → (⟨S2000000x1, .f32⟩ : BufTy).Contents (Elt F)),
    StableHlo.unary main_v67 main_v83 (broadcastInDim S2000000x1 ![0] bcast_S2000000_S2000000x1_0 : (⟨S2000000, .f32⟩ : BufTy).Contents (Elt F) → (⟨S2000000x1, .f32⟩ : BufTy).Contents (Elt F)),
    StableHlo.unary main_v81 main_v84 (broadcastInDim S2000000x1 ![0] bcast_S2000000_S2000000x1_0 : (⟨S2000000, .f32⟩ : BufTy).Contents (Elt F) → (⟨S2000000x1, .f32⟩ : BufTy).Contents (Elt F)),
    StableHlo.nary ![main_v82, main_v83, main_v84] main_v85 (fun u => concatenate S2000000x3 1 [⟨S2000000x1, u 0⟩, ⟨S2000000x1, u 1⟩, ⟨S2000000x1, u 2⟩] concatenates_S2000000x1_S2000000x1_S2000000x1_S2000000x3_d1),
    StableHlo.unary main_v1 main_v86 ((extractStridedSlice S2000000x1 ![0, 1] · slices_S2000000x3_S2000000x1_0_1) : (⟨S2000000x3, .f32⟩ : BufTy).Contents (Elt F) → (⟨S2000000x1, .f32⟩ : BufTy).Contents (Elt F)),
    StableHlo.reshape main_v86 main_v87 rfl shapeCasts_S2000000x1_S2000000,
    StableHlo.unary main_v87 main_v88 (Host.negf : (⟨S2000000, .f32⟩ : BufTy).Contents (Elt F) → (⟨S2000000, .f32⟩ : BufTy).Contents (Elt F)),
    StableHlo.unary main_v1 main_v89 ((extractStridedSlice S2000000x1 ![0, 0] · slices_S2000000x3_S2000000x1_0_0) : (⟨S2000000x3, .f32⟩ : BufTy).Contents (Elt F) → (⟨S2000000x1, .f32⟩ : BufTy).Contents (Elt F)),
    StableHlo.reshape main_v89 main_v90 rfl shapeCasts_S2000000x1_S2000000,
    StableHlo.unary main_v88 main_v91 (broadcastInDim S2000000x1 ![0] bcast_S2000000_S2000000x1_0 : (⟨S2000000, .f32⟩ : BufTy).Contents (Elt F) → (⟨S2000000x1, .f32⟩ : BufTy).Contents (Elt F)),
    StableHlo.unary main_v90 main_v92 (broadcastInDim S2000000x1 ![0] bcast_S2000000_S2000000x1_0 : (⟨S2000000, .f32⟩ : BufTy).Contents (Elt F) → (⟨S2000000x1, .f32⟩ : BufTy).Contents (Elt F)),
    StableHlo.unary main_v67 main_v93 (broadcastInDim S2000000x1 ![0] bcast_S2000000_S2000000x1_0 : (⟨S2000000, .f32⟩ : BufTy).Contents (Elt F) → (⟨S2000000x1, .f32⟩ : BufTy).Contents (Elt F)),
    StableHlo.nary ![main_v91, main_v92, main_v93] main_v94 (fun u => concatenate S2000000x3 1 [⟨S2000000x1, u 0⟩, ⟨S2000000x1, u 1⟩, ⟨S2000000x1, u 2⟩] concatenates_S2000000x1_S2000000x1_S2000000x1_S2000000x3_d1),
    StableHlo.unary main_v76 main_v95 (broadcastInDim S2000000x1x3 ![0, 2] bcast_S2000000x3_S2000000x1x3_0_2 : (⟨S2000000x3, .f32⟩ : BufTy).Contents (Elt F) → (⟨S2000000x1x3, .f32⟩ : BufTy).Contents (Elt F)),
    StableHlo.unary main_v85 main_v96 (broadcastInDim S2000000x1x3 ![0, 2] bcast_S2000000x3_S2000000x1x3_0_2 : (⟨S2000000x3, .f32⟩ : BufTy).Contents (Elt F) → (⟨S2000000x1x3, .f32⟩ : BufTy).Contents (Elt F)),
    StableHlo.unary main_v94 main_v97 (broadcastInDim S2000000x1x3 ![0, 2] bcast_S2000000x3_S2000000x1x3_0_2 : (⟨S2000000x3, .f32⟩ : BufTy).Contents (Elt F) → (⟨S2000000x1x3, .f32⟩ : BufTy).Contents (Elt F)),
    StableHlo.nary ![main_v95, main_v96, main_v97] main_v98 (fun u => concatenate S2000000x3x3 1 [⟨S2000000x1x3, u 0⟩, ⟨S2000000x1x3, u 1⟩, ⟨S2000000x1x3, u 2⟩] concatenates_S2000000x1x3_S2000000x1x3_S2000000x1x3_S2000000x3x3_d1) ]

/-- The first-order rotation, the choice between the two, the 4×4 transform and the final product. -/
def w5 : List (HloOp τ sig (Elt F)) :=
  [ StableHlo.unary main_v49 main_v99 (broadcastInDim S1x3x3 ![1, 2] bcast_S3x3_S1x3x3_1_2 : (⟨S3x3, .f32⟩ : BufTy).Contents (Elt F) → (⟨S1x3x3, .f32⟩ : BufTy).Contents (Elt F)),
    StableHlo.unary main_v99 main_v100 (broadcastInDim S2000000x3x3 ![0, 1, 2] bcast_S1x3x3_S2000000x3x3_0_1_2 : (⟨S1x3x3, .f32⟩ : BufTy).Contents (Elt F) → (⟨S2000000x3x3, .f32⟩ : BufTy).Contents (Elt F)),
    StableHlo.binary main_v100 main_v98 main_v101 (addf : (⟨S2000000x3x3, .f32⟩ : BufTy).Contents (Elt F) → (⟨S2000000x3x3, .f32⟩ : BufTy).Contents (Elt F) → (⟨S2000000x3x3, .f32⟩ : BufTy).Contents (Elt F)),
    StableHlo.unary main_v4 main_v102 (broadcastInDim S2000000x1x1 ![0] bcast_S2000000_S2000000x1x1_0 : (⟨S2000000, .i1⟩ : BufTy).Contents (Elt F) → (⟨S2000000x1x1, .i1⟩ : BufTy).Contents (Elt F)),
    StableHlo.TRef.unary (.of main_v102 : StableHlo.TRef sig ⟨S2000000x1x1, .i1⟩) main_call2.v0 (broadcastInDim S2000000x3x3 ![0, 1, 2] bcast_S2000000x1x1_S2000000x3x3_0_1_2),
    StableHlo.TRef.ternary main_call2.v0 (.of main_v101 : StableHlo.TRef sig ⟨S2000000x3x3, .f32⟩) (.of main_v64 : StableHlo.TRef sig ⟨S2000000x3x3, .f32⟩) main_call2.v1 select,
    StableHlo.unary main_v0 main_v104 (broadcastInDim S2000000x3x1 ![0, 1] bcast_S2000000x3_S2000000x3x1_0_1 : (⟨S2000000x3, .f32⟩ : BufTy).Contents (Elt F) → (⟨S2000000x3x1, .f32⟩ : BufTy).Contents (Elt F)),
    StableHlo.binary main_v103 main_v104 main_v105 ((fun a b => concatenate S2000000x3x4 2 [⟨S2000000x3x3, a⟩, ⟨S2000000x3x1, b⟩] concatenates_S2000000x3x3_S2000000x3x1_S2000000x3x4_d2) : (⟨S2000000x3x3, .f32⟩ : BufTy).Contents (Elt F) → (⟨S2000000x3x1, .f32⟩ : BufTy).Contents (Elt F) → (⟨S2000000x3x4, .f32⟩ : BufTy).Contents (Elt F)),
    StableHlo.unary main_cst main_v106 (broadcastInDim S2000000x1x4 ![2] bcast_S4_S2000000x1x4_2 : (⟨S4, .f32⟩ : BufTy).Contents (Elt F) → (⟨S2000000x1x4, .f32⟩ : BufTy).Contents (Elt F)),
    StableHlo.binary main_v105 main_v106 main_v107 ((fun a b => concatenate S2000000x4x4 1 [⟨S2000000x3x4, a⟩, ⟨S2000000x1x4, b⟩] concatenates_S2000000x3x4_S2000000x1x4_S2000000x4x4_d1) : (⟨S2000000x3x4, .f32⟩ : BufTy).Contents (Elt F) → (⟨S2000000x1x4, .f32⟩ : BufTy).Contents (Elt F) → (⟨S2000000x4x4, .f32⟩ : BufTy).Contents (Elt F)),
    StableHlo.binary main_v107 main_arg1 main_v108 ((fun l r => Host.dotGeneral dot_S2000000x4x4_S2000000x4x4_S2000000x4x4_2_1_1_2_0_0 none l r) : (⟨S2000000x4x4, .f32⟩ : BufTy).Contents (Elt F) → (⟨S2000000x4x4, .f32⟩ : BufTy).Contents (Elt F) → (⟨S2000000x4x4, .f32⟩ : BufTy).Contents (Elt F)) ]

/-- Folding over a concatenation is folding over the pieces in turn. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end Cert.ReferenceIdeal.RefValue

end
-- ==== Proof.RefOps.lean ====
/-
  The reference program's @main as a list of its 120 host operations (the three outlined functions' operations listed
  at their call sites over each call's own buffers), its equality with the five pieces in order, and the run read
  back: every weakly fair execution of @main terminates with each buffer at the fold of the operations' results over
  the launch contents.
-/
import proofs.«156985_j58256936403585_2_alg».proof.Proof.RefWin

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

set_option maxRecDepth 8192

/-- @main's 120 operations, in order. -/
abbrev ops : List (HloOp τ sig (Elt F)) :=
  [ StableHlo.nullary main_cst (fun i => FloatOps.ofBits .f32 (lit0 (S4.rowMajor i))),
    StableHlo.unary main_arg0 main_v0 ((extractStridedSlice S2000000x3 ![0, 0] · slices_S2000000x6_S2000000x3_0_0) : (⟨S2000000x6, .f32⟩ : BufTy).Contents (Elt F) → (⟨S2000000x3, .f32⟩ : BufTy).Contents (Elt F)),
    StableHlo.unary main_arg0 main_v1 ((extractStridedSlice S2000000x3 ![0, 3] · slices_S2000000x6_S2000000x3_0_3) : (⟨S2000000x6, .f32⟩ : BufTy).Contents (Elt F) → (⟨S2000000x3, .f32⟩ : BufTy).Contents (Elt F)),
    StableHlo.TRef.binary (.of main_v1 : StableHlo.TRef sig ⟨S2000000x3, .f32⟩) (.of main_v1 : StableHlo.TRef sig ⟨S2000000x3, .f32⟩) main_call0.v0 mulf,
    StableHlo.TRef.nullary main_call0.cst (constant S_ .f32 0x00000000#32),
    StableHlo.TRef.binary main_call0.v0 main_call0.cst main_call0.v1 (fun x v => Host.reduceAdd x v reducesTo_S2000000x3_S2000000_d1 h_S_),
    StableHlo.TRef.unary main_call0.v1 main_call0.v2 Host.sqrt,
    StableHlo.nullary main_cst_0 (constant S_ .f32 0x358637BD#32),
    StableHlo.unary main_cst_0 main_v3 (broadcastInDim S2000000 ![] bcast_S_S2000000 : (⟨S_, .f32⟩ : BufTy).Contents (Elt F) → (⟨S2000000, .f32⟩ : BufTy).Contents (Elt F)),
    StableHlo.binary main_v2 main_v3 main_v4 (cmpf .olt : (⟨S2000000, .f32⟩ : BufTy).Contents (Elt F) → (⟨S2000000, .f32⟩ : BufTy).Contents (Elt F) → (⟨S2000000, .i1⟩ : BufTy).Contents (Elt F)),
    StableHlo.nullary main_cst_1 (constant S_ .f32 0x3F800000#32),
    StableHlo.unary main_cst_1 main_v5 (broadcastInDim S2000000 ![] bcast_S_S2000000 : (⟨S_, .f32⟩ : BufTy).Contents (Elt F) → (⟨S2000000, .f32⟩ : BufTy).Contents (Elt F)),
    StableHlo.TRef.ternary (.of main_v4 : StableHlo.TRef sig ⟨S2000000, .i1⟩) (.of main_v5 : StableHlo.TRef sig ⟨S2000000, .f32⟩) (.of main_v2 : StableHlo.TRef sig ⟨S2000000, .f32⟩) main_call1.v0 select,
    StableHlo.unary main_v6 main_v7 (broadcastInDim S2000000x1 ![0] bcast_S2000000_S2000000x1_0 : (⟨S2000000, .f32⟩ : BufTy).Contents (Elt F) → (⟨S2000000x1, .f32⟩ : BufTy).Contents (Elt F)),
    StableHlo.unary main_v7 main_v8 (broadcastInDim S2000000x3 ![0, 1] bcast_S2000000x1_S2000000x3_0_1 : (⟨S2000000x1, .f32⟩ : BufTy).Contents (Elt F) → (⟨S2000000x3, .f32⟩ : BufTy).Contents (Elt F)),
    StableHlo.binary main_v1 main_v8 main_v9 (Host.divf : (⟨S2000000x3, .f32⟩ : BufTy).Contents (Elt F) → (⟨S2000000x3, .f32⟩ : BufTy).Contents (Elt F) → (⟨S2000000x3, .f32⟩ : BufTy).Contents (Elt F)),
    StableHlo.unary main_v9 main_v10 ((extractStridedSlice S2000000x1 ![0, 0] · slices_S2000000x3_S2000000x1_0_0) : (⟨S2000000x3, .f32⟩ : BufTy).Contents (Elt F) → (⟨S2000000x1, .f32⟩ : BufTy).Contents (Elt F)),
    StableHlo.reshape main_v10 main_v11 rfl shapeCasts_S2000000x1_S2000000,
    StableHlo.nullary main_cst_2 (constant S_ .f32 0x00000000#32),
    StableHlo.unary main_cst_2 main_v12 (broadcastInDim S2000000 ![] bcast_S_S2000000 : (⟨S_, .f32⟩ : BufTy).Contents (Elt F) → (⟨S2000000, .f32⟩ : BufTy).Contents (Elt F)),
    StableHlo.unary main_v9 main_v13 ((extractStridedSlice S2000000x1 ![0, 2] · slices_S2000000x3_S2000000x1_0_2) : (⟨S2000000x3, .f32⟩ : BufTy).Contents (Elt F) → (⟨S2000000x1, .f32⟩ : BufTy).Contents (Elt F)),
    StableHlo.reshape main_v13 main_v14 rfl shapeCasts_S2000000x1_S2000000,
    StableHlo.unary main_v14 main_v15 (Host.negf : (⟨S2000000, .f32⟩ : BufTy).Contents (Elt F) → (⟨S2000000, .f32⟩ : BufTy).Contents (Elt F)),
    StableHlo.unary main_v9 main_v16 ((extractStridedSlice S2000000x1 ![0, 1] · slices_S2000000x3_S2000000x1_0_1) : (⟨S2000000x3, .f32⟩ : BufTy).Contents (Elt F) → (⟨S2000000x1, .f32⟩ : BufTy).Contents (Elt F)),
    StableHlo.reshape main_v16 main_v17 rfl shapeCasts_S2000000x1_S2000000,
    StableHlo.unary main_v12 main_v18 (broadcastInDim S2000000x1 ![0] bcast_S2000000_S2000000x1_0 : (⟨S2000000, .f32⟩ : BufTy).Contents (Elt F) → (⟨S2000000x1, .f32⟩ : BufTy).Contents (Elt F)),
    StableHlo.unary main_v15 main_v19 (broadcastInDim S2000000x1 ![0] bcast_S2000000_S2000000x1_0 : (⟨S2000000, .f32⟩ : BufTy).Contents (Elt F) → (⟨S2000000x1, .f32⟩ : BufTy).Contents (Elt F)),
    StableHlo.unary main_v17 main_v20 (broadcastInDim S2000000x1 ![0] bcast_S2000000_S2000000x1_0 : (⟨S2000000, .f32⟩ : BufTy).Contents (Elt F) → (⟨S2000000x1, .f32⟩ : BufTy).Contents (Elt F)),
    StableHlo.nary ![main_v18, main_v19, main_v20] main_v21 (fun u => concatenate S2000000x3 1 [⟨S2000000x1, u 0⟩, ⟨S2000000x1, u 1⟩, ⟨S2000000x1, u 2⟩] concatenates_S2000000x1_S2000000x1_S2000000x1_S2000000x3_d1),
    StableHlo.unary main_v9 main_v22 ((extractStridedSlice S2000000x1 ![0, 2] · slices_S2000000x3_S2000000x1_0_2) : (⟨S2000000x3, .f32⟩ : BufTy).Contents (Elt F) → (⟨S2000000x1, .f32⟩ : BufTy).Contents (Elt F)),
    StableHlo.reshape main_v22 main_v23 rfl shapeCasts_S2000000x1_S2000000,
    StableHlo.unary main_v9 main_v24 ((extractStridedSlice S2000000x1 ![0, 0] · slices_S2000000x3_S2000000x1_0_0) : (⟨S2000000x3, .f32⟩ : BufTy).Contents (Elt F) → (⟨S2000000x1, .f32⟩ : BufTy).Contents (Elt F)),
    StableHlo.reshape main_v24 main_v25 rfl shapeCasts_S2000000x1_S2000000,
    StableHlo.unary main_v25 main_v26 (Host.negf : (⟨S2000000, .f32⟩ : BufTy).Contents (Elt F) → (⟨S2000000, .f32⟩ : BufTy).Contents (Elt F)),
    StableHlo.unary main_v23 main_v27 (broadcastInDim S2000000x1 ![0] bcast_S2000000_S2000000x1_0 : (⟨S2000000, .f32⟩ : BufTy).Contents (Elt F) → (⟨S2000000x1, .f32⟩ : BufTy).Contents (Elt F)),
    StableHlo.unary main_v12 main_v28 (broadcastInDim S2000000x1 ![0] bcast_S2000000_S2000000x1_0 : (⟨S2000000, .f32⟩ : BufTy).Contents (Elt F) → (⟨S2000000x1, .f32⟩ : BufTy).Contents (Elt F)),
    StableHlo.unary main_v26 main_v29 (broadcastInDim S2000000x1 ![0] bcast_S2000000_S2000000x1_0 : (⟨S2000000, .f32⟩ : BufTy).Contents (Elt F) → (⟨S2000000x1, .f32⟩ : BufTy).Contents (Elt F)),
    StableHlo.nary ![main_v27, main_v28, main_v29] main_v30 (fun u => concatenate S2000000x3 1 [⟨S2000000x1, u 0⟩, ⟨S2000000x1, u 1⟩, ⟨S2000000x1, u 2⟩] concatenates_S2000000x1_S2000000x1_S2000000x1_S2000000x3_d1),
    StableHlo.unary main_v9 main_v31 ((extractStridedSlice S2000000x1 ![0, 1] · slices_S2000000x3_S2000000x1_0_1) : (⟨S2000000x3, .f32⟩ : BufTy).Contents (Elt F) → (⟨S2000000x1, .f32⟩ : BufTy).Contents (Elt F)),
    StableHlo.reshape main_v31 main_v32 rfl shapeCasts_S2000000x1_S2000000,
    StableHlo.unary main_v32 main_v33 (Host.negf : (⟨S2000000, .f32⟩ : BufTy).Contents (Elt F) → (⟨S2000000, .f32⟩ : BufTy).Contents (Elt F)),
    StableHlo.unary main_v9 main_v34 ((extractStridedSlice S2000000x1 ![0, 0] · slices_S2000000x3_S2000000x1_0_0) : (⟨S2000000x3, .f32⟩ : BufTy).Contents (Elt F) → (⟨S2000000x1, .f32⟩ : BufTy).Contents (Elt F)),
    StableHlo.reshape main_v34 main_v35 rfl shapeCasts_S2000000x1_S2000000,
    StableHlo.unary main_v33 main_v36 (broadcastInDim S2000000x1 ![0] bcast_S2000000_S2000000x1_0 : (⟨S2000000, .f32⟩ : BufTy).Contents (Elt F) → (⟨S2000000x1, .f32⟩ : BufTy).Contents (Elt F)),
    StableHlo.unary main_v35 main_v37 (broadcastInDim S2000000x1 ![0] bcast_S2000000_S2000000x1_0 : (⟨S2000000, .f32⟩ : BufTy).Contents (Elt F) → (⟨S2000000x1, .f32⟩ : BufTy).Contents (Elt F)),
    StableHlo.unary main_v12 main_v38 (broadcastInDim S2000000x1 ![0] bcast_S2000000_S2000000x1_0 : (⟨S2000000, .f32⟩ : BufTy).Contents (Elt F) → (⟨S2000000x1, .f32⟩ : BufTy).Contents (Elt F)),
    StableHlo.nary ![main_v36, main_v37, main_v38] main_v39 (fun u => concatenate S2000000x3 1 [⟨S2000000x1, u 0⟩, ⟨S2000000x1, u 1⟩, ⟨S2000000x1, u 2⟩] concatenates_S2000000x1_S2000000x1_S2000000x1_S2000000x3_d1),
    StableHlo.unary main_v21 main_v40 (broadcastInDim S2000000x1x3 ![0, 2] bcast_S2000000x3_S2000000x1x3_0_2 : (⟨S2000000x3, .f32⟩ : BufTy).Contents (Elt F) → (⟨S2000000x1x3, .f32⟩ : BufTy).Contents (Elt F)),
    StableHlo.unary main_v30 main_v41 (broadcastInDim S2000000x1x3 ![0, 2] bcast_S2000000x3_S2000000x1x3_0_2 : (⟨S2000000x3, .f32⟩ : BufTy).Contents (Elt F) → (⟨S2000000x1x3, .f32⟩ : BufTy).Contents (Elt F)),
    StableHlo.unary main_v39 main_v42 (broadcastInDim S2000000x1x3 ![0, 2] bcast_S2000000x3_S2000000x1x3_0_2 : (⟨S2000000x3, .f32⟩ : BufTy).Contents (Elt F) → (⟨S2000000x1x3, .f32⟩ : BufTy).Contents (Elt F)),
    StableHlo.nary ![main_v40, main_v41, main_v42] main_v43 (fun u => concatenate S2000000x3x3 1 [⟨S2000000x1x3, u 0⟩, ⟨S2000000x1x3, u 1⟩, ⟨S2000000x1x3, u 2⟩] concatenates_S2000000x1x3_S2000000x1x3_S2000000x1x3_S2000000x3x3_d1),
    StableHlo.nullary main_v44 (iotaInDim S3x3 32 0),
    StableHlo.nullary main_v45 (iotaInDim S3x3 32 1),
    StableHlo.nullary main_c (constantI S_ 32 0#32),
    StableHlo.unary main_c main_v46 (broadcastInDim S3x3 ![] bcast_S_S3x3 : (⟨S_, .i32⟩ : BufTy).Contents (Elt F) → (⟨S3x3, .i32⟩ : BufTy).Contents (Elt F)),
    StableHlo.binary main_v44 main_v46 main_v47 (addi : (⟨S3x3, .i32⟩ : BufTy).Contents (Elt F) → (⟨S3x3, .i32⟩ : BufTy).Contents (Elt F) → (⟨S3x3, .i32⟩ : BufTy).Contents (Elt F)),
    StableHlo.binary main_v47 main_v45 main_v48 (cmpi .eq : (⟨S3x3, .i32⟩ : BufTy).Contents (Elt F) → (⟨S3x3, .i32⟩ : BufTy).Contents (Elt F) → (⟨S3x3, .i1⟩ : BufTy).Contents (Elt F)),
    StableHlo.unary main_v48 main_v49 (uitofp .f32 : (⟨S3x3, .i1⟩ : BufTy).Contents (Elt F) → (⟨S3x3, .f32⟩ : BufTy).Contents (Elt F)),
    StableHlo.unary main_v2 main_v50 (Host.sin : (⟨S2000000, .f32⟩ : BufTy).Contents (Elt F) → (⟨S2000000, .f32⟩ : BufTy).Contents (Elt F)),
    StableHlo.unary main_v50 main_v51 (broadcastInDim S2000000x1x1 ![0] bcast_S2000000_S2000000x1x1_0 : (⟨S2000000, .f32⟩ : BufTy).Contents (Elt F) → (⟨S2000000x1x1, .f32⟩ : BufTy).Contents (Elt F)),
    StableHlo.unary main_v2 main_v52 (Host.cos : (⟨S2000000, .f32⟩ : BufTy).Contents (Elt F) → (⟨S2000000, .f32⟩ : BufTy).Contents (Elt F)),
    StableHlo.nullary main_cst_3 (constant S_ .f32 0x3F800000#32),
    StableHlo.unary main_cst_3 main_v53 (broadcastInDim S2000000 ![] bcast_S_S2000000 : (⟨S_, .f32⟩ : BufTy).Contents (Elt F) → (⟨S2000000, .f32⟩ : BufTy).Contents (Elt F)),
    StableHlo.binary main_v53 main_v52 main_v54 (subf : (⟨S2000000, .f32⟩ : BufTy).Contents (Elt F) → (⟨S2000000, .f32⟩ : BufTy).Contents (Elt F) → (⟨S2000000, .f32⟩ : BufTy).Contents (Elt F)),
    StableHlo.unary main_v54 main_v55 (broadcastInDim S2000000x1x1 ![0] bcast_S2000000_S2000000x1x1_0 : (⟨S2000000, .f32⟩ : BufTy).Contents (Elt F) → (⟨S2000000x1x1, .f32⟩ : BufTy).Contents (Elt F)),
    StableHlo.unary main_v51 main_v56 (broadcastInDim S2000000x3x3 ![0, 1, 2] bcast_S2000000x1x1_S2000000x3x3_0_1_2 : (⟨S2000000x1x1, .f32⟩ : BufTy).Contents (Elt F) → (⟨S2000000x3x3, .f32⟩ : BufTy).Contents (Elt F)),
    StableHlo.binary main_v56 main_v43 main_v57 (mulf : (⟨S2000000x3x3, .f32⟩ : BufTy).Contents (Elt F) → (⟨S2000000x3x3, .f32⟩ : BufTy).Contents (Elt F) → (⟨S2000000x3x3, .f32⟩ : BufTy).Contents (Elt F)),
    StableHlo.unary main_v49 main_v58 (broadcastInDim S1x3x3 ![1, 2] bcast_S3x3_S1x3x3_1_2 : (⟨S3x3, .f32⟩ : BufTy).Contents (Elt F) → (⟨S1x3x3, .f32⟩ : BufTy).Contents (Elt F)),
    StableHlo.unary main_v58 main_v59 (broadcastInDim S2000000x3x3 ![0, 1, 2] bcast_S1x3x3_S2000000x3x3_0_1_2 : (⟨S1x3x3, .f32⟩ : BufTy).Contents (Elt F) → (⟨S2000000x3x3, .f32⟩ : BufTy).Contents (Elt F)),
    StableHlo.binary main_v59 main_v57 main_v60 (addf : (⟨S2000000x3x3, .f32⟩ : BufTy).Contents (Elt F) → (⟨S2000000x3x3, .f32⟩ : BufTy).Contents (Elt F) → (⟨S2000000x3x3, .f32⟩ : BufTy).Contents (Elt F)),
    StableHlo.binary main_v43 main_v43 main_v61 ((fun l r => Host.dotGeneral dot_S2000000x3x3_S2000000x3x3_S2000000x3x3_2_1_1_2_0_0 none l r) : (⟨S2000000x3x3, .f32⟩ : BufTy).Contents (Elt F) → (⟨S2000000x3x3, .f32⟩ : BufTy).Contents (Elt F) → (⟨S2000000x3x3, .f32⟩ : BufTy).Contents (Elt F)),
    StableHlo.unary main_v55 main_v62 (broadcastInDim S2000000x3x3 ![0, 1, 2] bcast_S2000000x1x1_S2000000x3x3_0_1_2 : (⟨S2000000x1x1, .f32⟩ : BufTy).Contents (Elt F) → (⟨S2000000x3x3, .f32⟩ : BufTy).Contents (Elt F)),
    StableHlo.binary main_v62 main_v61 main_v63 (mulf : (⟨S2000000x3x3, .f32⟩ : BufTy).Contents (Elt F) → (⟨S2000000x3x3, .f32⟩ : BufTy).Contents (Elt F) → (⟨S2000000x3x3, .f32⟩ : BufTy).Contents (Elt F)),
    StableHlo.binary main_v60 main_v63 main_v64 (addf : (⟨S2000000x3x3, .f32⟩ : BufTy).Contents (Elt F) → (⟨S2000000x3x3, .f32⟩ : BufTy).Contents (Elt F) → (⟨S2000000x3x3, .f32⟩ : BufTy).Contents (Elt F)),
    StableHlo.unary main_v1 main_v65 ((extractStridedSlice S2000000x1 ![0, 0] · slices_S2000000x3_S2000000x1_0_0) : (⟨S2000000x3, .f32⟩ : BufTy).Contents (Elt F) → (⟨S2000000x1, .f32⟩ : BufTy).Contents (Elt F)),
    StableHlo.reshape main_v65 main_v66 rfl shapeCasts_S2000000x1_S2000000,
    StableHlo.nullary main_cst_4 (constant S_ .f32 0x00000000#32),
    StableHlo.unary main_cst_4 main_v67 (broadcastInDim S2000000 ![] bcast_S_S2000000 : (⟨S_, .f32⟩ : BufTy).Contents (Elt F) → (⟨S2000000, .f32⟩ : BufTy).Contents (Elt F)),
    StableHlo.unary main_v1 main_v68 ((extractStridedSlice S2000000x1 ![0, 2] · slices_S2000000x3_S2000000x1_0_2) : (⟨S2000000x3, .f32⟩ : BufTy).Contents (Elt F) → (⟨S2000000x1, .f32⟩ : BufTy).Contents (Elt F)),
    StableHlo.reshape main_v68 main_v69 rfl shapeCasts_S2000000x1_S2000000,
    StableHlo.unary main_v69 main_v70 (Host.negf : (⟨S2000000, .f32⟩ : BufTy).Contents (Elt F) → (⟨S2000000, .f32⟩ : BufTy).Contents (Elt F)),
    StableHlo.unary main_v1 main_v71 ((extractStridedSlice S2000000x1 ![0, 1] · slices_S2000000x3_S2000000x1_0_1) : (⟨S2000000x3, .f32⟩ : BufTy).Contents (Elt F) → (⟨S2000000x1, .f32⟩ : BufTy).Contents (Elt F)),
    StableHlo.reshape main_v71 main_v72 rfl shapeCasts_S2000000x1_S2000000,
    StableHlo.unary main_v67 main_v73 (broadcastInDim S2000000x1 ![0] bcast_S2000000_S2000000x1_0 : (⟨S2000000, .f32⟩ : BufTy).Contents (Elt F) → (⟨S2000000x1, .f32⟩ : BufTy).Contents (Elt F)),
    StableHlo.unary main_v70 main_v74 (broadcastInDim S2000000x1 ![0] bcast_S2000000_S2000000x1_0 : (⟨S2000000, .f32⟩ : BufTy).Contents (Elt F) → (⟨S2000000x1, .f32⟩ : BufTy).Contents (Elt F)),
    StableHlo.unary main_v72 main_v75 (broadcastInDim S2000000x1 ![0] bcast_S2000000_S2000000x1_0 : (⟨S2000000, .f32⟩ : BufTy).Contents (Elt F) → (⟨S2000000x1, .f32⟩ : BufTy).Contents (Elt F)),
    StableHlo.nary ![main_v73, main_v74, main_v75] main_v76 (fun u => concatenate S2000000x3 1 [⟨S2000000x1, u 0⟩, ⟨S2000000x1, u 1⟩, ⟨S2000000x1, u 2⟩] concatenates_S2000000x1_S2000000x1_S2000000x1_S2000000x3_d1),
    StableHlo.unary main_v1 main_v77 ((extractStridedSlice S2000000x1 ![0, 2] · slices_S2000000x3_S2000000x1_0_2) : (⟨S2000000x3, .f32⟩ : BufTy).Contents (Elt F) → (⟨S2000000x1, .f32⟩ : BufTy).Contents (Elt F)),
    StableHlo.reshape main_v77 main_v78 rfl shapeCasts_S2000000x1_S2000000,
    StableHlo.unary main_v1 main_v79 ((extractStridedSlice S2000000x1 ![0, 0] · slices_S2000000x3_S2000000x1_0_0) : (⟨S2000000x3, .f32⟩ : BufTy).Contents (Elt F) → (⟨S2000000x1, .f32⟩ : BufTy).Contents (Elt F)),
    StableHlo.reshape main_v79 main_v80 rfl shapeCasts_S2000000x1_S2000000,
    StableHlo.unary main_v80 main_v81 (Host.negf : (⟨S2000000, .f32⟩ : BufTy).Contents (Elt F) → (⟨S2000000, .f32⟩ : BufTy).Contents (Elt F)),
    StableHlo.unary main_v78 main_v82 (broadcastInDim S2000000x1 ![0] bcast_S2000000_S2000000x1_0 : (⟨S2000000, .f32⟩ : BufTy).Contents (Elt F) → (⟨S2000000x1, .f32⟩ : BufTy).Contents (Elt F)),
    StableHlo.unary main_v67 main_v83 (broadcastInDim S2000000x1 ![0] bcast_S2000000_S2000000x1_0 : (⟨S2000000, .f32⟩ : BufTy).Contents (Elt F) → (⟨S2000000x1, .f32⟩ : BufTy).Contents (Elt F)),
    StableHlo.unary main_v81 main_v84 (broadcastInDim S2000000x1 ![0] bcast_S2000000_S2000000x1_0 : (⟨S2000000, .f32⟩ : BufTy).Contents (Elt F) → (⟨S2000000x1, .f32⟩ : BufTy).Contents (Elt F)),
    StableHlo.nary ![main_v82, main_v83, main_v84] main_v85 (fun u => concatenate S2000000x3 1 [⟨S2000000x1, u 0⟩, ⟨S2000000x1, u 1⟩, ⟨S2000000x1, u 2⟩] concatenates_S2000000x1_S2000000x1_S2000000x1_S2000000x3_d1),
    StableHlo.unary main_v1 main_v86 ((extractStridedSlice S2000000x1 ![0, 1] · slices_S2000000x3_S2000000x1_0_1) : (⟨S2000000x3, .f32⟩ : BufTy).Contents (Elt F) → (⟨S2000000x1, .f32⟩ : BufTy).Contents (Elt F)),
    StableHlo.reshape main_v86 main_v87 rfl shapeCasts_S2000000x1_S2000000,
    StableHlo.unary main_v87 main_v88 (Host.negf : (⟨S2000000, .f32⟩ : BufTy).Contents (Elt F) → (⟨S2000000, .f32⟩ : BufTy).Contents (Elt F)),
    StableHlo.unary main_v1 main_v89 ((extractStridedSlice S2000000x1 ![0, 0] · slices_S2000000x3_S2000000x1_0_0) : (⟨S2000000x3, .f32⟩ : BufTy).Contents (Elt F) → (⟨S2000000x1, .f32⟩ : BufTy).Contents (Elt F)),
    StableHlo.reshape main_v89 main_v90 rfl shapeCasts_S2000000x1_S2000000,
    StableHlo.unary main_v88 main_v91 (broadcastInDim S2000000x1 ![0] bcast_S2000000_S2000000x1_0 : (⟨S2000000, .f32⟩ : BufTy).Contents (Elt F) → (⟨S2000000x1, .f32⟩ : BufTy).Contents (Elt F)),
    StableHlo.unary main_v90 main_v92 (broadcastInDim S2000000x1 ![0] bcast_S2000000_S2000000x1_0 : (⟨S2000000, .f32⟩ : BufTy).Contents (Elt F) → (⟨S2000000x1, .f32⟩ : BufTy).Contents (Elt F)),
    StableHlo.unary main_v67 main_v93 (broadcastInDim S2000000x1 ![0] bcast_S2000000_S2000000x1_0 : (⟨S2000000, .f32⟩ : BufTy).Contents (Elt F) → (⟨S2000000x1, .f32⟩ : BufTy).Contents (Elt F)),
    StableHlo.nary ![main_v91, main_v92, main_v93] main_v94 (fun u => concatenate S2000000x3 1 [⟨S2000000x1, u 0⟩, ⟨S2000000x1, u 1⟩, ⟨S2000000x1, u 2⟩] concatenates_S2000000x1_S2000000x1_S2000000x1_S2000000x3_d1),
    StableHlo.unary main_v76 main_v95 (broadcastInDim S2000000x1x3 ![0, 2] bcast_S2000000x3_S2000000x1x3_0_2 : (⟨S2000000x3, .f32⟩ : BufTy).Contents (Elt F) → (⟨S2000000x1x3, .f32⟩ : BufTy).Contents (Elt F)),
    StableHlo.unary main_v85 main_v96 (broadcastInDim S2000000x1x3 ![0, 2] bcast_S2000000x3_S2000000x1x3_0_2 : (⟨S2000000x3, .f32⟩ : BufTy).Contents (Elt F) → (⟨S2000000x1x3, .f32⟩ : BufTy).Contents (Elt F)),
    StableHlo.unary main_v94 main_v97 (broadcastInDim S2000000x1x3 ![0, 2] bcast_S2000000x3_S2000000x1x3_0_2 : (⟨S2000000x3, .f32⟩ : BufTy).Contents (Elt F) → (⟨S2000000x1x3, .f32⟩ : BufTy).Contents (Elt F)),
    StableHlo.nary ![main_v95, main_v96, main_v97] main_v98 (fun u => concatenate S2000000x3x3 1 [⟨S2000000x1x3, u 0⟩, ⟨S2000000x1x3, u 1⟩, ⟨S2000000x1x3, u 2⟩] concatenates_S2000000x1x3_S2000000x1x3_S2000000x1x3_S2000000x3x3_d1),
    StableHlo.unary main_v49 main_v99 (broadcastInDim S1x3x3 ![1, 2] bcast_S3x3_S1x3x3_1_2 : (⟨S3x3, .f32⟩ : BufTy).Contents (Elt F) → (⟨S1x3x3, .f32⟩ : BufTy).Contents (Elt F)),
    StableHlo.unary main_v99 main_v100 (broadcastInDim S2000000x3x3 ![0, 1, 2] bcast_S1x3x3_S2000000x3x3_0_1_2 : (⟨S1x3x3, .f32⟩ : BufTy).Contents (Elt F) → (⟨S2000000x3x3, .f32⟩ : BufTy).Contents (Elt F)),
    StableHlo.binary main_v100 main_v98 main_v101 (addf : (⟨S2000000x3x3, .f32⟩ : BufTy).Contents (Elt F) → (⟨S2000000x3x3, .f32⟩ : BufTy).Contents (Elt F) → (⟨S2000000x3x3, .f32⟩ : BufTy).Contents (Elt F)),
    StableHlo.unary main_v4 main_v102 (broadcastInDim S2000000x1x1 ![0] bcast_S2000000_S2000000x1x1_0 : (⟨S2000000, .i1⟩ : BufTy).Contents (Elt F) → (⟨S2000000x1x1, .i1⟩ : BufTy).Contents (Elt F)),
    StableHlo.TRef.unary (.of main_v102 : StableHlo.TRef sig ⟨S2000000x1x1, .i1⟩) main_call2.v0 (broadcastInDim S2000000x3x3 ![0, 1, 2] bcast_S2000000x1x1_S2000000x3x3_0_1_2),
    StableHlo.TRef.ternary main_call2.v0 (.of main_v101 : StableHlo.TRef sig ⟨S2000000x3x3, .f32⟩) (.of main_v64 : StableHlo.TRef sig ⟨S2000000x3x3, .f32⟩) main_call2.v1 select,
    StableHlo.unary main_v0 main_v104 (broadcastInDim S2000000x3x1 ![0, 1] bcast_S2000000x3_S2000000x3x1_0_1 : (⟨S2000000x3, .f32⟩ : BufTy).Contents (Elt F) → (⟨S2000000x3x1, .f32⟩ : BufTy).Contents (Elt F)),
    StableHlo.binary main_v103 main_v104 main_v105 ((fun a b => concatenate S2000000x3x4 2 [⟨S2000000x3x3, a⟩, ⟨S2000000x3x1, b⟩] concatenates_S2000000x3x3_S2000000x3x1_S2000000x3x4_d2) : (⟨S2000000x3x3, .f32⟩ : BufTy).Contents (Elt F) → (⟨S2000000x3x1, .f32⟩ : BufTy).Contents (Elt F) → (⟨S2000000x3x4, .f32⟩ : BufTy).Contents (Elt F)),
    StableHlo.unary main_cst main_v106 (broadcastInDim S2000000x1x4 ![2] bcast_S4_S2000000x1x4_2 : (⟨S4, .f32⟩ : BufTy).Contents (Elt F) → (⟨S2000000x1x4, .f32⟩ : BufTy).Contents (Elt F)),
    StableHlo.binary main_v105 main_v106 main_v107 ((fun a b => concatenate S2000000x4x4 1 [⟨S2000000x3x4, a⟩, ⟨S2000000x1x4, b⟩] concatenates_S2000000x3x4_S2000000x1x4_S2000000x4x4_d1) : (⟨S2000000x3x4, .f32⟩ : BufTy).Contents (Elt F) → (⟨S2000000x1x4, .f32⟩ : BufTy).Contents (Elt F) → (⟨S2000000x4x4, .f32⟩ : BufTy).Contents (Elt F)),
    StableHlo.binary main_v107 main_arg1 main_v108 ((fun l r => Host.dotGeneral dot_S2000000x4x4_S2000000x4x4_S2000000x4x4_2_1_1_2_0_0 none l r) : (⟨S2000000x4x4, .f32⟩ : BufTy).Contents (Elt F) → (⟨S2000000x4x4, .f32⟩ : BufTy).Contents (Elt F) → (⟨S2000000x4x4, .f32⟩ : BufTy).Contents (Elt F)) ]

/-- The list is its five pieces in order. -/
theorem ops_eq : (ops : List (HloOp τ sig (Elt F))) = w1 ++ (w2 ++ (w3 ++ (w4 ++ w5))) := rfl

set_option maxHeartbeats 8000000 in
/-- @main is that straight line: the outlined functions unfolded at their calls, the sequencing reassociated. -/
theorem main_eq (c : Dev nD) : main (F := F) c = seq ops := by
  simp only [main, main_part0, main_part1, fn_norm.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., binary_bufs_sub .., nullary_bufs_sub .., binary_bufs_sub .., unary_bufs_sub .., nullary_bufs_sub .., unary_bufs_sub .., binary_bufs_sub .., nullary_bufs_sub .., unary_bufs_sub .., ternary_bufs_sub .., unary_bufs_sub .., unary_bufs_sub .., binary_bufs_sub .., unary_bufs_sub .., reshape_bufs_sub .., nullary_bufs_sub .., unary_bufs_sub .., unary_bufs_sub .., reshape_bufs_sub .., unary_bufs_sub .., unary_bufs_sub .., reshape_bufs_sub .., unary_bufs_sub .., unary_bufs_sub .., unary_bufs_sub .., nary_bufs_sub .., unary_bufs_sub .., reshape_bufs_sub .., unary_bufs_sub .., reshape_bufs_sub .., unary_bufs_sub .., unary_bufs_sub .., unary_bufs_sub .., unary_bufs_sub .., nary_bufs_sub .., unary_bufs_sub .., reshape_bufs_sub .., unary_bufs_sub .., unary_bufs_sub .., reshape_bufs_sub .., unary_bufs_sub .., unary_bufs_sub .., unary_bufs_sub .., nary_bufs_sub .., unary_bufs_sub .., unary_bufs_sub .., unary_bufs_sub .., nary_bufs_sub .., nullary_bufs_sub .., nullary_bufs_sub .., nullary_bufs_sub .., unary_bufs_sub .., binary_bufs_sub .., binary_bufs_sub .., unary_bufs_sub .., unary_bufs_sub .., unary_bufs_sub .., unary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., binary_bufs_sub .., binary_bufs_sub .., unary_bufs_sub .., reshape_bufs_sub .., nullary_bufs_sub .., unary_bufs_sub .., unary_bufs_sub .., reshape_bufs_sub .., unary_bufs_sub .., unary_bufs_sub .., reshape_bufs_sub .., unary_bufs_sub .., unary_bufs_sub .., unary_bufs_sub .., nary_bufs_sub .., unary_bufs_sub .., reshape_bufs_sub .., unary_bufs_sub .., reshape_bufs_sub .., unary_bufs_sub .., unary_bufs_sub .., unary_bufs_sub .., unary_bufs_sub .., nary_bufs_sub .., unary_bufs_sub .., reshape_bufs_sub .., unary_bufs_sub .., unary_bufs_sub .., reshape_bufs_sub .., unary_bufs_sub .., unary_bufs_sub .., unary_bufs_sub .., nary_bufs_sub .., unary_bufs_sub .., unary_bufs_sub .., unary_bufs_sub .., nary_bufs_sub .., unary_bufs_sub .., unary_bufs_sub .., binary_bufs_sub .., unary_bufs_sub .., unary_bufs_sub .., ternary_bufs_sub .., unary_bufs_sub .., binary_bufs_sub .., unary_bufs_sub .., binary_bufs_sub .., binary_bufs_sub ..⟩

/-- Every weakly fair execution of @main terminates, and every final state has each buffer at the fold of the
    operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefStages.lean ====
/-
  The reference computation as named stages: each a function of the two argument arrays (or of the earlier stages it reads),
  spelt with the same whole-array operations as the program, so that the result array is one short term over them.

  ω is the last three columns of the parameter array and t the first three; θ the root of the summed squares of ω; the bit
  says θ is below the threshold; the divisor is 1 there and θ elsewhere; k = ω / divisor.  `skewA x` is the array of skew
  matrices of the rows of x, built row by row from the columns of x, their negations and a zero column.  `rodA θ K` is
  (I + sin θ · K) + (1 − cos θ) · K·K, `firstA` the first-order I + skew ω, `homA` the 4×4 array [[R, t], [0 0 0 1]] and the
  result its batched product with the pose array.
-/
import proofs.«156985_j58256936403585_2_alg».proof.ReferenceIdeal

noncomputable section

namespace Cert.ReferenceIdeal.RefValue

open Cert.ReferenceIdeal Idealize.ShloMosaic
open Cert.ReferenceIdeal.Facts₀ Cert.ReferenceIdeal.Facts

variable {F : FTy → Type} [FloatOps F] [Cert.ReferenceIdeal.Facts]

/-- The literal bottom row (0, 0, 0, 1). -/
def s_cst : (⟨S4, .f32⟩ : BufTy).Contents (Elt F) := fun i => FloatOps.ofBits .f32 (lit0 (S4.rowMajor i))

/-- t: the first three columns of the parameter array. -/
def s_v0 (a0 : (⟨S2000000x6, .f32⟩ : BufTy).Contents (Elt F)) : (⟨S2000000x3, .f32⟩ : BufTy).Contents (Elt F) :=
  extractStridedSlice S2000000x3 ![0, 0] a0 slices_S2000000x6_S2000000x3_0_0

/-- ω: the last three columns of the parameter array. -/
def s_v1 (a0 : (⟨S2000000x6, .f32⟩ : BufTy).Contents (Elt F)) : (⟨S2000000x3, .f32⟩ : BufTy).Contents (Elt F) :=
  extractStridedSlice S2000000x3 ![0, 3] a0 slices_S2000000x6_S2000000x3_0_3

/-- θ: the root of the sum over the three columns of ω². -/
def s_v2 (a0 : (⟨S2000000x6, .f32⟩ : BufTy).Contents (Elt F)) : (⟨S2000000, .f32⟩ : BufTy).Contents (Elt F) :=
  Host.sqrt (Host.reduceAdd (mulf (s_v1 a0) (s_v1 a0)) (constant S_ .f32 0x00000000#32) reducesTo_S2000000x3_S2000000_d1 h_S_)

/-- The bit: θ below the threshold. -/
def s_v4 (a0 : (⟨S2000000x6, .f32⟩ : BufTy).Contents (Elt F)) : (⟨S2000000, .i1⟩ : BufTy).Contents (Elt F) :=
  cmpf .olt (s_v2 a0) (broadcastInDim S2000000 ![] bcast_S_S2000000 (constant S_ .f32 0x358637BD#32))

/-- The divisor: 1 where the bit is set, θ elsewhere. -/
def s_v6 (a0 : (⟨S2000000x6, .f32⟩ : BufTy).Contents (Elt F)) : (⟨S2000000, .f32⟩ : BufTy).Contents (Elt F) :=
  select (s_v4 a0) (broadcastInDim S2000000 ![] bcast_S_S2000000 (constant S_ .f32 0x3F800000#32)) (s_v2 a0)

/-- k = ω / divisor, the divisor repeated along the three columns. -/
def s_v9 (a0 : (⟨S2000000x6, .f32⟩ : BufTy).Contents (Elt F)) : (⟨S2000000x3, .f32⟩ : BufTy).Contents (Elt F) :=
  Host.divf (s_v1 a0) (broadcastInDim S2000000x3 ![0, 1] bcast_S2000000x1_S2000000x3_0_1
    (broadcastInDim S2000000x1 ![0] bcast_S2000000_S2000000x1_0 (s_v6 a0)))

/-- Column 0 of an n×3 array, as a vector. -/
def col0 (x : (⟨S2000000x3, .f32⟩ : BufTy).Contents (Elt F)) : (⟨S2000000, .f32⟩ : BufTy).Contents (Elt F) :=
  shapeCast S2000000 (extractStridedSlice S2000000x1 ![0, 0] x slices_S2000000x3_S2000000x1_0_0) shapeCasts_S2000000x1_S2000000
/-- Column 1 of an n×3 array, as a vector. -/
def col1 (x : (⟨S2000000x3, .f32⟩ : BufTy).Contents (Elt F)) : (⟨S2000000, .f32⟩ : BufTy).Contents (Elt F) :=
  shapeCast S2000000 (extractStridedSlice S2000000x1 ![0, 1] x slices_S2000000x3_S2000000x1_0_1) shapeCasts_S2000000x1_S2000000
/-- Column 2 of an n×3 array, as a vector. -/
def col2 (x : (⟨S2000000x3, .f32⟩ : BufTy).Contents (Elt F)) : (⟨S2000000, .f32⟩ : BufTy).Contents (Elt F) :=
  shapeCast S2000000 (extractStridedSlice S2000000x1 ![0, 2] x slices_S2000000x3_S2000000x1_0_2) shapeCasts_S2000000x1_S2000000

/-- The zero vector. -/
def zcol : (⟨S2000000, .f32⟩ : BufTy).Contents (Elt F) := broadcastInDim S2000000 ![] bcast_S_S2000000 (constant S_ .f32 0x00000000#32)

/-- A vector as an n×1 array. -/
def up (y : (⟨S2000000, .f32⟩ : BufTy).Contents (Elt F)) : (⟨S2000000x1, .f32⟩ : BufTy).Contents (Elt F) := broadcastInDim S2000000x1 ![0] bcast_S2000000_S2000000x1_0 y

/-- Three vectors side by side as the three columns of an n×3 array. -/
def row3 (p q r : (⟨S2000000, .f32⟩ : BufTy).Contents (Elt F)) : (⟨S2000000x3, .f32⟩ : BufTy).Contents (Elt F) :=
  concatenate S2000000x3 1 [⟨S2000000x1, up p⟩, ⟨S2000000x1, up q⟩, ⟨S2000000x1, up r⟩] concatenates_S2000000x1_S2000000x1_S2000000x1_S2000000x3_d1

/-- An n×3 array as an n×1×3 array. -/
def lift (x : (⟨S2000000x3, .f32⟩ : BufTy).Contents (Elt F)) : (⟨S2000000x1x3, .f32⟩ : BufTy).Contents (Elt F) := broadcastInDim S2000000x1x3 ![0, 2] bcast_S2000000x3_S2000000x1x3_0_2 x

/-- The skew matrices of the rows of x: rows (0, −x₂, x₁), (x₂, 0, −x₀), (−x₁, x₀, 0) stacked along axis 1. -/
def skewA (x : (⟨S2000000x3, .f32⟩ : BufTy).Contents (Elt F)) : (⟨S2000000x3x3, .f32⟩ : BufTy).Contents (Elt F) :=
  concatenate S2000000x3x3 1
    [⟨S2000000x1x3, lift (row3 zcol (Host.negf (col2 x)) (col1 x))⟩,
     ⟨S2000000x1x3, lift (row3 (col2 x) zcol (Host.negf (col0 x)))⟩,
     ⟨S2000000x1x3, lift (row3 (Host.negf (col1 x)) (col0 x) zcol)⟩]
    concatenates_S2000000x1x3_S2000000x1x3_S2000000x1x3_S2000000x3x3_d1

/-- The 3×3 identity: the bit "row index + 0 = column index" as a float. -/
def eyeA : (⟨S3x3, .f32⟩ : BufTy).Contents (Elt F) :=
  uitofp .f32 (cmpi .eq (addi (iotaInDim S3x3 32 0) (broadcastInDim S3x3 ![] bcast_S_S3x3 (constantI S_ 32 0#32))) (iotaInDim S3x3 32 1))

/-- A 3×3 matrix repeated for every pose. -/
def rep (e : (⟨S3x3, .f32⟩ : BufTy).Contents (Elt F)) : (⟨S2000000x3x3, .f32⟩ : BufTy).Contents (Elt F) :=
  broadcastInDim S2000000x3x3 ![0, 1, 2] bcast_S1x3x3_S2000000x3x3_0_1_2 (broadcastInDim S1x3x3 ![1, 2] bcast_S3x3_S1x3x3_1_2 e)

/-- A float per pose repeated over the 3×3 entries. -/
def bc3 (y : (⟨S2000000, .f32⟩ : BufTy).Contents (Elt F)) : (⟨S2000000x3x3, .f32⟩ : BufTy).Contents (Elt F) :=
  broadcastInDim S2000000x3x3 ![0, 1, 2] bcast_S2000000x1x1_S2000000x3x3_0_1_2 (broadcastInDim S2000000x1x1 ![0] bcast_S2000000_S2000000x1x1_0 y)

/-- A bit per pose repeated over the 3×3 entries. -/
def bc3b (y : (⟨S2000000, .i1⟩ : BufTy).Contents (Elt F)) : (⟨S2000000x3x3, .i1⟩ : BufTy).Contents (Elt F) :=
  broadcastInDim S2000000x3x3 ![0, 1, 2] bcast_S2000000x1x1_S2000000x3x3_0_1_2 (broadcastInDim S2000000x1x1 ![0] bcast_S2000000_S2000000x1x1_0 y)

/-- (I + sin θ · K) + (1 − cos θ) · (K·K), K·K the batched product over the middle index. -/
def rodA (e : (⟨S3x3, .f32⟩ : BufTy).Contents (Elt F)) (th : (⟨S2000000, .f32⟩ : BufTy).Contents (Elt F)) (K : (⟨S2000000x3x3, .f32⟩ : BufTy).Contents (Elt F)) : (⟨S2000000x3x3, .f32⟩ : BufTy).Contents (Elt F) :=
  addf (addf (rep e) (mulf (bc3 (Host.sin th)) K))
    (mulf (bc3 (subf (broadcastInDim S2000000 ![] bcast_S_S2000000 (constant S_ .f32 0x3F800000#32)) (Host.cos th)))
      (Host.dotGeneral dot_S2000000x3x3_S2000000x3x3_S2000000x3x3_2_1_1_2_0_0 none K K))

/-- The rotation: first-order I + W where the bit is set, the full formula elsewhere. -/
def rotA (e : (⟨S3x3, .f32⟩ : BufTy).Contents (Elt F)) (bit : (⟨S2000000, .i1⟩ : BufTy).Contents (Elt F)) (W Rod : (⟨S2000000x3x3, .f32⟩ : BufTy).Contents (Elt F)) : (⟨S2000000x3x3, .f32⟩ : BufTy).Contents (Elt F) :=
  select (bc3b bit) (addf (rep e) W) Rod

/-- [[R, t], [0 0 0 1]]: t as a fourth column beside R, the literal row below. -/
def homA (cst : (⟨S4, .f32⟩ : BufTy).Contents (Elt F)) (t : (⟨S2000000x3, .f32⟩ : BufTy).Contents (Elt F)) (R : (⟨S2000000x3x3, .f32⟩ : BufTy).Contents (Elt F)) : (⟨S2000000x4x4, .f32⟩ : BufTy).Contents (Elt F) :=
  concatenate S2000000x4x4 1
    [⟨S2000000x3x4, concatenate S2000000x3x4 2 [⟨S2000000x3x3, R⟩, ⟨S2000000x3x1, broadcastInDim S2000000x3x1 ![0, 1] bcast_S2000000x3_S2000000x3x1_0_1 t⟩]
        concatenates_S2000000x3x3_S2000000x3x1_S2000000x3x4_d2⟩,
     ⟨S2000000x1x4, broadcastInDim S2000000x1x4 ![2] bcast_S4_S2000000x1x4_2 cst⟩]
    concatenates_S2000000x3x4_S2000000x1x4_S2000000x4x4_d1

/-- The full formula's rotation array. -/
def s_v64 (a0 : (⟨S2000000x6, .f32⟩ : BufTy).Contents (Elt F)) : (⟨S2000000x3x3, .f32⟩ : BufTy).Contents (Elt F) := rodA eyeA (s_v2 a0) (skewA (s_v9 a0))

/-- The rotation array. -/
def s_v103 (a0 : (⟨S2000000x6, .f32⟩ : BufTy).Contents (Elt F)) : (⟨S2000000x3x3, .f32⟩ : BufTy).Contents (Elt F) := rotA eyeA (s_v4 a0) (skewA (s_v1 a0)) (s_v64 a0)

/-- The 4×4 transform array. -/
def s_v107 (a0 : (⟨S2000000x6, .f32⟩ : BufTy).Contents (Elt F)) : (⟨S2000000x4x4, .f32⟩ : BufTy).Contents (Elt F) := homA s_cst (s_v0 a0) (s_v103 a0)

/-- The result: the transform times the pose, batched, summed over the middle index. -/
def s_v108 (a0 : (⟨S2000000x6, .f32⟩ : BufTy).Contents (Elt F)) (a1 : (⟨S2000000x4x4, .f32⟩ : BufTy).Contents (Elt F)) : (⟨S2000000x4x4, .f32⟩ : BufTy).Contents (Elt F) :=
  Host.dotGeneral dot_S2000000x4x4_S2000000x4x4_S2000000x4x4_2_1_1_2_0_0 none (s_v107 a0) a1

end Cert.ReferenceIdeal.RefValue

end
-- ==== Proof.RefRun.lean ====
/-
  What each of the five pieces of the reference program leaves in the buffers later pieces read, from ANY contents W
  before it: the stage functions of RefStages applied to W at the buffers the piece reads; and the buffers a piece
  does not write, unchanged.
-/
import proofs.«156985_j58256936403585_2_alg».proof.Proof.RefWin
import proofs.«156985_j58256936403585_2_alg».proof.Proof.RefStages

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

set_option maxRecDepth 8192
set_option maxHeartbeats 2000000

theorem w1_main_cst (W : Valuation τ sig (Elt F)) : after w1 W (no_index (Proc.devRef .tc main_cst)) = s_cst := by
  simp only [w1]
  after_results_simp
  rfl

theorem w1_main_v0 (W : Valuation τ sig (Elt F)) : after w1 W (no_index (Proc.devRef .tc main_v0)) = s_v0 (W (Proc.devRef .tc main_arg0)) := by
  simp only [w1]
  after_results_simp
  rfl

theorem w1_main_v1 (W : Valuation τ sig (Elt F)) : after w1 W (no_index (Proc.devRef .tc main_v1)) = s_v1 (W (Proc.devRef .tc main_arg0)) := by
  simp only [w1]
  after_results_simp
  rfl

theorem w1_main_v2 (W : Valuation τ sig (Elt F)) : after w1 W (no_index (Proc.devRef .tc main_v2)) = s_v2 (W (Proc.devRef .tc main_arg0)) := by
  simp only [w1]
  after_results_simp
  rfl

theorem w1_main_v4 (W : Valuation τ sig (Elt F)) : after w1 W (no_index (Proc.devRef .tc main_v4)) = s_v4 (W (Proc.devRef .tc main_arg0)) := by
  simp only [w1]
  after_results_simp
  rfl

theorem w1_main_v9 (W : Valuation τ sig (Elt F)) : after w1 W (no_index (Proc.devRef .tc main_v9)) = s_v9 (W (Proc.devRef .tc main_arg0)) := by
  simp only [w1]
  after_results_simp
  rfl

theorem w1_k_main_arg0 (W : Valuation τ sig (Elt F)) : after w1 W (no_index (Proc.devRef .tc main_arg0)) = W (Proc.devRef .tc main_arg0) := by
  simp only [w1]
  after_results_simp

theorem w1_k_main_arg1 (W : Valuation τ sig (Elt F)) : after w1 W (no_index (Proc.devRef .tc main_arg1)) = W (Proc.devRef .tc main_arg1) := by
  simp only [w1]
  after_results_simp

theorem w2_main_v43 (W : Valuation τ sig (Elt F)) : after w2 W (no_index (Proc.devRef .tc main_v43)) = skewA (W (Proc.devRef .tc main_v9)) := by
  simp only [w2]
  after_results_simp
  try dsimp only [Matrix.cons_val]
  try after_results_simp
  try dsimp only [Matrix.cons_val]
  try after_results_simp
  try dsimp only [Matrix.cons_val]
  try after_results_simp
  rfl

theorem w2_k_main_cst (W : Valuation τ sig (Elt F)) : after w2 W (no_index (Proc.devRef .tc main_cst)) = W (Proc.devRef .tc main_cst) := by
  simp only [w2]
  after_results_simp

theorem w2_k_main_v0 (W : Valuation τ sig (Elt F)) : after w2 W (no_index (Proc.devRef .tc main_v0)) = W (Proc.devRef .tc main_v0) := by
  simp only [w2]
  after_results_simp

theorem w2_k_main_v1 (W : Valuation τ sig (Elt F)) : after w2 W (no_index (Proc.devRef .tc main_v1)) = W (Proc.devRef .tc main_v1) := by
  simp only [w2]
  after_results_simp

theorem w2_k_main_v2 (W : Valuation τ sig (Elt F)) : after w2 W (no_index (Proc.devRef .tc main_v2)) = W (Proc.devRef .tc main_v2) := by
  simp only [w2]
  after_results_simp

theorem w2_k_main_v4 (W : Valuation τ sig (Elt F)) : after w2 W (no_index (Proc.devRef .tc main_v4)) = W (Proc.devRef .tc main_v4) := by
  simp only [w2]
  after_results_simp

theorem w2_k_main_arg0 (W : Valuation τ sig (Elt F)) : after w2 W (no_index (Proc.devRef .tc main_arg0)) = W (Proc.devRef .tc main_arg0) := by
  simp only [w2]
  after_results_simp

theorem w2_k_main_arg1 (W : Valuation τ sig (Elt F)) : after w2 W (no_index (Proc.devRef .tc main_arg1)) = W (Proc.devRef .tc main_arg1) := by
  simp only [w2]
  after_results_simp

theorem w3_main_v49 (W : Valuation τ sig (Elt F)) : after w3 W (no_index (Proc.devRef .tc main_v49)) = eyeA := by
  simp only [w3]
  after_results_simp
  rfl

theorem w3_main_v64 (W : Valuation τ sig (Elt F)) : after w3 W (no_index (Proc.devRef .tc main_v64)) = rodA eyeA (W (Proc.devRef .tc main_v2)) (W (Proc.devRef .tc main_v43)) := by
  simp only [w3]
  after_results_simp
  rfl

theorem w3_k_main_cst (W : Valuation τ sig (Elt F)) : after w3 W (no_index (Proc.devRef .tc main_cst)) = W (Proc.devRef .tc main_cst) := by
  simp only [w3]
  after_results_simp

theorem w3_k_main_v0 (W : Valuation τ sig (Elt F)) : after w3 W (no_index (Proc.devRef .tc main_v0)) = W (Proc.devRef .tc main_v0) := by
  simp only [w3]
  after_results_simp

theorem w3_k_main_v1 (W : Valuation τ sig (Elt F)) : after w3 W (no_index (Proc.devRef .tc main_v1)) = W (Proc.devRef .tc main_v1) := by
  simp only [w3]
  after_results_simp

theorem w3_k_main_v4 (W : Valuation τ sig (Elt F)) : after w3 W (no_index (Proc.devRef .tc main_v4)) = W (Proc.devRef .tc main_v4) := by
  simp only [w3]
  after_results_simp

theorem w3_k_main_arg0 (W : Valuation τ sig (Elt F)) : after w3 W (no_index (Proc.devRef .tc main_arg0)) = W (Proc.devRef .tc main_arg0) := by
  simp only [w3]
  after_results_simp

theorem w3_k_main_arg1 (W : Valuation τ sig (Elt F)) : after w3 W (no_index (Proc.devRef .tc main_arg1)) = W (Proc.devRef .tc main_arg1) := by
  simp only [w3]
  after_results_simp

theorem w4_main_v98 (W : Valuation τ sig (Elt F)) : after w4 W (no_index (Proc.devRef .tc main_v98)) = skewA (W (Proc.devRef .tc main_v1)) := by
  simp only [w4]
  after_results_simp
  try dsimp only [Matrix.cons_val]
  try after_results_simp
  try dsimp only [Matrix.cons_val]
  try after_results_simp
  try dsimp only [Matrix.cons_val]
  try after_results_simp
  rfl

theorem w4_k_main_cst (W : Valuation τ sig (Elt F)) : after w4 W (no_index (Proc.devRef .tc main_cst)) = W (Proc.devRef .tc main_cst) := by
  simp only [w4]
  after_results_simp

theorem w4_k_main_v0 (W : Valuation τ sig (Elt F)) : after w4 W (no_index (Proc.devRef .tc main_v0)) = W (Proc.devRef .tc main_v0) := by
  simp only [w4]
  after_results_simp

theorem w4_k_main_v4 (W : Valuation τ sig (Elt F)) : after w4 W (no_index (Proc.devRef .tc main_v4)) = W (Proc.devRef .tc main_v4) := by
  simp only [w4]
  after_results_simp

theorem w4_k_main_v49 (W : Valuation τ sig (Elt F)) : after w4 W (no_index (Proc.devRef .tc main_v49)) = W (Proc.devRef .tc main_v49) := by
  simp only [w4]
  after_results_simp

theorem w4_k_main_v64 (W : Valuation τ sig (Elt F)) : after w4 W (no_index (Proc.devRef .tc main_v64)) = W (Proc.devRef .tc main_v64) := by
  simp only [w4]
  after_results_simp

theorem w4_k_main_arg0 (W : Valuation τ sig (Elt F)) : after w4 W (no_index (Proc.devRef .tc main_arg0)) = W (Proc.devRef .tc main_arg0) := by
  simp only [w4]
  after_results_simp

theorem w4_k_main_arg1 (W : Valuation τ sig (Elt F)) : after w4 W (no_index (Proc.devRef .tc main_arg1)) = W (Proc.devRef .tc main_arg1) := by
  simp only [w4]
  after_results_simp

theorem w5_main_v108 (W : Valuation τ sig (Elt F)) : after w5 W (no_index (Proc.devRef .tc main_v108)) = Host.dotGeneral dot_S2000000x4x4_S2000000x4x4_S2000000x4x4_2_1_1_2_0_0 none (homA (W (Proc.devRef .tc main_cst)) (W (Proc.devRef .tc main_v0)) (rotA (W (Proc.devRef .tc main_v49)) (W (Proc.devRef .tc main_v4)) (W (Proc.devRef .tc main_v98)) (W (Proc.devRef .tc main_v64)))) (W (Proc.devRef .tc main_arg1)) := by
  simp only [w5]
  after_results_simp
  rfl

theorem w5_k_main_arg0 (W : Valuation τ sig (Elt F)) : after w5 W (no_index (Proc.devRef .tc main_arg0)) = W (Proc.devRef .tc main_arg0) := by
  simp only [w5]
  after_results_simp

theorem w5_k_main_arg1 (W : Valuation τ sig (Elt F)) : after w5 W (no_index (Proc.devRef .tc main_arg1)) = W (Proc.devRef .tc main_arg1) := by
  simp only [w5]
  after_results_simp

end Cert.ReferenceIdeal.RefValue

end
-- ==== Proof.RefFinal.lean ====
/-
  The reference program's run read back through the stages: every weakly fair execution of @main terminates with the
  result buffer at `s_v108` of the two argument arrays' launch contents, and the arguments unchanged.
-/
import proofs.«156985_j58256936403585_2_alg».proof.Proof.RefOps
import proofs.«156985_j58256936403585_2_alg».proof.Proof.RefRun

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

set_option maxRecDepth 8192

/-- The fold over the whole list at the result buffer: piece by piece, each piece's contents read off the one before. -/
theorem out_eq (V : Valuation τ sig (Elt F)) :
    after ops V (Proc.devRef .tc main_v108)
      = s_v108 (V (Proc.devRef .tc main_arg0)) (V (Proc.devRef .tc main_arg1)) := by
  rw [ops_eq]
  simp only [after_append, w1_main_cst, w1_main_v0, w1_main_v1, w1_main_v2, w1_main_v4, w1_main_v9, w1_k_main_arg0, w1_k_main_arg1, w2_main_v43, w2_k_main_cst, w2_k_main_v0, w2_k_main_v1, w2_k_main_v2, w2_k_main_v4, w2_k_main_arg0, w2_k_main_arg1, w3_main_v49, w3_main_v64, w3_k_main_cst, w3_k_main_v0, w3_k_main_v1, w3_k_main_v4, w3_k_main_arg0, w3_k_main_arg1, w4_main_v98, w4_k_main_cst, w4_k_main_v0, w4_k_main_v4, w4_k_main_v49, w4_k_main_v64, w4_k_main_arg0, w4_k_main_arg1, w5_main_v108, w5_k_main_arg0, w5_k_main_arg1]
  rfl

/-- No piece writes the first argument. -/
theorem arg0_eq (V : Valuation τ sig (Elt F)) :
    after ops V (Proc.devRef .tc main_arg0) = V (Proc.devRef .tc main_arg0) := by
  rw [ops_eq]
  simp only [after_append, w1_k_main_arg0, w2_k_main_arg0, w3_k_main_arg0, w4_k_main_arg0, w5_k_main_arg0]

/-- No piece writes the second argument. -/
theorem arg1_eq (V : Valuation τ sig (Elt F)) :
    after ops V (Proc.devRef .tc main_arg1) = V (Proc.devRef .tc main_arg1) := by
  rw [ops_eq]
  simp only [after_append, w1_k_main_arg1, w2_k_main_arg1, w3_k_main_arg1, w4_k_main_arg1, w5_k_main_arg1]

/-- On every device, from any memory with zero counters: every weakly fair execution of @main terminates with the result
    at `s_v108` of the arguments' launch contents and the arguments unchanged. -/
theorem run_stage (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v108)
        = s_v108 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v108).trans (out_eq (launchContents m c)),
      (h c main_arg0).trans (arg0_eq (launchContents m c)),
      (h c main_arg1).trans (arg1_eq (launchContents m c))⟩)
    (run_main m ρ)

end Cert.ReferenceIdeal.RefValue

end
-- ==== Proof.RefRead1.lean ====
/-
  The reference's first stages read at one pose: the translation and the rotation vector are columns of the parameter
  array, the angle is the root of the zero-started sum of the rotation vector's squares, the small-angle bit compares it
  with the threshold, the divisor is one under the bit and the angle otherwise, and the axis is the rotation vector over
  the divisor.
-/
import proofs.«156985_j58256936403585_2_alg».proof.Proof.Spec
import proofs.«156985_j58256936403585_2_alg».proof.Proof.RefStages
import Idealize.ShloMosaic.Lib.ValueLayout
import Idealize.ShloMosaic.Lib.IdealHost

noncomputable section

namespace Cert.ReferenceIdeal.RefValue

open Cert.ReferenceIdeal Idealize.ShloMosaic Cert.ReferenceIdeal.Facts₀
open Idealize.ShloMosaic.ValueIdx

variable [Cert.ReferenceIdeal.Facts]

/-- The host's root, sine and cosine at an index are the extended reals' of the element. -/
theorem hostSqrt_apply {s : Shape} {φ : FTy} (x : FVec Ideal s φ) (i : s.Idx) : Host.sqrt x i = Ideal.sqrt (x i) := rfl
theorem hostSin_apply {s : Shape} {φ : FTy} (x : FVec Ideal s φ) (i : s.Idx) : Host.sin x i = Ideal.sin (x i) := rfl
theorem hostCos_apply {s : Shape} {φ : FTy} (x : FVec Ideal s φ) (i : s.Idx) : Host.cos x i = Ideal.cos (x i) := rfl
/-- The host's negation at an index is the negation of the element. -/
theorem hostNegf_apply {s : Shape} {φ : FTy} (x : FVec Ideal s φ) (i : s.Idx) : Host.negf x i = -(x i) := rfl

/-- Pose n's rotation vector: the last three of its six parameters. -/
def omOf (a0 : (⟨S2000000x6, .f32⟩ : BufTy).Contents (Elt Ideal)) (n : Fin 2000000) : Fin 3 → EReal :=
  fun a => a0 (ix2 n ⟨3 + a.val, by omega⟩)

/-- The translation array at (n, a) is parameter a of pose n. -/
theorem s_v0_apply (a0 : (⟨S2000000x6, .f32⟩ : BufTy).Contents (Elt Ideal)) (n : Fin 2000000) (a : Fin 3) :
    s_v0 (F := Ideal) a0 (ix2 n a) = a0 (ix2 n ⟨a.val, by omega⟩) := by
  unfold s_v0
  exact slice2_axis1_apply 0 a0 _ n a _ (Nat.zero_add _).symm

/-- The rotation-vector array at (n, a) is parameter 3 + a of pose n. -/
theorem s_v1_apply (a0 : (⟨S2000000x6, .f32⟩ : BufTy).Contents (Elt Ideal)) (n : Fin 2000000) (a : Fin 3) :
    s_v1 (F := Ideal) a0 (ix2 n a) = omOf a0 n a := by
  unfold s_v1 omOf
  exact slice2_axis1_apply 3 a0 _ n a _ rfl

/-- The axis to sum over, named for the sum's inserted index. -/
theorem reduces_d1 : S2000000x3.Reduces [1] S2000000 := by decide

/-- The angle array at n is the root of the float zero plus the sum of the squares of pose n's rotation vector. -/
theorem s_v2_apply (a0 : (⟨S2000000x6, .f32⟩ : BufTy).Contents (Elt Ideal)) (n : Fin 2000000) :
    s_v2 (F := Ideal) a0 (ix1 n) = Cert.SE3.thetaR (omOf a0 n) := by
  unfold s_v2 Cert.SE3.thetaR
  rw [hostSqrt_apply, hostReduceAdd_apply, Ideal.hostReduceAdd_single _ reduces_d1]
  refine congrArg Ideal.sqrt (congrArg₂ (· + ·) rfl (Finset.sum_congr rfl fun (a : Fin 3) _ => ?_))
  have e : reduces_d1.lift (ix1 n) a = ix2 n a := by
    funext d; apply Fin.ext
    match d with
    | ⟨0, _⟩ => rfl
    | ⟨1, _⟩ => rfl
  rw [e, mulf_apply, s_v1_apply]

/-- The small-angle bit at n. -/
theorem s_v4_apply (a0 : (⟨S2000000x6, .f32⟩ : BufTy).Contents (Elt Ideal)) (n : Fin 2000000) :
    s_v4 (F := Ideal) a0 (ix1 n) = Cert.SE3.smallR (omOf a0 n) := by
  unfold s_v4 Cert.SE3.smallR
  rw [cmpf_apply, s_v2_apply, broadcastInDim_scalar_apply]
  rfl

/-- The divisor at n. -/
theorem s_v6_apply (a0 : (⟨S2000000x6, .f32⟩ : BufTy).Contents (Elt Ideal)) (n : Fin 2000000) :
    s_v6 (F := Ideal) a0 (ix1 n) = Cert.SE3.safeR (omOf a0 n) := by
  unfold s_v6 Cert.SE3.safeR
  rw [select_apply, s_v4_apply, s_v2_apply, broadcastInDim_scalar_apply]
  rfl

/-- The axis array at (n, a): the rotation vector's coordinate over the divisor. -/
theorem s_v9_apply (a0 : (⟨S2000000x6, .f32⟩ : BufTy).Contents (Elt Ideal)) (n : Fin 2000000) (a : Fin 3) :
    s_v9 (F := Ideal) a0 (ix2 n a) = Ideal.div (omOf a0 n a) (Cert.SE3.safeR (omOf a0 n)) := by
  unfold s_v9
  rw [hostDivf_apply, s_v1_apply]
  refine congrArg (Ideal.div (omOf a0 n a)) ?_
  rw [broadcastInDim_apply _ _ _ (ix2 n a) (ix2 n (0 : Fin 1)) (fun d => by
        match d with
        | ⟨0, _⟩ => rfl
        | ⟨1, _⟩ => rfl),
    broadcastInDim_apply _ _ _ (ix2 n (0 : Fin 1)) (ix1 n) (fun d => by
        match d with
        | ⟨0, _⟩ => rfl),
    s_v6_apply]

end Cert.ReferenceIdeal.RefValue

end
-- ==== Proof.RefRead2.lean ====
/-
  The transform array read at an index: it is the rotation array with the translation as a fourth column, over the
  literal row (0, 0, 0, 1).  So at (n, i, j) it is the rotation at (n, i, j) for i, j below 3, the translation at (n, i)
  for i below 3 and j = 3, and the literal row's entry j for i = 3.
-/
import proofs.«156985_j58256936403585_2_alg».proof.Proof.Spec
import proofs.«156985_j58256936403585_2_alg».proof.Proof.RefStages
import Idealize.ShloMosaic.Lib.ValueLayout
import Idealize.ShloMosaic.Lib.IdealHost

noncomputable section

namespace Cert.ReferenceIdeal.RefValue

open Cert.ReferenceIdeal Idealize.ShloMosaic Cert.ReferenceIdeal.Facts₀
open Idealize.ShloMosaic.ValueIdx

variable [Cert.ReferenceIdeal.Facts]

/-- Rows and columns below 3: the rotation array's entry. -/
theorem homA_apply_rot (cst : (⟨S4, .f32⟩ : BufTy).Contents (Elt Ideal)) (t : (⟨S2000000x3, .f32⟩ : BufTy).Contents (Elt Ideal))
    (R : (⟨S2000000x3x3, .f32⟩ : BufTy).Contents (Elt Ideal)) (n : Fin 2000000) (i j : Fin 4) (hi : i.val < 3) (hj : j.val < 3) :
    homA (F := Ideal) cst t R (ix3 n i j) = R (ix3 n ⟨i.val, hi⟩ ⟨j.val, hj⟩) := by
  unfold homA
  refine (concatenate_pair_apply_left (t := S2000000x4x4) (s₁ := S2000000x3x4) (s₂ := S2000000x1x4) _ _ _ _ (ix3 n i j) rfl (ix3 n (⟨i.val, hi⟩ : Fin 3) j) (fun b => by
    match b with
    | ⟨0, _⟩ => rfl
    | ⟨1, _⟩ => rfl
    | ⟨2, _⟩ => rfl)).trans ?_
  exact concatenate_pair_apply_left (t := S2000000x3x4) (s₁ := S2000000x3x3) (s₂ := S2000000x3x1) _ _ _ _ (ix3 n (⟨i.val, hi⟩ : Fin 3) j) rfl (ix3 n (⟨i.val, hi⟩ : Fin 3) (⟨j.val, hj⟩ : Fin 3)) (fun b => by
    match b with
    | ⟨0, _⟩ => rfl
    | ⟨1, _⟩ => rfl
    | ⟨2, _⟩ => rfl)

/-- Rows below 3, column 3: the translation's entry. -/
theorem homA_apply_tr (cst : (⟨S4, .f32⟩ : BufTy).Contents (Elt Ideal)) (t : (⟨S2000000x3, .f32⟩ : BufTy).Contents (Elt Ideal))
    (R : (⟨S2000000x3x3, .f32⟩ : BufTy).Contents (Elt Ideal)) (n : Fin 2000000) (i : Fin 4) (hi : i.val < 3) :
    homA (F := Ideal) cst t R (ix3 n i (3 : Fin 4)) = t (ix2 n ⟨i.val, hi⟩) := by
  unfold homA
  refine (concatenate_pair_apply_left (t := S2000000x4x4) (s₁ := S2000000x3x4) (s₂ := S2000000x1x4) _ _ _ _ (ix3 n i (3 : Fin 4)) rfl (ix3 n (⟨i.val, hi⟩ : Fin 3) (3 : Fin 4)) (fun b => by
    match b with
    | ⟨0, _⟩ => rfl
    | ⟨1, _⟩ => rfl
    | ⟨2, _⟩ => rfl)).trans ?_
  refine (concatenate_pair_apply_right (t := S2000000x3x4) (s₁ := S2000000x3x3) (s₂ := S2000000x3x1) _ _ _ _ (ix3 n (⟨i.val, hi⟩ : Fin 3) (3 : Fin 4)) rfl rfl (ix3 n (⟨i.val, hi⟩ : Fin 3) (0 : Fin 1))
    (fun b hb => by
      match b, hb with
      | ⟨0, _⟩, _ => rfl
      | ⟨1, _⟩, _ => rfl
      | ⟨2, _⟩, hb => exact absurd rfl hb) rfl).trans ?_
  exact broadcastInDim_apply _ _ _ _ (ix2 n (⟨i.val, hi⟩ : Fin 3)) (fun d => by
    match d with
    | ⟨0, _⟩ => rfl
    | ⟨1, _⟩ => rfl)

/-- Row 3: the literal row's entry. -/
theorem homA_apply_bot (cst : (⟨S4, .f32⟩ : BufTy).Contents (Elt Ideal)) (t : (⟨S2000000x3, .f32⟩ : BufTy).Contents (Elt Ideal))
    (R : (⟨S2000000x3x3, .f32⟩ : BufTy).Contents (Elt Ideal)) (n : Fin 2000000) (j : Fin 4) :
    homA (F := Ideal) cst t R (ix3 n (3 : Fin 4) j) = cst (ix1 j) := by
  unfold homA
  refine (concatenate_pair_apply_right (t := S2000000x4x4) (s₁ := S2000000x3x4) (s₂ := S2000000x1x4) _ _ _ _ (ix3 n (3 : Fin 4) j) rfl rfl (ix3 n (0 : Fin 1) j)
    (fun b hb => by
      match b, hb with
      | ⟨0, _⟩, _ => rfl
      | ⟨1, _⟩, hb => exact absurd rfl hb
      | ⟨2, _⟩, _ => rfl) rfl).trans ?_
  exact broadcastInDim_apply _ _ _ _ (ix1 j) (fun d => by
    match d with
    | ⟨0, _⟩ => rfl)

/-- The literal row's entries: three float zeros and the float one. -/
theorem s_cst_apply (j : Fin 4) : s_cst (F := Ideal) (ix1 j) = Ideal.ofBits .f32 (lit0 j) := by
  unfold s_cst
  fin_cases j <;> rfl

end Cert.ReferenceIdeal.RefValue

end
-- ==== Proof.RefRead3.lean ====
/-
  The reference's last stage read at an index: the batched product of the transform array with the pose array is, at
  (n, i, j), the sum over the middle index of pose n's transform row i against its pose column j.
-/
import proofs.«156985_j58256936403585_2_alg».proof.Proof.Spec
import proofs.«156985_j58256936403585_2_alg».proof.Proof.RefStages
import Idealize.ShloMosaic.Lib.StackMember

noncomputable section

namespace Cert.ReferenceIdeal.RefValue

open Cert.ReferenceIdeal Idealize.ShloMosaic Cert.ReferenceIdeal.Facts₀
open Idealize.ShloMosaic.ValueIdx

variable [Cert.ReferenceIdeal.Facts]

/-- The batched 4×4 product at (n, i, j): the sum over l of the left array at (n, i, l) times the right at (n, l, j). -/
theorem dot4_apply (A B : (⟨S2000000x4x4, .f32⟩ : BufTy).Contents (Elt Ideal)) (n : Fin 2000000) (i j : Fin 4) :
    Host.dotGeneral (F := Ideal) (φ₁ := .f32) (φ₂ := .f32) dot_S2000000x4x4_S2000000x4x4_S2000000x4x4_2_1_1_2_0_0 none A B (ix3 n i j)
      = ∑ l : Fin 4, A (ix3 n i l) * B (ix3 n l j) :=
  StackMember.dotGeneral_stack_apply dot_S2000000x4x4_S2000000x4x4_S2000000x4x4_2_1_1_2_0_0_wf none A B n i j

/-- The batched 3×3 product at (n, i, j): the sum over l of the left array at (n, i, l) times the right at (n, l, j). -/
theorem dot3_apply (A B : (⟨S2000000x3x3, .f32⟩ : BufTy).Contents (Elt Ideal)) (n : Fin 2000000) (i j : Fin 3) :
    Host.dotGeneral (F := Ideal) (φ₁ := .f32) (φ₂ := .f32) dot_S2000000x3x3_S2000000x3x3_S2000000x3x3_2_1_1_2_0_0 none A B (ix3 n i j)
      = ∑ l : Fin 3, A (ix3 n i l) * B (ix3 n l j) :=
  StackMember.dotGeneral_stack_apply dot_S2000000x3x3_S2000000x3x3_S2000000x3x3_2_1_1_2_0_0_wf none A B n i j

end Cert.ReferenceIdeal.RefValue

end
-- ==== Proof.RefReadZ.lean ====
/-
  The reference's result array is the matrix spelling of the specification: read at (n, i, j), the batched product is the
  sum over the middle index of pose n's transform against its pose matrix, the transform's rows read the rotation, the
  translation and the literal row, and the rotation read at an entry is the specification's.  The rotation array's reading
  at an entry is taken here as the hypothesis `RotRead`, stated for any angle, bit, vector and axis arrays.
-/
import proofs.«156985_j58256936403585_2_alg».proof.Proof.Spec
import proofs.«156985_j58256936403585_2_alg».proof.Proof.RefStages
import proofs.«156985_j58256936403585_2_alg».proof.Proof.RefRead1
import proofs.«156985_j58256936403585_2_alg».proof.Proof.RefRead2
import proofs.«156985_j58256936403585_2_alg».proof.Proof.RefRead3

noncomputable section

namespace Cert.ReferenceIdeal.RefValue

open Cert.ReferenceIdeal Idealize.ShloMosaic Cert.ReferenceIdeal.Facts₀
open Idealize.ShloMosaic.ValueIdx

variable [Cert.ReferenceIdeal.Facts]

/-- The rotation array read at an entry: the select, on the pose's bit, between the first-order rotation of the vector
    array's row and the full formula over the axis array's row. -/
def RotRead : Prop :=
  ∀ (th : (⟨S2000000, .f32⟩ : BufTy).Contents (Elt Ideal)) (bit : (⟨S2000000, .i1⟩ : BufTy).Contents (Elt Ideal))
    (x k : (⟨S2000000x3, .f32⟩ : BufTy).Contents (Elt Ideal)) (n : Fin 2000000) (i j : Fin 3),
    rotA (F := Ideal) eyeA bit (skewA x) (rodA eyeA th (skewA k)) (ix3 n i j)
      = Scalar.select (bit (ix1 n))
          (Cert.SE3.eyeR i j + Cert.SE3.skewR (fun a => x (ix2 n a)) i j)
          ((Cert.SE3.eyeR i j + Ideal.sin (th (ix1 n)) * Cert.SE3.skewR (fun a => k (ix2 n a)) i j)
            + (Cert.SE3.oneW - Ideal.cos (th (ix1 n)))
              * (0 + ∑ l : Fin 3, Cert.SE3.skewR (fun a => k (ix2 n a)) i l * Cert.SE3.skewR (fun a => k (ix2 n a)) l j))

/-- The rotation array at (n, i, j) is the specification's rotation of pose n's rotation vector at (i, j). -/
theorem s_v103_apply_of (hrot : RotRead) (a0 : (⟨S2000000x6, .f32⟩ : BufTy).Contents (Elt Ideal)) (n : Fin 2000000) (i j : Fin 3) :
    s_v103 (F := Ideal) a0 (ix3 n i j) = Cert.SE3.rotR (omOf a0 n) i j := by
  unfold s_v103 s_v64
  rw [hrot]
  simp only [s_v1_apply, s_v2_apply, s_v4_apply, s_v9_apply]
  rfl

/-- The transform array at (n, i, l) is the specification's transform of pose n's parameters at (i, l). -/
theorem s_v107_apply_of (hrot : RotRead) (a0 : (⟨S2000000x6, .f32⟩ : BufTy).Contents (Elt Ideal)) (n : Fin 2000000) (i l : Fin 4) :
    s_v107 (F := Ideal) a0 (ix3 n i l) = Cert.SE3.homR (Cert.SE3.xrow a0 n) i l := by
  unfold s_v107
  fin_cases i <;> fin_cases l <;>
  first
  | exact (homA_apply_rot _ _ _ n _ _ (by decide) (by decide)).trans (s_v103_apply_of hrot a0 n _ _)
  | exact (homA_apply_tr _ _ _ n _ (by decide)).trans (s_v0_apply a0 n _)
  | exact (homA_apply_bot _ _ _ n _).trans (s_cst_apply _)

/-- The specification's result array at (n, i, j). -/
theorem G_apply (a0 : Cert.SE3.SX.Idx → EReal) (a1 : Cert.SE3.SP.Idx → EReal) (n : Fin 2000000) (i j : Fin 4) :
    Cert.SE3.G a0 a1 (ix3 n i j) = Cert.SE3.Rf (Cert.SE3.xrow a0 n) (Cert.SE3.pmat a1 n) i j := rfl

/-- The reference's result array is the specification's, given the rotation array's reading. -/
theorem s_v108_eq_of (hrot : RotRead) (a0 : Cert.SE3.SX.Idx → EReal) (a1 : Cert.SE3.SP.Idx → EReal) :
    s_v108 (F := Ideal) a0 a1 = Cert.SE3.G a0 a1 := by
  funext idx
  obtain ⟨n, i, j, rfl⟩ : ∃ (n : Fin 2000000) (i j : Fin 4), idx = ix3 n i j := ⟨idx 0, idx 1, idx 2, eq_ix3 idx⟩
  rw [G_apply]
  unfold s_v108 Cert.SE3.Rf
  rw [dot4_apply, zero_add]
  refine Finset.sum_congr rfl fun l _ => ?_
  rw [s_v107_apply_of hrot]
  rfl

end Cert.ReferenceIdeal.RefValue

end
-- ==== Proof.RefReadA1.lean ====
/-
  The array of skew matrices read at an index: entry (n, i, j) of skewA x is entry (i, j) of the skew matrix of row n of x.
-/
import proofs.«156985_j58256936403585_2_alg».proof.Proof.RefStages
import proofs.«156985_j58256936403585_2_alg».proof.Proof.Spec
import Idealize.ShloMosaic.Lib.Pipeline.Value
import Idealize.ShloMosaic.Lib.ValueIdx

noncomputable section

namespace Cert.ReferenceIdeal.RefValue

open Cert.ReferenceIdeal Idealize.ShloMosaic Idealize.ShloMosaic.ValueIdx
open Cert.ReferenceIdeal.Facts₀ Cert.ReferenceIdeal.Facts

variable [Cert.ReferenceIdeal.Facts]

namespace RotA

/-- The zero vector reads the float zero everywhere. -/
theorem zcol_apply (n : Fin 2000000) : zcol (F := Ideal) (ix1 n) = Cert.SE3.zeroW := rfl

/-- Column 0 of x at n is x at (n, 0). -/
theorem col0_apply (x : (⟨S2000000x3, .f32⟩ : BufTy).Contents (Elt Ideal)) (n : Fin 2000000) :
    col0 (F := Ideal) x (ix1 n) = x (ix2 n 0) := by
  unfold col0
  refine (shapeCast_apply _ _ (ix1 n) (ix2 n 0) ?_).trans ?_
  · rw [Shape.rowMajor_val_two, Shape.rowMajor_val_one]
    show n.val * 1 + 0 = n.val
    omega
  · exact extractStridedSlice_apply _ _ _ (ix2 n 0) (ix2 n 0) fun a =>
      match a with
      | ⟨0, _⟩ => by show n.val = 0 + n.val; omega
      | ⟨1, _⟩ => rfl

/-- Column 1 of x at n is x at (n, 1). -/
theorem col1_apply (x : (⟨S2000000x3, .f32⟩ : BufTy).Contents (Elt Ideal)) (n : Fin 2000000) :
    col1 (F := Ideal) x (ix1 n) = x (ix2 n 1) := by
  unfold col1
  refine (shapeCast_apply _ _ (ix1 n) (ix2 n 0) ?_).trans ?_
  · rw [Shape.rowMajor_val_two, Shape.rowMajor_val_one]
    show n.val * 1 + 0 = n.val
    omega
  · exact extractStridedSlice_apply _ _ _ (ix2 n 0) (ix2 n 1) fun a =>
      match a with
      | ⟨0, _⟩ => by show n.val = 0 + n.val; omega
      | ⟨1, _⟩ => rfl

/-- Column 2 of x at n is x at (n, 2). -/
theorem col2_apply (x : (⟨S2000000x3, .f32⟩ : BufTy).Contents (Elt Ideal)) (n : Fin 2000000) :
    col2 (F := Ideal) x (ix1 n) = x (ix2 n 2) := by
  unfold col2
  refine (shapeCast_apply _ _ (ix1 n) (ix2 n 0) ?_).trans ?_
  · rw [Shape.rowMajor_val_two, Shape.rowMajor_val_one]
    show n.val * 1 + 0 = n.val
    omega
  · exact extractStridedSlice_apply _ _ _ (ix2 n 0) (ix2 n 2) fun a =>
      match a with
      | ⟨0, _⟩ => by show n.val = 0 + n.val; omega
      | ⟨1, _⟩ => rfl

/-- A vector as a column reads the vector. -/
theorem up_apply (y : (⟨S2000000, .f32⟩ : BufTy).Contents (Elt Ideal)) (n : Fin 2000000) :
    up (F := Ideal) y (ix2 n 0) = y (ix1 n) := by
  unfold up
  exact broadcastInDim_apply _ _ _ (ix2 n 0) (ix1 n) fun a =>
    match a with
    | ⟨0, _⟩ => rfl

/-- An n×3 array as an n×1×3 array reads the array. -/
theorem lift_apply (x : (⟨S2000000x3, .f32⟩ : BufTy).Contents (Elt Ideal)) (n : Fin 2000000) (j : Fin 3) :
    lift (F := Ideal) x (ix3 n 0 j) = x (ix2 n j) := by
  unfold lift
  exact broadcastInDim_apply _ _ _ (ix3 n 0 j) (ix2 n j) fun a =>
    match a with
    | ⟨0, _⟩ => rfl
    | ⟨1, _⟩ => rfl

/-- Three vectors side by side: column 0 reads the first. -/
theorem row3_apply0 (p q r : (⟨S2000000, .f32⟩ : BufTy).Contents (Elt Ideal)) (n : Fin 2000000) :
    row3 (F := Ideal) p q r (ix2 n 0) = p (ix1 n) := by
  unfold row3
  refine Eq.trans (concatenate_apply_piece (t := S2000000x3) 1 _ _ (ix2 n (0 : Fin 3)) 0 (by simp) S2000000x1 (up p) rfl rfl 0 rfl
    (ix2 n (0 : Fin 1))
    (fun b => match b with
      | ⟨0, _⟩ => fun _ => rfl
      | ⟨1, _⟩ => fun h => absurd rfl h) rfl) (up_apply p n)

/-- Three vectors side by side: column 1 reads the second. -/
theorem row3_apply1 (p q r : (⟨S2000000, .f32⟩ : BufTy).Contents (Elt Ideal)) (n : Fin 2000000) :
    row3 (F := Ideal) p q r (ix2 n 1) = q (ix1 n) := by
  unfold row3
  refine Eq.trans (concatenate_apply_piece (t := S2000000x3) 1 _ _ (ix2 n (1 : Fin 3)) 1 (by simp) S2000000x1 (up q) rfl rfl 1 rfl
    (ix2 n (0 : Fin 1))
    (fun b => match b with
      | ⟨0, _⟩ => fun _ => rfl
      | ⟨1, _⟩ => fun h => absurd rfl h) rfl) (up_apply q n)

/-- Three vectors side by side: column 2 reads the third. -/
theorem row3_apply2 (p q r : (⟨S2000000, .f32⟩ : BufTy).Contents (Elt Ideal)) (n : Fin 2000000) :
    row3 (F := Ideal) p q r (ix2 n 2) = r (ix1 n) := by
  unfold row3
  refine Eq.trans (concatenate_apply_piece (t := S2000000x3) 1 _ _ (ix2 n (2 : Fin 3)) 2 (by simp) S2000000x1 (up r) rfl rfl 2 rfl
    (ix2 n (0 : Fin 1))
    (fun b => match b with
      | ⟨0, _⟩ => fun _ => rfl
      | ⟨1, _⟩ => fun h => absurd rfl h) rfl) (up_apply r n)

/-- The host's negation of a vector reads the negation. -/
theorem negf_apply1 (y : FVec Ideal S2000000 .f32) (n : Fin 2000000) :
    Host.negf y (ix1 n) = -(y (ix1 n)) := rfl

/-- Row 0 of the stack of skew matrices is its first piece. -/
theorem skewA_row0 (x : (⟨S2000000x3, .f32⟩ : BufTy).Contents (Elt Ideal)) (n : Fin 2000000) (j : Fin 3) :
    skewA (F := Ideal) x (ix3 n 0 j) = (row3 zcol (Host.negf (col2 x)) (col1 x)) (ix2 n j) := by
  unfold skewA
  refine Eq.trans (concatenate_apply_piece (t := S2000000x3x3) 1 _ _ (ix3 n (0 : Fin 3) j) 0 (by simp) S2000000x1x3 (lift (row3 zcol (Host.negf (col2 x)) (col1 x))) rfl rfl 0 rfl
    (ix3 n (0 : Fin 1) j)
    (fun b => match b with
      | ⟨0, _⟩ => fun _ => rfl
      | ⟨1, _⟩ => fun h => absurd rfl h
      | ⟨2, _⟩ => fun _ => rfl) rfl) (lift_apply _ n j)

/-- Row 1 of the stack of skew matrices is its second piece. -/
theorem skewA_row1 (x : (⟨S2000000x3, .f32⟩ : BufTy).Contents (Elt Ideal)) (n : Fin 2000000) (j : Fin 3) :
    skewA (F := Ideal) x (ix3 n 1 j) = (row3 (col2 x) zcol (Host.negf (col0 x))) (ix2 n j) := by
  unfold skewA
  refine Eq.trans (concatenate_apply_piece (t := S2000000x3x3) 1 _ _ (ix3 n (1 : Fin 3) j) 1 (by simp) S2000000x1x3 (lift (row3 (col2 x) zcol (Host.negf (col0 x)))) rfl rfl 1 rfl
    (ix3 n (0 : Fin 1) j)
    (fun b => match b with
      | ⟨0, _⟩ => fun _ => rfl
      | ⟨1, _⟩ => fun h => absurd rfl h
      | ⟨2, _⟩ => fun _ => rfl) rfl) (lift_apply _ n j)

/-- Row 2 of the stack of skew matrices is its third piece. -/
theorem skewA_row2 (x : (⟨S2000000x3, .f32⟩ : BufTy).Contents (Elt Ideal)) (n : Fin 2000000) (j : Fin 3) :
    skewA (F := Ideal) x (ix3 n 2 j) = (row3 (Host.negf (col1 x)) (col0 x) zcol) (ix2 n j) := by
  unfold skewA
  refine Eq.trans (concatenate_apply_piece (t := S2000000x3x3) 1 _ _ (ix3 n (2 : Fin 3) j) 2 (by simp) S2000000x1x3 (lift (row3 (Host.negf (col1 x)) (col0 x) zcol)) rfl rfl 2 rfl
    (ix3 n (0 : Fin 1) j)
    (fun b => match b with
      | ⟨0, _⟩ => fun _ => rfl
      | ⟨1, _⟩ => fun h => absurd rfl h
      | ⟨2, _⟩ => fun _ => rfl) rfl) (lift_apply _ n j)

end RotA

open RotA

/-- Entry (n, i, j) of the array of skew matrices is entry (i, j) of the skew matrix of row n. -/
theorem skewA_apply (x : (⟨S2000000x3, .f32⟩ : BufTy).Contents (Elt Ideal)) (n : Fin 2000000) (i j : Fin 3) :
    skewA (F := Ideal) x (ix3 n i j) = Cert.SE3.skewR (fun a => x (ix2 n a)) i j := by
  fin_cases i <;> fin_cases j
  · exact (skewA_row0 x n 0).trans ((row3_apply0 _ _ _ n).trans (zcol_apply n))
  · exact (skewA_row0 x n 1).trans ((row3_apply1 _ _ _ n).trans ((negf_apply1 _ n).trans (congrArg Neg.neg (col2_apply x n))))
  · exact (skewA_row0 x n 2).trans ((row3_apply2 _ _ _ n).trans (col1_apply x n))
  · exact (skewA_row1 x n 0).trans ((row3_apply0 _ _ _ n).trans (col2_apply x n))
  · exact (skewA_row1 x n 1).trans ((row3_apply1 _ _ _ n).trans (zcol_apply n))
  · exact (skewA_row1 x n 2).trans ((row3_apply2 _ _ _ n).trans ((negf_apply1 _ n).trans (congrArg Neg.neg (col0_apply x n))))
  · exact (skewA_row2 x n 0).trans ((row3_apply0 _ _ _ n).trans ((negf_apply1 _ n).trans (congrArg Neg.neg (col1_apply x n))))
  · exact (skewA_row2 x n 1).trans ((row3_apply1 _ _ _ n).trans (col0_apply x n))
  · exact (skewA_row2 x n 2).trans ((row3_apply2 _ _ _ n).trans (zcol_apply n))

end Cert.ReferenceIdeal.RefValue

end
-- ==== Proof.RefReadA2.lean ====
/-
  The rotation array read at an index: the identity, the repeated per-pose scalars, the batched product K·K, and the selection
  between the first-order matrix and the full formula.
-/
import proofs.«156985_j58256936403585_2_alg».proof.Proof.RefReadA1
import Idealize.ShloMosaic.Lib.StackMember

noncomputable section

namespace Cert.ReferenceIdeal.RefValue

open Cert.ReferenceIdeal Idealize.ShloMosaic Idealize.ShloMosaic.ValueIdx
open Cert.ReferenceIdeal.Facts₀ Cert.ReferenceIdeal.Facts

variable [Cert.ReferenceIdeal.Facts]

/-- The identity array: the bit "row index = column index" as a float is 1 on the diagonal and 0 off it. -/
theorem eyeA_apply (i j : Fin 3) : eyeA (F := Ideal) (ix2 i j) = Cert.SE3.eyeR i j := by
  fin_cases i <;> fin_cases j <;>
    (show (((IntOp.cmpi .eq (IntOp.addi (BitVec.ofNat 32 _) 0#32) (BitVec.ofNat 32 _)).toNat : ℝ) : EReal) = _
     simp [IntOp.cmpi, IntOp.addi, Cert.SE3.eyeR])

namespace RotA

/-- A 3×3 matrix repeated for every pose reads the matrix. -/
theorem rep_apply (e : (⟨S3x3, .f32⟩ : BufTy).Contents (Elt Ideal)) (n : Fin 2000000) (i j : Fin 3) :
    rep (F := Ideal) e (ix3 n i j) = e (ix2 i j) := by
  unfold rep
  refine Eq.trans (broadcastInDim_apply _ _ _ (ix3 n i j) (ix3 (0 : Fin 1) i j) fun a =>
    match a with
    | ⟨0, _⟩ => rfl
    | ⟨1, _⟩ => rfl
    | ⟨2, _⟩ => rfl) ?_
  exact broadcastInDim_apply _ _ _ (ix3 (0 : Fin 1) i j) (ix2 i j) fun a =>
    match a with
    | ⟨0, _⟩ => rfl
    | ⟨1, _⟩ => rfl

/-- A float per pose repeated over the 3×3 entries reads the pose's float. -/
theorem bc3_apply (y : (⟨S2000000, .f32⟩ : BufTy).Contents (Elt Ideal)) (n : Fin 2000000) (i j : Fin 3) :
    bc3 (F := Ideal) y (ix3 n i j) = y (ix1 n) := by
  unfold bc3
  refine Eq.trans (broadcastInDim_apply _ _ _ (ix3 n i j) (ix3 n (0 : Fin 1) (0 : Fin 1)) fun a =>
    match a with
    | ⟨0, _⟩ => rfl
    | ⟨1, _⟩ => rfl
    | ⟨2, _⟩ => rfl) ?_
  exact broadcastInDim_apply _ _ _ (ix3 n (0 : Fin 1) (0 : Fin 1)) (ix1 n) fun a =>
    match a with
    | ⟨0, _⟩ => rfl

/-- A bit per pose repeated over the 3×3 entries reads the pose's bit. -/
theorem bc3b_apply (y : (⟨S2000000, .i1⟩ : BufTy).Contents (Elt Ideal)) (n : Fin 2000000) (i j : Fin 3) :
    bc3b (F := Ideal) y (ix3 n i j) = y (ix1 n) := by
  unfold bc3b
  refine Eq.trans (broadcastInDim_apply _ _ _ (ix3 n i j) (ix3 n (0 : Fin 1) (0 : Fin 1)) fun a =>
    match a with
    | ⟨0, _⟩ => rfl
    | ⟨1, _⟩ => rfl
    | ⟨2, _⟩ => rfl) ?_
  exact broadcastInDim_apply _ _ _ (ix3 n (0 : Fin 1) (0 : Fin 1)) (ix1 n) fun a =>
    match a with
    | ⟨0, _⟩ => rfl

/-- The batched product of two stacks of 3×3 matrices reads the sum over the middle index. -/
theorem dotA_apply (A B : FVec Ideal S2000000x3x3 .f32) (n : Fin 2000000) (i j : Fin 3) :
    Host.dotGeneral dot_S2000000x3x3_S2000000x3x3_S2000000x3x3_2_1_1_2_0_0 none A B (ix3 n i j)
      = ∑ l : Fin 3, A (ix3 n i l) * B (ix3 n l j) :=
  StackMember.dotGeneral_stack_apply dot_S2000000x3x3_S2000000x3x3_S2000000x3x3_2_1_1_2_0_0_wf none A B n i j

end RotA

open RotA

/-- The rotation array at (n, i, j): the selection on pose n's bit between the first-order matrix of row n of x and the full
    formula at pose n's angle over the skew matrix of row n of k. -/
theorem rot_apply (th : (⟨S2000000, .f32⟩ : BufTy).Contents (Elt Ideal)) (bit : (⟨S2000000, .i1⟩ : BufTy).Contents (Elt Ideal))
    (x k : (⟨S2000000x3, .f32⟩ : BufTy).Contents (Elt Ideal)) (n : Fin 2000000) (i j : Fin 3) :
    rotA (F := Ideal) eyeA bit (skewA x) (rodA eyeA th (skewA k)) (ix3 n i j)
      = Scalar.select (bit (ix1 n)) (Cert.SE3.eyeR i j + Cert.SE3.skewR (fun a => x (ix2 n a)) i j)
          ((Cert.SE3.eyeR i j + Ideal.sin (th (ix1 n)) * Cert.SE3.skewR (fun a => k (ix2 n a)) i j)
            + (Cert.SE3.oneW - Ideal.cos (th (ix1 n)))
              * (0 + ∑ l : Fin 3, Cert.SE3.skewR (fun a => k (ix2 n a)) i l * Cert.SE3.skewR (fun a => k (ix2 n a)) l j)) := by
  unfold rotA rodA
  rw [select_apply, addf_apply, addf_apply, addf_apply, mulf_apply, mulf_apply]
  rw [bc3b_apply, rep_apply, eyeA_apply, skewA_apply, skewA_apply, bc3_apply, bc3_apply, dotA_apply, zero_add]
  simp only [skewA_apply]
  rfl

end Cert.ReferenceIdeal.RefValue

end
-- ==== Proof.RefValue.lean ====
/-
  The reference program's run with its result read entry by entry: every weakly fair execution of @main terminates with
  the result buffer holding, at (n, i, j), the (i, j) entry of T · P for pose n — T = [[R, t], [0 0 0 1]] from pose n's six
  parameters, P its initial 4×4 matrix — in the matrix spelling `Cert.SE3.G`, and the arguments unchanged.
-/
import proofs.«156985_j58256936403585_2_alg».proof.Proof.RefFinal
import proofs.«156985_j58256936403585_2_alg».proof.Proof.RefReadZ
import proofs.«156985_j58256936403585_2_alg».proof.Proof.RefReadA2

noncomputable section

namespace Cert.ReferenceIdeal.RefValue

open Cert.ReferenceIdeal Idealize.ShloMosaic Idealize.ShloMosaic.TcCoe Idealize.SL.Sem Idealize.ShloMosaic.StableHlo

/-- The staged result array is the specification's, entry by entry. -/
theorem s_v108_eq [Cert.ReferenceIdeal.Facts] (a0 : Cert.SE3.SX.Idx → EReal) (a1 : Cert.SE3.SP.Idx → EReal) :
    s_v108 (F := Ideal) a0 a1 = Cert.SE3.G a0 a1 :=
  s_v108_eq_of (fun th bit x k n i j => rot_apply th bit x k n i j) a0 a1

/-- On every device, at the ideal instance, from any memory with zero counters: every weakly fair execution of @main
    terminates with the result at `Cert.SE3.G` of the two arguments' launch contents and the arguments unchanged. -/
theorem run [Cert.ReferenceIdeal.Facts] (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v108) = Cert.SE3.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (s_v108_eq _ _), (h c).2.1, (h c).2.2⟩) (run_stage m ρ)

end Cert.ReferenceIdeal.RefValue

end
-- ==== Proof.lean ====
/-
  The per-pose SE(3) update, kernel against reference, over the extended reals.

  For each of 2 000 000 poses the programs build T = [[R, t], [0 0 0 1]] from six parameters (a translation t and a rotation vector
  ω: R is Rodrigues' rotation about ω / |ω| by the angle |ω|, or the first-order I + skew ω when |ω| is below a threshold) and
  multiply it into the pose's 4×4 matrix.  The reference does this with batched 3×3 and 4×4 matrix products over pose-major arrays.
  The kernel pads the poses to 2²¹, lays them channel-major with the pose index on (row, lane), computes every entry of R with the
  product K·K multiplied out, forms the twelve nontrivial entries of T·P as four-term sums, copies the last row of P, and the
  lines after it re-lay the result pose-major and drop the padding.

  The kernel's result is the function `GK` of the two arguments (entry by entry: the body's block at a point, the blocks' cover of
  the output array, the re-laying after it), the reference's is `G` (its operations read at an index), and on finite inputs the two
  functions agree: all intermediate values are real, the divisor of the axis is 1 or an angle at least the (positive) threshold,
  and the remaining identities are ring identities.  The precondition (every input finite) is used exactly there.  The three
  frames are the generated ones for the two kernel programs and the reference's run with its result dropped; the idealization
  rewrote nothing, so the kernel program's idealized reading is its own text.
-/
import proofs.«156985_j58256936403585_2_alg».proof.Defs
import proofs.«156985_j58256936403585_2_alg».proof.Proof.Gen.Kernel
import proofs.«156985_j58256936403585_2_alg».proof.Proof.Gen.Kernel.Skeleton
import proofs.«156985_j58256936403585_2_alg».proof.Proof.Gen.Kernel.Launch
import proofs.«156985_j58256936403585_2_alg».proof.Proof.Gen.Kernel.Points
import proofs.«156985_j58256936403585_2_alg».proof.Proof.Gen.Kernel.Frame
import proofs.«156985_j58256936403585_2_alg».proof.Proof.Gen.KernelIdeal
import proofs.«156985_j58256936403585_2_alg».proof.Proof.Gen.KernelIdeal.Skeleton
import proofs.«156985_j58256936403585_2_alg».proof.Proof.Gen.KernelIdeal.Launch
import proofs.«156985_j58256936403585_2_alg».proof.Proof.Gen.KernelIdeal.Points
import proofs.«156985_j58256936403585_2_alg».proof.Proof.Gen.KernelIdeal.Frame
import proofs.«156985_j58256936403585_2_alg».proof.Proof.Gen.ReferenceIdeal
import proofs.«156985_j58256936403585_2_alg».proof.Proof.Gen.Pre_finite_inputs
import proofs.«156985_j58256936403585_2_alg».proof.Proof.KRun
import proofs.«156985_j58256936403585_2_alg».proof.Proof.Bridge
import proofs.«156985_j58256936403585_2_alg».proof.Proof.RefValue
import Idealize.ShloMosaic.Adequacy
import Idealize.ShloMosaic.Init

noncomputable section

namespace Cert.Proof

open Idealize.ShloMosaic Idealize.SL.Sem

/-- The word-level kernel program's frame. -/
theorem frame_k : Cert.frame_Kernel := fun m ρ _ => Cert.Kernel.Gen.frame m ρ

/-- The idealized kernel program's frame. -/
theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RefValue.run m ρ)

/-- Both idealized programs end with the matrix-spelling result `G` of arguments that agree: the kernel's entry-by-entry result
    is `G` on finite inputs, the reference's is `G` outright. -/
theorem algebraic : Cert.algebraic_KernelIdeal_ReferenceIdeal := by
  intro m ρ m' ρ' hpre hagree
  refine ⟨fun c => Cert.SE3.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.SE3.GK_eq_G _ _ (hpre c)), (h c).2⟩) (Cert.KernelIdeal.KRun.run m ρ)
  · refine (θ_run Cert.ReferenceIdeal.defs _ _).mono (fun _ h c => ⟨?_, (h c).2⟩) (Cert.ReferenceIdeal.RefValue.run m' ρ')
    rw [(h c).1, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
